-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S50000x1024 : Shape := ⟨2, ![50000, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S50000x1024 : S_.BroadcastsInDim S50000x1024 (![] : Fin 0 → Fin S50000x1024.rank)
  reducesTo_S50000x1024_S_d0_1 : S50000x1024.ReducesTo [0, 1] S_

variable [Facts]

def fn {F : FTy → Type} [FloatOps F] (main_arg0 : FVec F S2048x1024 .f32) (main_arg1 : FVec F S1024x1024 .f32) (main_arg2 : FVec F S50000x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S50000x1024 .f32 := Host.absf main_arg2
  let main_cst_2 : FVec F S_ .f32 := constant S_ .f32 0x7F800000#32
  let main_v10 : FVec F S50000x1024 .f32 := broadcastInDim S50000x1024 ![] bcast_S_S50000x1024 main_cst_2
  let main_v11 : IVec S50000x1024 1 := cmpf .olt main_v9 main_v10
  let main_c_3 : IVec S_ 1 := constantI S_ 1 1#1
  let main_v12 : IVec S_ 1 := (fun x v => Host.reduce IntOp.andi x v reducesTo_S50000x1024_S_d0_1 h_S_) main_v11 main_c_3
  let main_v13 : IVec S_ 1 := andi main_v8 main_v12
  main_v13
-- ==== Kernel.lean ====
abbrev S2048x1024 : Shape := ⟨2, ![2048, 1024]⟩
abbrev S1024x1024 : Shape := ⟨2, ![1024, 1024]⟩
abbrev S50000x1024 : Shape := ⟨2, ![50000, 1024]⟩
abbrev S2048x1 : Shape := ⟨2, ![2048, 1]⟩
abbrev S1024x1 : Shape := ⟨2, ![1024, 1]⟩
abbrev S1024 : Shape := ⟨1, ![1024]⟩
abbrev S1x50000 : Shape := ⟨2, ![1, 50000]⟩
abbrev S1x1024 : Shape := ⟨2, ![1, 1024]⟩
abbrev S2048x50000 : Shape := ⟨2, ![2048, 50000]⟩
abbrev S512x1024 : Shape := ⟨2, ![512, 1024]⟩
abbrev S1x512 : Shape := ⟨2, ![1, 512]⟩
abbrev S2048x512 : Shape := ⟨2, ![2048, 512]⟩

abbrev nBuf : Space → Nat
  | .hbm => 8
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S50000x1024, .f32⟩
  | .hbm, ⟨3, _⟩ => ⟨S2048x1024, .bf16⟩
  | .hbm, ⟨4, _⟩ => ⟨S2048x1, .f32⟩
  | .hbm, ⟨5, _⟩ => ⟨S50000x1024, .bf16⟩
  | .hbm, ⟨6, _⟩ => ⟨S1x50000, .f32⟩
  | .hbm, ⟨7, _⟩ => ⟨S2048x50000, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1, .f32⟩
  | .local _ .vmem, ⟨6, _⟩ => ⟨S1024x1, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S2048x1024, .bf16⟩
  | .local _ .vmem, ⟨14, _⟩ => ⟨S512x1024, .bf16⟩
  | .local _ .vmem, ⟨15, _⟩ => ⟨S512x1024, .bf16⟩
  | .local _ .vmem, ⟨16, _⟩ => ⟨S2048x1, .f32⟩
  | .local _ .vmem, ⟨17, _⟩ => ⟨S1x512, .f32⟩
  | .local _ .vmem, ⟨18, _⟩ => ⟨S1x512, .f32⟩
  | .local _ .vmem, ⟨19, _⟩ => ⟨S2048x512, .f32⟩
  | .local _ .vmem, ⟨20, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  packedbf16_S1024x1024_S1024x1024_0_0 : (Rect.unit (s := S1024x1024) ![0, 0] S1024x1024.size inb_S1024x1024_S1024x1024_0_0).PackedRows (EltTy.packing .bf16)
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S1024x1024_S1024x1024_S1024x1024_1_1_0_0_n_n_wf : DotDims.WF S1024x1024 S1024x1024 S1024x1024 [1] [1] [0] [0] [] []
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .f32 = 32 ∨ (Rect.block (s := S2048x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x1024.size a
  hwx0_2 : ∀ i : grid0.Coords, EltTy.bits .bf16 = 32 ∨ (Rect.block (s := S2048x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1024x1024.size a < S50000x1024.size a
  hwx1_0 : ∀ i : grid1.Coords, EltTy.bits .f32 = 32 ∨ (Rect.unit (s := S50000x1024) (fun a => cc1_transform_0 i a * S1024x1024.size a) (fun a => (Pipeline.Clip.of (cc1_transform_0 i a) (S1024x1024.size a) (S50000x1024.size a)).extent (S1024x1024.size a)) fun a => Pipeline.Clip.inb (Pipeline.Clip.ok_of (hstart1_0 i a))).WholeWords (EltTy.packing .f32)
  hwxs1_0 : ∀ i : grid1.Coords, EltTy.bits .f32 = 32 ∨ (Rect.unit (s := S1024x1024) (fun _ => 0) (fun a => (Pipeline.Clip.of (cc1_transform_0 i a) (S1024x1024.size a) (S50000x1024.size a)).extent (S1024x1024.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x1024.size a < S50000x1024.size a
  hwx1_1 : ∀ i : grid1.Coords, EltTy.bits .bf16 = 32 ∨ (Rect.unit (s := S50000x1024) (fun a => cc1_transform_1 i a * S1024x1024.size a) (fun a => (Pipeline.Clip.of (cc1_transform_1 i a) (S1024x1024.size a) (S50000x1024.size a)).extent (S1024x1024.size a)) fun a => Pipeline.Clip.inb (Pipeline.Clip.ok_of (hstart1_1 i a))).WholeWords (EltTy.packing .bf16)
  hwxs1_1 : ∀ i : grid1.Coords, EltTy.bits .bf16 = 32 ∨ (Rect.unit (s := S1024x1024) (fun _ => 0) (fun a => (Pipeline.Clip.of (cc1_transform_1 i a) (S1024x1024.size a) (S50000x1024.size a)).extent (S1024x1024.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1024.size a < S1x50000.size a
  hwx1_2 : ∀ i : grid1.Coords, EltTy.bits .f32 = 32 ∨ (Rect.unit (s := S1x50000) (fun a => cc1_transform_2 i a * S1x1024.size a) (fun a => (Pipeline.Clip.of (cc1_transform_2 i a) (S1x1024.size a) (S1x50000.size a)).extent (S1x1024.size a)) fun a => Pipeline.Clip.inb (Pipeline.Clip.ok_of (hstart1_2 i a))).WholeWords (EltTy.packing .f32)
  hwxs1_2 : ∀ i : grid1.Coords, EltTy.bits .f32 = 32 ∨ (Rect.unit (s := S1x1024) (fun _ => 0) (fun a => (Pipeline.Clip.of (cc1_transform_2 i a) (S1x1024.size a) (S1x50000.size a)).extent (S1x1024.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S2048x1024.size a
  hwx2_0 : ∀ i : grid2.Coords, EltTy.bits .bf16 = 32 ∨ (Rect.block (s := S2048x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S512x1024.size a < S50000x1024.size a
  hwx2_1 : ∀ i : grid2.Coords, EltTy.bits .bf16 = 32 ∨ (Rect.unit (s := S50000x1024) (fun a => cc2_transform_1 i a * S512x1024.size a) (fun a => (Pipeline.Clip.of (cc2_transform_1 i a) (S512x1024.size a) (S50000x1024.size a)).extent (S512x1024.size a)) fun a => Pipeline.Clip.inb (Pipeline.Clip.ok_of (hstart2_1 i a))).WholeWords (EltTy.packing .bf16)
  hwxs2_1 : ∀ i : grid2.Coords, EltTy.bits .bf16 = 32 ∨ (Rect.unit (s := S512x1024) (fun _ => 0) (fun a => (Pipeline.Clip.of (cc2_transform_1 i a) (S512x1024.size a) (S50000x1024.size a)).extent (S512x1024.size a)) fun a => (Nat.zero_add _).trans_le (Pipeline.Clip.extent_le (Pipeline.Clip.ok_of (hstart2_1 i a)))).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S2048x1.size a
  hwx2_2 : ∀ i : grid2.Coords, EltTy.bits .f32 = 32 ∨ (Rect.block (s := S2048x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x512.size a < S1x50000.size a
  hwx2_3 : ∀ i : grid2.Coords, EltTy.bits .f32 = 32 ∨ (Rect.unit (s := S1x50000) (fun a => cc2_transform_3 i a * S1x512.size a) (fun a => (Pipeline.Clip.of (cc2_transform_3 i a) (S1x512.size a) (S1x50000.size a)).extent (S1x512.size a)) fun a => Pipeline.Clip.inb (Pipeline.Clip.ok_of (hstart2_3 i a))).WholeWords (EltTy.packing .f32)
  hwxs2_3 : ∀ i : grid2.Coords, EltTy.bits .f32 = 32 ∨ (Rect.unit (s := S1x512) (fun _ => 0) (fun a => (Pipeline.Clip.of (cc2_transform_3 i a) (S1x512.size a) (S1x50000.size a)).extent (S1x512.size a)) fun a => (Nat.zero_add _).trans_le (Pipeline.Clip.extent_le (Pipeline.Clip.ok_of (hstart2_3 i a)))).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S2048x512.size a < S2048x50000.size a
  hwx2_4 : ∀ i : grid2.Coords, EltTy.bits .f32 = 32 ∨ (Rect.unit (s := S2048x50000) (fun a => cc2_transform_4 i a * S2048x512.size a) (fun a => (Pipeline.Clip.of (cc2_transform_4 i a) (S2048x512.size a) (S2048x50000.size a)).extent (S2048x512.size a)) fun a => Pipeline.Clip.inb (Pipeline.Clip.ok_of (hstart2_4 i a))).WholeWords (EltTy.packing .f32)
  hwxs2_4 : ∀ i : grid2.Coords, EltTy.bits .f32 = 32 ∨ (Rect.unit (s := S2048x512) (fun _ => 0) (fun a => (Pipeline.Clip.of (cc2_transform_4 i a) (S2048x512.size a) (S2048x50000.size a)).extent (S2048x512.size a)) fun a => (Nat.zero_add _).trans_le (Pipeline.Clip.extent_le (Pipeline.Clip.ok_of (hstart2_4 i a)))).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_arg2) S1024x1024.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1_0) S1024x1024.size cc1_transform_1 reads1_1 true false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v1_1) S1x1024.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S2048x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_v1_0) S512x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v0_1) S2048x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpecClip (Memref.whole main_v1_1) S1x512.size cc2_transform_3 reads2_3 false false 2 stage2_3 sem2_3
    hrank2 hreads2_3 hstart2_3 nbuf2_3 (Memref.isWhole_whole _) hwx2_3 hwxs2_3 hstage2_3

abbrev win2_4 : Pipeline.Window sig grid2 :=
  Pipeline.Window.ofSpecClip (Memref.whole main_v2) S2048x512.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2048x1024 : Shape := ⟨2, ![2048, 1024]⟩
abbrev S1024x1024 : Shape := ⟨2, ![1024, 1024]⟩
abbrev S50000x1024 : Shape := ⟨2, ![50000, 1024]⟩
abbrev S_ : Shape := ⟨0, ![]⟩
abbrev S2048 : Shape := ⟨1, ![2048]⟩
abbrev S50000 : Shape := ⟨1, ![50000]⟩
abbrev S1024x50000 : Shape := ⟨2, ![1024, 50000]⟩
abbrev S2048x50000 : Shape := ⟨2, ![2048, 50000]⟩
abbrev S2048x1 : Shape := ⟨2, ![2048, 1]⟩
abbrev S1x50000 : Shape := ⟨2, ![1, 50000]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S50000x1024, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S50000x1024, .f32⟩
  | .hbm, ⟨10, _⟩ => ⟨S_, .f32⟩
  | .hbm, ⟨11, _⟩ => ⟨S50000, .f32⟩
  | .hbm, ⟨12, _⟩ => ⟨S50000, .f32⟩
  | .hbm, ⟨13, _⟩ => ⟨S1024x50000, .f32⟩
  | .hbm, ⟨14, _⟩ => ⟨S2048x50000, .f32⟩
  | .hbm, ⟨15, _⟩ => ⟨S2048x1, .f32⟩
  | .hbm, ⟨16, _⟩ => ⟨S1x50000, .f32⟩
  | .hbm, ⟨17, _⟩ => ⟨S2048x50000, .f32⟩
  | .hbm, ⟨18, _⟩ => ⟨S2048x50000, .f32⟩
  | .hbm, ⟨19, _⟩ => ⟨S2048x50000, .f32⟩
  | .hbm, ⟨20, _⟩ => ⟨S_, .f32⟩
  | .hbm, ⟨21, _⟩ => ⟨S2048x50000, .f32⟩
  | .hbm, ⟨22, _⟩ => ⟨S2048x50000, .f32⟩
  | .hbm, ⟨23, _⟩ => ⟨S2048x50000, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  transposes_S1024x1024_S1024x1024_1_0 : S1024x1024.Transposes [1, 0] S1024x1024
  reducesTo_S2048x1024_S2048_d1 : S2048x1024.ReducesTo [1] S2048
  h_S_ : 0 < S_.numel
  reducesTo_S50000x1024_S50000_d1 : S50000x1024.ReducesTo [1] S50000
  transposes_S50000x1024_S1024x50000_1_0 : S50000x1024.Transposes [1, 0] S1024x50000
  bcast_S2048_S2048x1_0 : S2048.BroadcastsInDim S2048x1 (![0] : Fin 1 → Fin S2048x1.rank)
  bcast_S50000_S1x50000_1 : S50000.BroadcastsInDim S1x50000 (![1] : Fin 1 → Fin S1x50000.rank)
  bcast_S2048x1_S2048x50000_0_1 : S2048x1.BroadcastsInDim S2048x50000 (![0, 1] : Fin 2 → Fin S2048x50000.rank)
  bcast_S1x50000_S2048x50000_0_1 : S1x50000.BroadcastsInDim S2048x50000 (![0, 1] : Fin 2 → Fin S2048x50000.rank)
  bcast_S_S2048x50000 : S_.BroadcastsInDim S2048x50000 (![] : Fin 0 → Fin S2048x50000.rank)
  dot_S2048x1024_S1024x1024_S2048x1024_1_0_0_1_n_n_wf : DotDims.WF S2048x1024 S1024x1024 S2048x1024 [1] [0] [0] [1] [] []
  dot_S2048x1024_S1024x50000_S2048x50000_1_0_0_1_n_n_wf : DotDims.WF S2048x1024 S1024x50000 S2048x50000 [1] [0] [0] [1] [] []

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x50000_S2048x50000_1_0_0_1_n_n : DotDims S2048x1024 S1024x50000 S2048x50000 where
  lhsContracting := [1]
  rhsContracting := [0]
  lhsNonContracting := [0]
  rhsNonContracting := [1]
  lhsBatch := []
  rhsBatch := []
  wf := dot_S2048x1024_S1024x50000_S2048x50000_1_0_0_1_n_n_wf

class Facts : Prop extends Facts₀ where

variable [Facts]
-- ==== Proof.KernelBodies.lean ====
/-
  What each kernel body does to the staging buffers it is called with, for any float instance.

  Each of the three kernel functions loads its input windows' staging buffers whole, computes, and overwrites its
  output windows' staging buffers whole (the loads of the output buffers that stand before the stores are dead).
  So, run from the buffers at any contents, a body leaves each input buffer as it found it and each output buffer
  at one pure function of the input buffers' contents — the function the program text names for that store:
    kernel 0 (projection):  the bf16 copy of t = x·Wᵀ, and the column of row norms sqrt(Σ_k t(r,k)²);
    kernel 1 (bank pass):   the bf16 copy of the bank block, and the row of its row norms;
    kernel 2 (similarity):  (t·eᵀ) / max(‖t‖·‖e‖, ε) on one block of bank rows.
  These triples say nothing about which grid point runs or which of a window's two buffers is current: they hold at
  every slot, by cases on the slots.
-/
import proofs.«132659_j10831907520535_1_alg».proof.Proof.Gen.Kernel.Launch
import proofs.«132659_j10831907520535_1_alg».proof.Proof.Gen.Kernel.Skeleton
import Idealize.ShloMosaic.Lib.Pipeline.Kit
import Idealize.ShloMosaic.Lib.Tactic

noncomputable section

namespace Cert.Kernel.Bodies

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig Unit (Elt F) ℕ U ℕ

/-- No kernel here has a variant of its own. -/
abbrev 𝒱₀ : Variants := Variants.none

set_option maxHeartbeats 8000000 in
/-- The body of kernel 0 on whichever staging buffers its windows' slots name: every load is of a whole buffer and
    every store overwrites a whole buffer, so the inputs' buffers keep their contents and each output's buffer ends
    holding its payload of the inputs' contents. -/
theorem sound_body0 (c : Dev nD) (E : Set ℕ) (i : grid0.Coords) (s0 : Fin 2) (s1 : Fin 1) (s2 : Fin 2) (s3 : Fin 2)
    (X0 : S1024x1024.Idx → Elt F .f32) (X1 : S1024x1024.Idx → Elt F .f32) (X2 : S1024x1024.Idx → Elt F .bf16) (X3 : S1024x1.Idx → Elt F .f32) (K : PUnit → sProp 𝕄) :
    iprop((owns (c : Thread nD τ) (stage0_0 s0) fullShare X0
            ∗ owns (c : Thread nD τ) (stage0_1 s1) fullShare X1
            ∗ owns (c : Thread nD τ) (stage0_2 s2) fullShare X2
            ∗ owns (c : Thread nD τ) (stage0_3 s3) fullShare X3)
          ∗ (iprop(owns (c : Thread nD τ) (stage0_0 s0) fullShare X0
                  ∗ owns (c : Thread nD τ) (stage0_1 s1) fullShare X1
                  ∗ owns (c : Thread nD τ) (stage0_2 s2) fullShare (k0_pay3 X0 X1)
                  ∗ owns (c : Thread nD τ) (stage0_3 s3) fullShare (k0_pay2 X0 X1)) -∗ K ⟨⟩))
      ⊢ wp frame (wpE (defs₀ (F := F)) 𝒱₀ c none) E
          (cc0__proj_kernel i (stage0_0 s0) (hstage0_0 s0) (stage0_1 s1) (hstage0_1 s1) (stage0_2 s2) (hstage0_2 s2) (stage0_3 s3) (hstage0_3 s3)) K := by
  have hz : (![0, 0] : Fin 2 → Nat) = fun _ => 0 := funext fun a => by fin_cases a <;> rfl
  fin_cases s0 <;> fin_cases s1 <;> fin_cases s2 <;> fin_cases s3
  · -- staging slots 0, 0, 0, 0
    have hr0 : (Memref.whole cc0_stg0_0 : Memref sig .tc _ _ _).view.readAt (Elt F) (Rect.unit (s := S1024x1024) ![0, 0] S1024x1024.size
        inb_S1024x1024_S1024x1024_0_0).toLoadRect = id := funext (Memref.readAt_unit_zero (Elt F) cc0_stg0_0 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_0).access (Rect.unit (s := S1024x1024) ![0, 0] S1024x1024.size inb_S1024x1024_S1024x1024_0_0)) :
        View sig .tc _ _ _).write (Elt F) f w Finset.univ = w := Memref.write_access_unit_zero_univ (Elt F) cc0_stg2_0 hz _
    have hw3 : ∀ f w, (((Memref.whole cc0_stg3_0).access (Rect.unit (s := S1024x1) ![0, 0] S1024x1.size inb_S1024x1_S1024x1_0_0)) :
        View sig .tc _ _ _).write (Elt F) f w Finset.univ = w := Memref.write_access_unit_zero_univ (Elt F) cc0_stg3_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 0, 0, 0, 1
    have hr0 : (Memref.whole cc0_stg0_0 : Memref sig .tc _ _ _).view.readAt (Elt F) (Rect.unit (s := S1024x1024) ![0, 0] S1024x1024.size
        inb_S1024x1024_S1024x1024_0_0).toLoadRect = id := funext (Memref.readAt_unit_zero (Elt F) cc0_stg0_0 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_0).access (Rect.unit (s := S1024x1024) ![0, 0] S1024x1024.size inb_S1024x1024_S1024x1024_0_0)) :
        View sig .tc _ _ _).write (Elt F) f w Finset.univ = w := Memref.write_access_unit_zero_univ (Elt F) cc0_stg2_0 hz _
    have hw3 : ∀ f w, (((Memref.whole cc0_stg3_1).access (Rect.unit (s := S1024x1) ![0, 0] S1024x1.size inb_S1024x1_S1024x1_0_0)) :
        View sig .tc _ _ _).write (Elt F) f w Finset.univ = w := Memref.write_access_unit_zero_univ (Elt F) cc0_stg3_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 0, 0, 1, 0
    have hr0 : (Memref.whole cc0_stg0_0 : Memref sig .tc _ _ _).view.readAt (Elt F) (Rect.unit (s := S1024x1024) ![0, 0] S1024x1024.size
        inb_S1024x1024_S1024x1024_0_0).toLoadRect = id := funext (Memref.readAt_unit_zero (Elt F) cc0_stg0_0 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_1).access (Rect.unit (s := S1024x1024) ![0, 0] S1024x1024.size inb_S1024x1024_S1024x1024_0_0)) :
        View sig .tc _ _ _).write (Elt F) f w Finset.univ = w := Memref.write_access_unit_zero_univ (Elt F) cc0_stg2_1 hz _
    have hw3 : ∀ f w, (((Memref.whole cc0_stg3_0).access (Rect.unit (s := S1024x1) ![0, 0] S1024x1.size inb_S1024x1_S1024x1_0_0)) :
        View sig .tc _ _ _).write (Elt F) f w Finset.univ = w := Memref.write_access_unit_zero_univ (Elt F) cc0_stg3_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 0, 0, 1, 1
    have hr0 : (Memref.whole cc0_stg0_0 : Memref sig .tc _ _ _).view.readAt (Elt F) (Rect.unit (s := S1024x1024) ![0, 0] S1024x1024.size
        inb_S1024x1024_S1024x1024_0_0).toLoadRect = id := funext (Memref.readAt_unit_zero (Elt F) cc0_stg0_0 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_1).access (Rect.unit (s := S1024x1024) ![0, 0] S1024x1024.size inb_S1024x1024_S1024x1024_0_0)) :
        View sig .tc _ _ _).write (Elt F) f w Finset.univ = w := Memref.write_access_unit_zero_univ (Elt F) cc0_stg2_1 hz _
    have hw3 : ∀ f w, (((Memref.whole cc0_stg3_1).access (Rect.unit (s := S1024x1) ![0, 0] S1024x1.size inb_S1024x1_S1024x1_0_0)) :
        View sig .tc _ _ _).write (Elt F) f w Finset.univ = w := Memref.write_access_unit_zero_univ (Elt F) cc0_stg3_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 1, 0, 0, 0
    have hr0 : (Memref.whole cc0_stg0_1 : Memref sig .tc _ _ _).view.readAt (Elt F) (Rect.unit (s := S1024x1024) ![0, 0] S1024x1024.size
        inb_S1024x1024_S1024x1024_0_0).toLoadRect = id := funext (Memref.readAt_unit_zero (Elt F) cc0_stg0_1 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_0).access (Rect.unit (s := S1024x1024) ![0, 0] S1024x1024.size inb_S1024x1024_S1024x1024_0_0)) :
        View sig .tc _ _ _).write (Elt F) f w Finset.univ = w := Memref.write_access_unit_zero_univ (Elt F) cc0_stg2_0 hz _
    have hw3 : ∀ f w, (((Memref.whole cc0_stg3_0).access (Rect.unit (s := S1024x1) ![0, 0] S1024x1.size inb_S1024x1_S1024x1_0_0)) :
        View sig .tc _ _ _).write (Elt F) f w Finset.univ = w := Memref.write_access_unit_zero_univ (Elt F) cc0_stg3_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 1, 0, 0, 1
    have hr0 : (Memref.whole cc0_stg0_1 : Memref sig .tc _ _ _).view.readAt (Elt F) (Rect.unit (s := S1024x1024) ![0, 0] S1024x1024.size
        inb_S1024x1024_S1024x1024_0_0).toLoadRect = id := funext (Memref.readAt_unit_zero (Elt F) cc0_stg0_1 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_0).access (Rect.unit (s := S1024x1024) ![0, 0] S1024x1024.size inb_S1024x1024_S1024x1024_0_0)) :
        View sig .tc _ _ _).write (Elt F) f w Finset.univ = w := Memref.write_access_unit_zero_univ (Elt F) cc0_stg2_0 hz _
    have hw3 : ∀ f w, (((Memref.whole cc0_stg3_1).access (Rect.unit (s := S1024x1) ![0, 0] S1024x1.size inb_S1024x1_S1024x1_0_0)) :
        View sig .tc _ _ _).write (Elt F) f w Finset.univ = w := Memref.write_access_unit_zero_univ (Elt F) cc0_stg3_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 1, 0, 1, 0
    have hr0 : (Memref.whole cc0_stg0_1 : Memref sig .tc _ _ _).view.readAt (Elt F) (Rect.unit (s := S1024x1024) ![0, 0] S1024x1024.size
        inb_S1024x1024_S1024x1024_0_0).toLoadRect = id := funext (Memref.readAt_unit_zero (Elt F) cc0_stg0_1 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_1).access (Rect.unit (s := S1024x1024) ![0, 0] S1024x1024.size inb_S1024x1024_S1024x1024_0_0)) :
        View sig .tc _ _ _).write (Elt F) f w Finset.univ = w := Memref.write_access_unit_zero_univ (Elt F) cc0_stg2_1 hz _
    have hw3 : ∀ f w, (((Memref.whole cc0_stg3_0).access (Rect.unit (s := S1024x1) ![0, 0] S1024x1.size inb_S1024x1_S1024x1_0_0)) :
        View sig .tc _ _ _).write (Elt F) f w Finset.univ = w := Memref.write_access_unit_zero_univ (Elt F) cc0_stg3_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 1, 0, 1, 1
    have hr0 : (Memref.whole cc0_stg0_1 : Memref sig .tc _ _ _).view.readAt (Elt F) (Rect.unit (s := S1024x1024) ![0, 0] S1024x1024.size
        inb_S1024x1024_S1024x1024_0_0).toLoadRect = id := funext (Memref.readAt_unit_zero (Elt F) cc0_stg0_1 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_1).access (Rect.unit (s := S1024x1024) ![0, 0] S1024x1024.size inb_S1024x1024_S1024x1024_0_0)) :
        View sig .tc _ _ _).write (Elt F) f w Finset.univ = w := Memref.write_access_unit_zero_univ (Elt F) cc0_stg2_1 hz _
    have hw3 : ∀ f w, (((Memref.whole cc0_stg3_1).access (Rect.unit (s := S1024x1) ![0, 0] S1024x1.size inb_S1024x1_S1024x1_0_0)) :
        View sig .tc _ _ _).write (Elt F) f w Finset.univ = w := Memref.write_access_unit_zero_univ (Elt F) cc0_stg3_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3

set_option maxHeartbeats 8000000 in
/-- The body of kernel 1 on whichever staging buffers its windows' slots name: every load is of a whole buffer and
    every store overwrites a whole buffer, so the inputs' buffers keep their contents and each output's buffer ends
    holding its payload of the inputs' contents. -/
theorem sound_body1 (c : Dev nD) (E : Set ℕ) (i : grid1.Coords) (s0 : Fin 2) (s1 : Fin 2) (s2 : Fin 2)
    (X0 : S1024x1024.Idx → Elt F .f32) (X1 : S1024x1024.Idx → Elt F .bf16) (X2 : S1x1024.Idx → Elt F .f32) (K : PUnit → sProp 𝕄) :
    iprop((owns (c : Thread nD τ) (stage1_0 s0) fullShare X0
            ∗ owns (c : Thread nD τ) (stage1_1 s1) fullShare X1
            ∗ owns (c : Thread nD τ) (stage1_2 s2) fullShare X2)
          ∗ (iprop(owns (c : Thread nD τ) (stage1_0 s0) fullShare X0
                  ∗ owns (c : Thread nD τ) (stage1_1 s1) fullShare (k1_pay2 X0)
                  ∗ owns (c : Thread nD τ) (stage1_2 s2) fullShare (k1_pay1 X0)) -∗ K ⟨⟩))
      ⊢ wp frame (wpE (defs₀ (F := F)) 𝒱₀ c none) E
          (cc1__norm_cast_kernel i (stage1_0 s0) (hstage1_0 s0) (stage1_1 s1) (hstage1_1 s1) (stage1_2 s2) (hstage1_2 s2)) K := by
  have hz : (![0, 0] : Fin 2 → Nat) = fun _ => 0 := funext fun a => by fin_cases a <;> rfl
  fin_cases s0 <;> fin_cases s1 <;> fin_cases s2
  · -- staging slots 0, 0, 0
    have hr0 : (Memref.whole cc1_stg0_0 : Memref sig .tc _ _ _).view.readAt (Elt F) (Rect.unit (s := S1024x1024) ![0, 0] S1024x1024.size
        inb_S1024x1024_S1024x1024_0_0).toLoadRect = id := funext (Memref.readAt_unit_zero (Elt F) cc1_stg0_0 hz _)
    have hw1 : ∀ f w, (((Memref.whole cc1_stg1_0).access (Rect.unit (s := S1024x1024) ![0, 0] S1024x1024.size inb_S1024x1024_S1024x1024_0_0)) :
        View sig .tc _ _ _).write (Elt F) f w Finset.univ = w := Memref.write_access_unit_zero_univ (Elt F) cc1_stg1_0 hz _
    have hw2 : ∀ f w, (((Memref.whole cc1_stg2_0).access (Rect.unit (s := S1x1024) ![0, 0] S1x1024.size inb_S1x1024_S1x1024_0_0)) :
        View sig .tc _ _ _).write (Elt F) f w Finset.univ = w := Memref.write_access_unit_zero_univ (Elt F) cc1_stg2_0 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 0, 0, 1
    have hr0 : (Memref.whole cc1_stg0_0 : Memref sig .tc _ _ _).view.readAt (Elt F) (Rect.unit (s := S1024x1024) ![0, 0] S1024x1024.size
        inb_S1024x1024_S1024x1024_0_0).toLoadRect = id := funext (Memref.readAt_unit_zero (Elt F) cc1_stg0_0 hz _)
    have hw1 : ∀ f w, (((Memref.whole cc1_stg1_0).access (Rect.unit (s := S1024x1024) ![0, 0] S1024x1024.size inb_S1024x1024_S1024x1024_0_0)) :
        View sig .tc _ _ _).write (Elt F) f w Finset.univ = w := Memref.write_access_unit_zero_univ (Elt F) cc1_stg1_0 hz _
    have hw2 : ∀ f w, (((Memref.whole cc1_stg2_1).access (Rect.unit (s := S1x1024) ![0, 0] S1x1024.size inb_S1x1024_S1x1024_0_0)) :
        View sig .tc _ _ _).write (Elt F) f w Finset.univ = w := Memref.write_access_unit_zero_univ (Elt F) cc1_stg2_1 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 0, 1, 0
    have hr0 : (Memref.whole cc1_stg0_0 : Memref sig .tc _ _ _).view.readAt (Elt F) (Rect.unit (s := S1024x1024) ![0, 0] S1024x1024.size
        inb_S1024x1024_S1024x1024_0_0).toLoadRect = id := funext (Memref.readAt_unit_zero (Elt F) cc1_stg0_0 hz _)
    have hw1 : ∀ f w, (((Memref.whole cc1_stg1_1).access (Rect.unit (s := S1024x1024) ![0, 0] S1024x1024.size inb_S1024x1024_S1024x1024_0_0)) :
        View sig .tc _ _ _).write (Elt F) f w Finset.univ = w := Memref.write_access_unit_zero_univ (Elt F) cc1_stg1_1 hz _
    have hw2 : ∀ f w, (((Memref.whole cc1_stg2_0).access (Rect.unit (s := S1x1024) ![0, 0] S1x1024.size inb_S1x1024_S1x1024_0_0)) :
        View sig .tc _ _ _).write (Elt F) f w Finset.univ = w := Memref.write_access_unit_zero_univ (Elt F) cc1_stg2_0 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 0, 1, 1
    have hr0 : (Memref.whole cc1_stg0_0 : Memref sig .tc _ _ _).view.readAt (Elt F) (Rect.unit (s := S1024x1024) ![0, 0] S1024x1024.size
        inb_S1024x1024_S1024x1024_0_0).toLoadRect = id := funext (Memref.readAt_unit_zero (Elt F) cc1_stg0_0 hz _)
    have hw1 : ∀ f w, (((Memref.whole cc1_stg1_1).access (Rect.unit (s := S1024x1024) ![0, 0] S1024x1024.size inb_S1024x1024_S1024x1024_0_0)) :
        View sig .tc _ _ _).write (Elt F) f w Finset.univ = w := Memref.write_access_unit_zero_univ (Elt F) cc1_stg1_1 hz _
    have hw2 : ∀ f w, (((Memref.whole cc1_stg2_1).access (Rect.unit (s := S1x1024) ![0, 0] S1x1024.size inb_S1x1024_S1x1024_0_0)) :
        View sig .tc _ _ _).write (Elt F) f w Finset.univ = w := Memref.write_access_unit_zero_univ (Elt F) cc1_stg2_1 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 1, 0, 0
    have hr0 : (Memref.whole cc1_stg0_1 : Memref sig .tc _ _ _).view.readAt (Elt F) (Rect.unit (s := S1024x1024) ![0, 0] S1024x1024.size
        inb_S1024x1024_S1024x1024_0_0).toLoadRect = id := funext (Memref.readAt_unit_zero (Elt F) cc1_stg0_1 hz _)
    have hw1 : ∀ f w, (((Memref.whole cc1_stg1_0).access (Rect.unit (s := S1024x1024) ![0, 0] S1024x1024.size inb_S1024x1024_S1024x1024_0_0)) :
        View sig .tc _ _ _).write (Elt F) f w Finset.univ = w := Memref.write_access_unit_zero_univ (Elt F) cc1_stg1_0 hz _
    have hw2 : ∀ f w, (((Memref.whole cc1_stg2_0).access (Rect.unit (s := S1x1024) ![0, 0] S1x1024.size inb_S1x1024_S1x1024_0_0)) :
        View sig .tc _ _ _).write (Elt F) f w Finset.univ = w := Memref.write_access_unit_zero_univ (Elt F) cc1_stg2_0 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 1, 0, 1
    have hr0 : (Memref.whole cc1_stg0_1 : Memref sig .tc _ _ _).view.readAt (Elt F) (Rect.unit (s := S1024x1024) ![0, 0] S1024x1024.size
        inb_S1024x1024_S1024x1024_0_0).toLoadRect = id := funext (Memref.readAt_unit_zero (Elt F) cc1_stg0_1 hz _)
    have hw1 : ∀ f w, (((Memref.whole cc1_stg1_0).access (Rect.unit (s := S1024x1024) ![0, 0] S1024x1024.size inb_S1024x1024_S1024x1024_0_0)) :
        View sig .tc _ _ _).write (Elt F) f w Finset.univ = w := Memref.write_access_unit_zero_univ (Elt F) cc1_stg1_0 hz _
    have hw2 : ∀ f w, (((Memref.whole cc1_stg2_1).access (Rect.unit (s := S1x1024) ![0, 0] S1x1024.size inb_S1x1024_S1x1024_0_0)) :
        View sig .tc _ _ _).write (Elt F) f w Finset.univ = w := Memref.write_access_unit_zero_univ (Elt F) cc1_stg2_1 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 1, 1, 0
    have hr0 : (Memref.whole cc1_stg0_1 : Memref sig .tc _ _ _).view.readAt (Elt F) (Rect.unit (s := S1024x1024) ![0, 0] S1024x1024.size
        inb_S1024x1024_S1024x1024_0_0).toLoadRect = id := funext (Memref.readAt_unit_zero (Elt F) cc1_stg0_1 hz _)
    have hw1 : ∀ f w, (((Memref.whole cc1_stg1_1).access (Rect.unit (s := S1024x1024) ![0, 0] S1024x1024.size inb_S1024x1024_S1024x1024_0_0)) :
        View sig .tc _ _ _).write (Elt F) f w Finset.univ = w := Memref.write_access_unit_zero_univ (Elt F) cc1_stg1_1 hz _
    have hw2 : ∀ f w, (((Memref.whole cc1_stg2_0).access (Rect.unit (s := S1x1024) ![0, 0] S1x1024.size inb_S1x1024_S1x1024_0_0)) :
        View sig .tc _ _ _).write (Elt F) f w Finset.univ = w := Memref.write_access_unit_zero_univ (Elt F) cc1_stg2_0 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 1, 1, 1
    have hr0 : (Memref.whole cc1_stg0_1 : Memref sig .tc _ _ _).view.readAt (Elt F) (Rect.unit (s := S1024x1024) ![0, 0] S1024x1024.size
        inb_S1024x1024_S1024x1024_0_0).toLoadRect = id := funext (Memref.readAt_unit_zero (Elt F) cc1_stg0_1 hz _)
    have hw1 : ∀ f w, (((Memref.whole cc1_stg1_1).access (Rect.unit (s := S1024x1024) ![0, 0] S1024x1024.size inb_S1024x1024_S1024x1024_0_0)) :
        View sig .tc _ _ _).write (Elt F) f w Finset.univ = w := Memref.write_access_unit_zero_univ (Elt F) cc1_stg1_1 hz _
    have hw2 : ∀ f w, (((Memref.whole cc1_stg2_1).access (Rect.unit (s := S1x1024) ![0, 0] S1x1024.size inb_S1x1024_S1x1024_0_0)) :
        View sig .tc _ _ _).write (Elt F) f w Finset.univ = w := Memref.write_access_unit_zero_univ (Elt F) cc1_stg2_1 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2

set_option maxHeartbeats 8000000 in
/-- The body of kernel 2 on whichever staging buffers its windows' slots name: every load is of a whole buffer and
    every store overwrites a whole buffer, so the inputs' buffers keep their contents and each output's buffer ends
    holding its payload of the inputs' contents. -/
theorem sound_body2 (c : Dev nD) (E : Set ℕ) (i : grid2.Coords) (s0 : Fin 1) (s1 : Fin 2) (s2 : Fin 1) (s3 : Fin 2) (s4 : Fin 2)
    (X0 : S2048x1024.Idx → Elt F .bf16) (X1 : S512x1024.Idx → Elt F .bf16) (X2 : S2048x1.Idx → Elt F .f32) (X3 : S1x512.Idx → Elt F .f32) (X4 : S2048x512.Idx → Elt F .f32) (K : PUnit → sProp 𝕄) :
    iprop((owns (c : Thread nD τ) (stage2_0 s0) fullShare X0
            ∗ owns (c : Thread nD τ) (stage2_1 s1) fullShare X1
            ∗ owns (c : Thread nD τ) (stage2_2 s2) fullShare X2
            ∗ owns (c : Thread nD τ) (stage2_3 s3) fullShare X3
            ∗ owns (c : Thread nD τ) (stage2_4 s4) fullShare X4)
          ∗ (iprop(owns (c : Thread nD τ) (stage2_0 s0) fullShare X0
                  ∗ owns (c : Thread nD τ) (stage2_1 s1) fullShare X1
                  ∗ owns (c : Thread nD τ) (stage2_2 s2) fullShare X2
                  ∗ owns (c : Thread nD τ) (stage2_3 s3) fullShare X3
                  ∗ owns (c : Thread nD τ) (stage2_4 s4) fullShare (k2_pay1 X0 X1 X2 X3)) -∗ K ⟨⟩))
      ⊢ wp frame (wpE (defs₀ (F := F)) 𝒱₀ c none) E
          (cc2__cos_sim_kernel i (stage2_0 s0) (hstage2_0 s0) (stage2_1 s1) (hstage2_1 s1) (stage2_2 s2) (hstage2_2 s2) (stage2_3 s3) (hstage2_3 s3) (stage2_4 s4) (hstage2_4 s4)) K := by
  have hz : (![0, 0] : Fin 2 → Nat) = fun _ => 0 := funext fun a => by fin_cases a <;> rfl
  fin_cases s0 <;> fin_cases s1 <;> fin_cases s2 <;> fin_cases s3 <;> fin_cases s4
  · -- staging slots 0, 0, 0, 0, 0
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_0 : Memref sig .tc _ _ _).view.readAt (Elt F) (Rect.unit (s := S512x1024) ![0, 0] S512x1024.size
        inb_S512x1024_S512x1024_0_0).toLoadRect = id := funext (Memref.readAt_unit_zero (Elt F) cc2_stg1_0 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_0 : Memref sig .tc _ _ _).view.readAt (Elt F) (Rect.unit (s := S1x512) ![0, 0] S1x512.size
        inb_S1x512_S1x512_0_0).toLoadRect = id := funext (Memref.readAt_unit_zero (Elt F) cc2_stg3_0 hz _)
    have hw4 : ∀ f w, (((Memref.whole cc2_stg4_0).access (Rect.unit (s := S2048x512) ![0, 0] S2048x512.size inb_S2048x512_S2048x512_0_0)) :
        View sig .tc _ _ _).write (Elt F) f w Finset.univ = w := Memref.write_access_unit_zero_univ (Elt F) cc2_stg4_0 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 0, 0, 0, 1
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_0 : Memref sig .tc _ _ _).view.readAt (Elt F) (Rect.unit (s := S512x1024) ![0, 0] S512x1024.size
        inb_S512x1024_S512x1024_0_0).toLoadRect = id := funext (Memref.readAt_unit_zero (Elt F) cc2_stg1_0 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_0 : Memref sig .tc _ _ _).view.readAt (Elt F) (Rect.unit (s := S1x512) ![0, 0] S1x512.size
        inb_S1x512_S1x512_0_0).toLoadRect = id := funext (Memref.readAt_unit_zero (Elt F) cc2_stg3_0 hz _)
    have hw4 : ∀ f w, (((Memref.whole cc2_stg4_1).access (Rect.unit (s := S2048x512) ![0, 0] S2048x512.size inb_S2048x512_S2048x512_0_0)) :
        View sig .tc _ _ _).write (Elt F) f w Finset.univ = w := Memref.write_access_unit_zero_univ (Elt F) cc2_stg4_1 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 0, 0, 1, 0
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_0 : Memref sig .tc _ _ _).view.readAt (Elt F) (Rect.unit (s := S512x1024) ![0, 0] S512x1024.size
        inb_S512x1024_S512x1024_0_0).toLoadRect = id := funext (Memref.readAt_unit_zero (Elt F) cc2_stg1_0 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_1 : Memref sig .tc _ _ _).view.readAt (Elt F) (Rect.unit (s := S1x512) ![0, 0] S1x512.size
        inb_S1x512_S1x512_0_0).toLoadRect = id := funext (Memref.readAt_unit_zero (Elt F) cc2_stg3_1 hz _)
    have hw4 : ∀ f w, (((Memref.whole cc2_stg4_0).access (Rect.unit (s := S2048x512) ![0, 0] S2048x512.size inb_S2048x512_S2048x512_0_0)) :
        View sig .tc _ _ _).write (Elt F) f w Finset.univ = w := Memref.write_access_unit_zero_univ (Elt F) cc2_stg4_0 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 0, 0, 1, 1
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_0 : Memref sig .tc _ _ _).view.readAt (Elt F) (Rect.unit (s := S512x1024) ![0, 0] S512x1024.size
        inb_S512x1024_S512x1024_0_0).toLoadRect = id := funext (Memref.readAt_unit_zero (Elt F) cc2_stg1_0 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_1 : Memref sig .tc _ _ _).view.readAt (Elt F) (Rect.unit (s := S1x512) ![0, 0] S1x512.size
        inb_S1x512_S1x512_0_0).toLoadRect = id := funext (Memref.readAt_unit_zero (Elt F) cc2_stg3_1 hz _)
    have hw4 : ∀ f w, (((Memref.whole cc2_stg4_1).access (Rect.unit (s := S2048x512) ![0, 0] S2048x512.size inb_S2048x512_S2048x512_0_0)) :
        View sig .tc _ _ _).write (Elt F) f w Finset.univ = w := Memref.write_access_unit_zero_univ (Elt F) cc2_stg4_1 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 1, 0, 0, 0
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_1 : Memref sig .tc _ _ _).view.readAt (Elt F) (Rect.unit (s := S512x1024) ![0, 0] S512x1024.size
        inb_S512x1024_S512x1024_0_0).toLoadRect = id := funext (Memref.readAt_unit_zero (Elt F) cc2_stg1_1 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_0 : Memref sig .tc _ _ _).view.readAt (Elt F) (Rect.unit (s := S1x512) ![0, 0] S1x512.size
        inb_S1x512_S1x512_0_0).toLoadRect = id := funext (Memref.readAt_unit_zero (Elt F) cc2_stg3_0 hz _)
    have hw4 : ∀ f w, (((Memref.whole cc2_stg4_0).access (Rect.unit (s := S2048x512) ![0, 0] S2048x512.size inb_S2048x512_S2048x512_0_0)) :
        View sig .tc _ _ _).write (Elt F) f w Finset.univ = w := Memref.write_access_unit_zero_univ (Elt F) cc2_stg4_0 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 1, 0, 0, 1
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_1 : Memref sig .tc _ _ _).view.readAt (Elt F) (Rect.unit (s := S512x1024) ![0, 0] S512x1024.size
        inb_S512x1024_S512x1024_0_0).toLoadRect = id := funext (Memref.readAt_unit_zero (Elt F) cc2_stg1_1 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_0 : Memref sig .tc _ _ _).view.readAt (Elt F) (Rect.unit (s := S1x512) ![0, 0] S1x512.size
        inb_S1x512_S1x512_0_0).toLoadRect = id := funext (Memref.readAt_unit_zero (Elt F) cc2_stg3_0 hz _)
    have hw4 : ∀ f w, (((Memref.whole cc2_stg4_1).access (Rect.unit (s := S2048x512) ![0, 0] S2048x512.size inb_S2048x512_S2048x512_0_0)) :
        View sig .tc _ _ _).write (Elt F) f w Finset.univ = w := Memref.write_access_unit_zero_univ (Elt F) cc2_stg4_1 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 1, 0, 1, 0
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_1 : Memref sig .tc _ _ _).view.readAt (Elt F) (Rect.unit (s := S512x1024) ![0, 0] S512x1024.size
        inb_S512x1024_S512x1024_0_0).toLoadRect = id := funext (Memref.readAt_unit_zero (Elt F) cc2_stg1_1 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_1 : Memref sig .tc _ _ _).view.readAt (Elt F) (Rect.unit (s := S1x512) ![0, 0] S1x512.size
        inb_S1x512_S1x512_0_0).toLoadRect = id := funext (Memref.readAt_unit_zero (Elt F) cc2_stg3_1 hz _)
    have hw4 : ∀ f w, (((Memref.whole cc2_stg4_0).access (Rect.unit (s := S2048x512) ![0, 0] S2048x512.size inb_S2048x512_S2048x512_0_0)) :
        View sig .tc _ _ _).write (Elt F) f w Finset.univ = w := Memref.write_access_unit_zero_univ (Elt F) cc2_stg4_0 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 1, 0, 1, 1
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_1 : Memref sig .tc _ _ _).view.readAt (Elt F) (Rect.unit (s := S512x1024) ![0, 0] S512x1024.size
        inb_S512x1024_S512x1024_0_0).toLoadRect = id := funext (Memref.readAt_unit_zero (Elt F) cc2_stg1_1 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_1 : Memref sig .tc _ _ _).view.readAt (Elt F) (Rect.unit (s := S1x512) ![0, 0] S1x512.size
        inb_S1x512_S1x512_0_0).toLoadRect = id := funext (Memref.readAt_unit_zero (Elt F) cc2_stg3_1 hz _)
    have hw4 : ∀ f w, (((Memref.whole cc2_stg4_1).access (Rect.unit (s := S2048x512) ![0, 0] S2048x512.size inb_S2048x512_S2048x512_0_0)) :
        View sig .tc _ _ _).write (Elt F) f w Finset.univ = w := Memref.write_access_unit_zero_univ (Elt F) cc2_stg4_1 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4

end Cert.Kernel.Bodies

end
-- ==== Proof.KernelFrameData.lean ====
/-
  The word-level program's three kernel regions, with proof data that says nothing of what a body leaves in a staging
  buffer.

  For a frame — the program runs to its end, nothing faults, the arguments end as launched — no contents of any written
  array are needed. So each pipeline's proof data names only the arrays' contents when the region is entered, and
  relates what a body finds in a staging buffer to what it leaves there by the relation that always holds. Between a
  region's ends the invariant is the scoped buffers no window stages, each at some contents. The body obligation is then:
  run the body on the buffers at whatever they hold, and hand them back at whatever they then hold.
-/
import proofs.«132659_j10831907520535_1_alg».proof.Proof.KernelBodies
import proofs.«132659_j10831907520535_1_alg».proof.Proof.Gen.Kernel.Launch
import Idealize.ShloMosaic.Lib.Pipeline.Kit
import Idealize.ShloMosaic.Lib.Pipeline.Regions
import Idealize.ShloMosaic.Lib.Tactic

noncomputable section

namespace Cert.Kernel.Frame

open Cert.Kernel Cert.Kernel.Gen Cert.Kernel.Bodies

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

/-- Two copies of the rounds algebra side by side: the left funds the regions entered in order from the launch, the
    right the region entered once the contents it reads are known. -/
abbrev U2 : Type := UR sig nD τ × UR sig nD τ

local notation "𝕄" => MT nD τ sig Unit (Elt F) ℕ U2 ℕ

/-- No pipeline prefetches a table: the one admissible (empty) contents. -/
abbrev adm : (p : Fin 3) → (pcfgs (F := F) p).Adm := fun p => (cfgs p).toPCfg_adm

/-- Pipeline `p`'s proof data on core `c`, from its arrays' contents `A` at entry: every window's relation the one that
    always holds, the invariant the scoped buffers the pipeline does not stage, nothing owed, full shares. -/
def rdOf (p : Fin 3) (c : Dev nD)
    (A : (w : Fin (Pipeline.pin (pcfgs (F := F)) adm p).W) → Buf (Elt F) (((Pipeline.pin (pcfgs (F := F)) adm p).win w).arr.view.loc (c : Thread nD τ))) :
    RDat τ (Elt F) Unit ℕ U2 ℕ (Pipeline.pin (pcfgs (F := F)) adm p) c where
  A := A
  after _ _ _ _ := True
  Φ _ := Pipeline.scopedRest (cfgs p).spec c
  q _ := fullShare
  owed _ := 0

theorem rdOf_share (p : Fin 3) (c : Dev nD) (A) (w) : (rdOf (F := F) p c A).share w = fullShare := by
  unfold Pipeline.RDat.share; split <;> rfl

/-- Pipeline 0's body obligation: the body runs from its current staging buffers at whatever they hold and hands each
    back at some contents; the invariant and what the core owes pass through untouched. -/
theorem hbody0 (c : Dev nD) (A) : (rdOf (F := F) 0 c A).BodyObligation defs₀ 𝒱₀ () Set.univ := fun t Y _ => by
  rw [bigSep_W0, bigSep_W0]
  rw [show (rdOf (F := F) 0 c A).Φ t.succ = (rdOf (F := F) 0 c A).Φ t.castSucc from rfl,
    show (rdOf (F := F) 0 c A).owesAt () t.succ = (rdOf (F := F) 0 c A).owesAt () t.castSucc from rfl]
  iintro ⟨HΦ, Ho, H0, H1, H2, H3⟩
  iapply (sound_body0 (F := F) c Set.univ (grid0.coords t) (cfg0.slots t 0) (cfg0.slots t 1) (cfg0.slots t 2) (cfg0.slots t 3) (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (k0_pay3 (Y 0) (Y 1)); isplitr; · ipureintro; trivial
    iexact H2
  · iexists (k0_pay2 (Y 0) (Y 1)); isplitr; · ipureintro; trivial
    iexact H3

/-- Pipeline 1's body obligation: the body runs from its current staging buffers at whatever they hold and hands each
    back at some contents; the invariant and what the core owes pass through untouched. -/
theorem hbody1 (c : Dev nD) (A) : (rdOf (F := F) 1 c A).BodyObligation defs₀ 𝒱₀ () Set.univ := fun t Y _ => by
  rw [bigSep_W1, bigSep_W1]
  rw [show (rdOf (F := F) 1 c A).Φ t.succ = (rdOf (F := F) 1 c A).Φ t.castSucc from rfl,
    show (rdOf (F := F) 1 c A).owesAt () t.succ = (rdOf (F := F) 1 c A).owesAt () t.castSucc from rfl]
  iintro ⟨HΦ, Ho, H0, H1, H2⟩
  iapply (sound_body1 (F := F) c Set.univ (grid1.coords t) (cfg1.slots t 0) (cfg1.slots t 1) (cfg1.slots t 2) (Y 0) (Y 1) (Y 2) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (k1_pay2 (Y 0)); isplitr; · ipureintro; trivial
    iexact H1
  · iexists (k1_pay1 (Y 0)); isplitr; · ipureintro; trivial
    iexact H2

/-- Pipeline 2's body obligation: the body runs from its current staging buffers at whatever they hold and hands each
    back at some contents; the invariant and what the core owes pass through untouched. -/
theorem hbody2 (c : Dev nD) (A) : (rdOf (F := F) 2 c A).BodyObligation defs₀ 𝒱₀ () Set.univ := fun t Y _ => by
  rw [bigSep_W2, bigSep_W2]
  rw [show (rdOf (F := F) 2 c A).Φ t.succ = (rdOf (F := F) 2 c A).Φ t.castSucc from rfl,
    show (rdOf (F := F) 2 c A).owesAt () t.succ = (rdOf (F := F) 2 c A).owesAt () t.castSucc from rfl]
  iintro ⟨HΦ, Ho, H0, H1, H2, H3, H4⟩
  iapply (sound_body2 (F := F) c Set.univ (grid2.coords t) (cfg2.slots t 0) (cfg2.slots t 1) (cfg2.slots t 2) (cfg2.slots t 3) (cfg2.slots t 4) (Y 0) (Y 1) (Y 2) (Y 3) (Y 4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists (k2_pay1 (Y 0) (Y 1) (Y 2) (Y 3)); isplitr; · ipureintro; trivial
    iexact H4

end Cert.Kernel.Frame

end
-- ==== Proof.KernelFrameRegions.lean ====
/-
  The first two kernel regions of the word-level program as records of the several-regions launch, entered from the
  launch memory.

  Neither region reads an array an earlier region wrote: region 0's arrays are x, W and its two results, region 1's the
  bank and its two results, and all of these hold their launch contents when their region is entered. So both
  regions' proof data are read off the launch memory. Between regions a core holds: the arrays a finished region leaves
  (each at SOME contents it may hold after the write-backs), the unscoped buffers not yet touched at their launch
  contents, what it owes (nothing), and the ghost state set aside for the last region.
-/
import proofs.«132659_j10831907520535_1_alg».proof.Proof.KernelFrameData

noncomputable section

namespace Cert.Kernel.Frame

open Cert.Kernel Cert.Kernel.Gen Cert.Kernel.Bodies

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ U2 ℕ

/-- No core owes another anything: no level is assigned. -/
abbrev L : GSem nD τ sig → Finset Unit := fun _ => ∅
abbrev lv : GSem nD τ sig → Unit → ℕ := fun _ _ => 0

variable (m : (ℓ : Loc nD τ sig) → Buf (Elt F) ℓ)

/-- Core `c`'s unscoped buffers at launch. -/
abbrev V0 (c : Dev nD) : (b : Ref sig .tc) → Buf (Elt F) ((c : Thread nD τ).loc b) := fun b => m ((c : Thread nD τ).loc b)

/-- The regions entered from the launch memory: each pipeline's arrays at their launch contents. -/
def rdK : (p : Fin 3) → (c : Dev nD) → RDat τ (Elt F) Unit ℕ U2 ℕ (Pipeline.pin (pcfgs (F := F)) adm p) c :=
  fun p c => rdOf p c fun w => V0 m c (Pipeline.arrRef (Pipeline.pin (pcfgs (F := F)) adm p).spec w)

/-- The ghost state of every pipeline's staging cells in the RIGHT copy of the rounds algebra, as the launch deals it. -/
def ghostR (c : Dev nD) : sProp 𝕄 :=
  iprop((bigSep Finset.univ fun p : Fin 3 => Pipeline.cellsGhost (Pipeline.pin (pcfgs (F := F)) adm) (embR : Emb (UR sig nD τ) 𝕄) p c)
    ∗ (bigSep Finset.univ fun p : Fin 3 => Pipeline.toksInit (Pipeline.pin (pcfgs (F := F)) adm) (embR : Emb (UR sig nD τ) 𝕄) p c))

/-- The core owes nothing. -/
abbrev owes0 (c : Dev nD) : sProp 𝕄 := iprop(∃ W, owes (c : Thread nD τ) (0 : CellTallies nD τ sig Unit) W)

/-- Before region 0: the launch memory. -/
def T0 (c : Dev nD) : sProp 𝕄 :=
  iprop(unscopedBufs c (V0 m c) ∗ owes0 c ∗ ghostR (F := F) c)

/-- After region 0: its four arrays as it leaves them, the other four unscoped buffers as launched. -/
def T1 (c : Dev nD) : sProp 𝕄 :=
  iprop((rdK m 0 c).arraysAt (Pipeline.pin (pcfgs (F := F)) adm 0).N ∗ owes0 c
    ∗ Pipeline.unscopedRest (Ix := Unit) (Name := ℕ) (U := U2) (Lvl := ℕ) spec0 c (V0 m c) ∗ ghostR (F := F) c)

/-- After region 1: its three arrays as it leaves them, region 0's as it left them, the result array as launched. -/
def T2 (c : Dev nD) : sProp 𝕄 :=
  iprop((rdK m 1 c).arraysAt (Pipeline.pin (pcfgs (F := F)) adm 1).N ∗ owes0 c
    ∗ (rdK m 0 c).arraysAt (Pipeline.pin (pcfgs (F := F)) adm 0).N
    ∗ (((c : Thread nD τ).loc main_v2) ↦{fullShare} V0 m c main_v2) ∗ ghostR (F := F) c)

-- applying a launch lemma stated over `cfgs p` at the pinned configuration unifies only when unification may unfold
-- plain definitions in a metavariable's type
set_option backward.isDefEq.respectTransparency.types false in
/-- REGION 0, entered from the launch memory. -/
def R0 : Pipeline.RDat.RegionSeg (pcfgs (F := F)) adm (rdK m) () defs₀ 𝒱₀ L lv 0 where
  win := launch0.win.to₀
  block_pos := launch0.block_pos
  stage_whole := launch0.stage_whole
  K := PEmpty
  osem := fun k => k.elim
  ho := Pipeline.OwnSemFacts.none _
  hbody c := hbody0 c _
  hwaits := Pipeline.RDat.hwaits_of_owed_zero _ _ _ _ L lv 0 fun _ _ => rfl
  pre := T0 m
  post := T1 m
  X _ := iprop(emp)
  Y _ := iprop(emp)
  Z c := iprop(Pipeline.unscopedRest (Ix := Unit) (Name := ℕ) (U := U2) (Lvl := ℕ) spec0 c (V0 m c) ∗ ghostR (F := F) c)
  hentry c := by
    unfold T0
    have hsplit := Pipeline.RDat.arrays_of_unscopedBufs (p := 0) (pcfgs (F := F)) adm (rdK m) launch0.win launch0.arr_whole c
      (fun w => rdOf_share 0 c _ w) (V0 m c) fun _ => rfl
    iintro ⟨⟨Hub, HO, HG⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hr]; · iexact Hr
    iexact HG
  hin c := by
    show iprop(_ ∗ _ ∗ Pipeline.scopedRest spec0 c) ⊢ Pipeline.scopedRest spec0 c
    iintro ⟨-, -, H⟩; iexact H
  hout c := by
    rw [Pipeline.ownSems0_none]
    show Pipeline.scopedRest spec0 c ⊢ iprop(_ ∗ _ ∗ Pipeline.scopedRest spec0 c)
    iintro H
    isplitr; · iempintro
    isplitr; · iempintro
    iexact H
  hexit c := by
    unfold T1
    iintro ⟨Ha, HO, -, Hr, HG⟩
    imodintro
    isplitl [Ha]; · iexact Ha
    isplitl [HO]
    · unfold Pipeline.RDat.owesAt Pipeline.owesWithin
      icases HO with ⟨%W, -, HO⟩; iexists W; iexact HO
    isplitl [Hr]; · iexact Hr
    iexact HG

set_option backward.isDefEq.respectTransparency.types false in
/-- REGION 1, entered from what region 0 left: the bank and region 1's two results still hold their launch contents (they
    are among the unscoped buffers region 0 does not touch); region 0's arrays and the result array bypass the region. -/
def R1 : Pipeline.RDat.RegionSeg (pcfgs (F := F)) adm (rdK m) () defs₀ 𝒱₀ L lv 1 where
  win := launch1.win.to₀
  block_pos := launch1.block_pos
  stage_whole := launch1.stage_whole
  K := PEmpty
  osem := fun k => k.elim
  ho := Pipeline.OwnSemFacts.none _
  hbody c := hbody1 c _
  hwaits := Pipeline.RDat.hwaits_of_owed_zero _ _ _ _ L lv 1 fun _ _ => rfl
  pre := T1 m
  post := T2 m
  X _ := iprop(emp)
  Y _ := iprop(emp)
  Z c := iprop((rdK m 0 c).arraysAt (Pipeline.pin (pcfgs (F := F)) adm 0).N
    ∗ (((c : Thread nD τ).loc main_v2) ↦{fullShare} V0 m c main_v2) ∗ ghostR (F := F) c)
  hentry c := by
    unfold T1
    rw [unscopedRest0_eq c (V0 m c),
      Pipeline.RDat.arrays_eq (pcfgs (F := F)) adm (rdK m) 1 c launch1.arr_whole (fun w => rdOf_share 1 c _ w), bigSep_W1]
    iintro ⟨⟨Ha0, HO, ⟨H2, H10, H11, Hv2⟩, HG⟩, -, -⟩
    imodintro
    isplitl [H2 H10 H11]
    · isplitl [H2]; · iexact H2
      isplitl [H10]; · iexact H10
      iexact H11
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Ha0]; · iexact Ha0
    isplitl [Hv2]; · iexact Hv2
    iexact HG
  hin c := by
    show iprop(_ ∗ _ ∗ Pipeline.scopedRest spec1 c) ⊢ Pipeline.scopedRest spec1 c
    iintro ⟨-, -, H⟩; iexact H
  hout c := by
    rw [Pipeline.ownSems0_none]
    show Pipeline.scopedRest spec1 c ⊢ iprop(_ ∗ _ ∗ Pipeline.scopedRest spec1 c)
    iintro H
    isplitr; · iempintro
    isplitr; · iempintro
    iexact H
  hexit c := by
    unfold T2
    iintro ⟨Ha, HO, -, Ha0, Hv2, HG⟩
    imodintro
    isplitl [Ha]; · iexact Ha
    isplitl [HO]
    · unfold Pipeline.RDat.owesAt Pipeline.owesWithin
      icases HO with ⟨%W, -, HO⟩; iexists W; iexact HO
    isplitl [Ha0]; · iexact Ha0
    isplitl [Hv2]; · iexact Hv2
    iexact HG

end Cert.Kernel.Frame

end
-- ==== Proof.KernelFrameLast.lean ====
/-
  The last kernel region of the word-level program, entered once the contents it reads are known.

  Region 2 fetches the four arrays regions 0 and 1 wrote. Relational proof data leaves those arrays, after their
  regions, at SOME contents they may hold — and at the word level that is all that can be said of the row of bank norms
  behind region 1's clipped last block. A region's proof data, though, names its arrays' contents at entry. So region 2
  is not a record fixed before the run: its record is stated for ANY family of entry contents, and the third custom call
  is a host segment whose account opens "the arrays hold some contents", takes those contents as region 2's entry
  contents, and enters the region through the library's rule for one region, funded from the right copy of the rounds
  algebra. The arguments x, W and the bank are inputs of regions 0 and 1: an input array is never written, so they
  come out of their regions as they went in, and region 2 does not touch them.
-/
import proofs.«132659_j10831907520535_1_alg».proof.Proof.KernelFrameRegions

noncomputable section

namespace Cert.Kernel.Frame

open Cert.Kernel Cert.Kernel.Gen Cert.Kernel.Bodies

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ U2 ℕ

variable (m : (ℓ : Loc nD τ sig) → Buf (Elt F) ℓ)

/-- The arrays at some contents they may hold after the write-backs below `n`: those contents, named. -/
theorem arraysAt_open {p : Fin 3} {c : Dev nD} (rd : RDat τ (Elt F) Unit ℕ U2 ℕ (Pipeline.pin (pcfgs (F := F)) adm p) c) (n : Nat) :
    (rd.arraysAt n : sProp 𝕄)
      ⊢ iprop(∃ Fs : (w : Fin (Pipeline.pin (pcfgs (F := F)) adm p).W) → Buf (Elt F) (((Pipeline.pin (pcfgs (F := F)) adm p).win w).arr.view.loc (c : Thread nD τ)),
          ⌜∀ w, rd.ArrAt w n (Fs w)⌝ ∗ rd.arrays Fs) := by
  classical
  unfold RDat.arraysAt RDat.arrays
  iintro Ha
  ihave Ha' := (BI.bigSep_exists_pi Finset.univ (fun w G => iprop(⌜rd.ArrAt w n G⌝
      ∗ ((Pipeline.pin (pcfgs (F := F)) adm p).win w).arr.view.loc (c : Thread nD τ) ↦[((Pipeline.pin (pcfgs (F := F)) adm p).win w).arr.view.set]{rd.share w} G))) $$ Ha
  icases Ha' with ⟨%Fs, Ha⟩
  ihave Ha2 := (BI.bigSep_pure_sep Finset.univ (fun w => rd.ArrAt w n (Fs w))
      (fun w => ((Pipeline.pin (pcfgs (F := F)) adm p).win w).arr.view.loc (c : Thread nD τ) ↦[((Pipeline.pin (pcfgs (F := F)) adm p).win w).arr.view.set]{rd.share w} Fs w)) $$ Ha
  icases Ha2 with ⟨%hFs, Ha⟩
  iexists Fs
  isplitr; · ipureintro; exact fun w => hFs w (Finset.mem_univ w)
  iexact Ha

/-- Entry contents for region 2's five arrays on one core. -/
abbrev Contents2 (c : Dev nD) : Type :=
  (w : Fin (Pipeline.pin (pcfgs (F := F)) adm 2).W) → Buf (Elt F) (((Pipeline.pin (pcfgs (F := F)) adm 2).win w).arr.view.loc (c : Thread nD τ))

/-- Region 2's proof data from a family `B` of entry contents (the other pipelines' data are not read). -/
def rd2 (B : (c : Dev nD) → Contents2 (F := F) c) :
    (p : Fin 3) → (c : Dev nD) → RDat τ (Elt F) Unit ℕ U2 ℕ (Pipeline.pin (pcfgs (F := F)) adm p) c :=
  Pipeline.RDat.familyOf (pcfgs (F := F)) adm 2 fun c => rdOf 2 c (B c)

/-- Region 2's arrays as plain points-tos at contents `G`. -/
def pts2 (c : Dev nD) (G : Contents2 (F := F) c) : sProp 𝕄 :=
  bigSep Finset.univ fun w : Fin (Pipeline.pin (pcfgs (F := F)) adm 2).W =>
    (((c : Thread nD τ).loc (Pipeline.arrRef (Pipeline.pin (pcfgs (F := F)) adm 2).spec w)) ↦{fullShare} G w : sProp 𝕄)

set_option backward.isDefEq.respectTransparency.types false in
/-- REGION 2 for any family of entry contents: entered from its five arrays at those contents and the core owing
    nothing, left with the arrays at some contents and the core owing nothing. -/
def R2 (B : (c : Dev nD) → Contents2 (F := F) c) : Pipeline.RDat.RegionSeg (pcfgs (F := F)) adm (rd2 B) () defs₀ 𝒱₀ L lv 2 where
  win := launch2.win.to₀
  block_pos := launch2.block_pos
  stage_whole := launch2.stage_whole
  K := PEmpty
  osem := fun k => k.elim
  ho := Pipeline.OwnSemFacts.none _
  hbody c := by unfold rd2; rw [Pipeline.RDat.familyOf_self]; exact hbody2 c _
  hwaits := Pipeline.RDat.hwaits_of_owed_zero _ _ _ _ L lv 2 fun c t => by unfold rd2; rw [Pipeline.RDat.familyOf_self]; rfl
  pre c := iprop(pts2 c (B c) ∗ owes0 c)
  post c := iprop((rd2 B 2 c).arraysAt (Pipeline.pin (pcfgs (F := F)) adm 2).N ∗ owes0 c)
  X _ := iprop(emp)
  Y _ := iprop(emp)
  Z _ := iprop(emp)
  hentry c := by
    rw [Pipeline.RDat.arrays_eq (pcfgs (F := F)) adm (rd2 B) 2 c launch2.arr_whole
      (fun w => by unfold rd2; rw [Pipeline.RDat.familyOf_self]; exact rdOf_share 2 c _ w)]
    unfold rd2 pts2; rw [Pipeline.RDat.familyOf_self]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr <;> iempintro
  hin c := by
    unfold rd2; rw [Pipeline.RDat.familyOf_self]
    show iprop(_ ∗ _ ∗ Pipeline.scopedRest spec2 c) ⊢ Pipeline.scopedRest spec2 c
    iintro ⟨-, -, H⟩; iexact H
  hout c := by
    unfold rd2; rw [Pipeline.RDat.familyOf_self, Pipeline.ownSems0_none]
    show Pipeline.scopedRest spec2 c ⊢ iprop(_ ∗ _ ∗ Pipeline.scopedRest spec2 c)
    iintro H
    isplitr; · iempintro
    isplitr; · iempintro
    iexact H
  hexit c := by
    iintro ⟨Ha, HO, -, -⟩
    imodintro
    isplitl [Ha]; · iexact Ha
    unfold Pipeline.RDat.owesAt Pipeline.owesWithin
    icases HO with ⟨%W, -, HO⟩; iexists W; iexact HO

end Cert.Kernel.Frame

end
-- ==== Proof.KernelFrameRun.lean ====
/-
  The word-level program's frame: it runs to its end, nothing faults, and x, W and the bank end as launched.

  @main is three custom calls. The first two are regions of the several-regions launch, entered in order from the launch
  memory. The third is a host segment: from "regions 0 and 1 left their arrays at some contents" it names those contents,
  takes them (with the result array's launch contents) as region 2's entry contents on this core, and enters region 2 by
  the library's rule for one region, its cells funded from the right copy of the rounds algebra. Of the arrays, x and
  W are inputs of region 0 and the bank an input of region 1, so each comes out of its region holding what it held
  when the region was entered — its launch contents — and region 2 is given none of them. Read against the final
  state, the three points-tos say the three arguments are unchanged.
-/
import proofs.«132659_j10831907520535_1_alg».proof.Proof.KernelFrameLast

noncomputable section

namespace Cert.Kernel.Frame

open Cert.Kernel Cert.Kernel.Gen Cert.Kernel.Bodies

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ U2 ℕ

variable (m : (ℓ : Loc nD τ sig) → Buf (Elt F) ℓ)

/-- Region 2's entry contents on one core from the five buffers' contents, in its windows' order. -/
def contents2 (c : Dev nD) (v00 : Buf (Elt F) ((c : Thread nD τ).loc main_v0_0)) (v10 : Buf (Elt F) ((c : Thread nD τ).loc main_v1_0))
    (v01 : Buf (Elt F) ((c : Thread nD τ).loc main_v0_1)) (v11 : Buf (Elt F) ((c : Thread nD τ).loc main_v1_1))
    (v2 : Buf (Elt F) ((c : Thread nD τ).loc main_v2)) : Contents2 (F := F) c :=
  fun | 0 => v00 | 1 => v10 | 2 => v01 | 3 => v11 | 4 => v2 | ⟨_ + 5, h⟩ => absurd h (Nat.not_lt.2 (Nat.le_add_left _ _))

theorem pts2_contents2 (c : Dev nD) (v00 v10 v01 v11 v2) :
    (pts2 (F := F) c (contents2 c v00 v10 v01 v11 v2) : sProp 𝕄)
      = iprop((((c : Thread nD τ).loc main_v0_0) ↦{fullShare} v00) ∗ (((c : Thread nD τ).loc main_v1_0) ↦{fullShare} v10)
          ∗ (((c : Thread nD τ).loc main_v0_1) ↦{fullShare} v01) ∗ (((c : Thread nD τ).loc main_v1_1) ↦{fullShare} v11)
          ∗ (((c : Thread nD τ).loc main_v2) ↦{fullShare} v2)) := by
  unfold pts2; rw [bigSep_W2]; rfl

/-- After the program: the three arguments as launched. -/
def T3 (c : Dev nD) : sProp 𝕄 :=
  iprop((((c : Thread nD τ).loc main_arg0) ↦{fullShare} V0 m c main_arg0) ∗ (((c : Thread nD τ).loc main_arg1) ↦{fullShare} V0 m c main_arg1)
    ∗ (((c : Thread nD τ).loc main_arg2) ↦{fullShare} V0 m c main_arg2))

/-- Region 2's record is entered from its arrays at the family's contents and the core owing nothing, -/
theorem R2_pre (B : (c : Dev nD) → Contents2 (F := F) c) (c : Dev nD) : (R2 B).pre c = iprop(pts2 c (B c) ∗ owes0 c) := rfl
/-- and left with them at some contents and the core owing nothing. -/
theorem R2_post (B : (c : Dev nD) → Contents2 (F := F) c) (c : Dev nD) :
    (R2 B).post c = iprop((rd2 B 2 c).arraysAt (Pipeline.pin (pcfgs (F := F)) adm 2).N ∗ owes0 c) := rfl

set_option backward.isDefEq.respectTransparency.types false in
set_option maxHeartbeats 1600000 in
/-- THE THIRD CUSTOM CALL as a host segment: region 2 entered with the contents regions 0 and 1 are found to have left. -/
def H2 : Pipeline.HostSeg (Name := ℕ) (U := U2) (pcfgs (F := F)) defs₀ 𝒱₀ L lv where
  prog := Prog.lift (.customCall (Pipeline.entry 2) ())
  pre := T2 m
  post c := iprop(T3 m c ∗ owes0 c)
  run c β k K := by
    classical
    simp only [Prog.lift, Prog.bind_op, Prog.bind_ret]
    unfold T2
    iintro ⟨Hk, Hb, ⟨Ha1, HO, Ha0, Hv2, HG⟩, Hlev⟩
    ihave H0 := (arraysAt_open (rdK m 0 c) _) $$ Ha0
    icases H0 with ⟨%F0, %hF0, Ha0⟩
    ihave H1 := (arraysAt_open (rdK m 1 c) _) $$ Ha1
    icases H1 with ⟨%F1, %hF1, Ha1⟩
    -- an input array is never written: it leaves its region as it entered
    have e0 : F0 0 = V0 m c main_arg0 := by have h := hF0 0; rw [(rdK m 0 c).ArrAt_in 0 rfl] at h; exact h
    have e1 : F0 1 = V0 m c main_arg1 := by have h := hF0 1; rw [(rdK m 0 c).ArrAt_in 1 rfl] at h; exact h
    have e2 : F1 0 = V0 m c main_arg2 := by have h := hF1 0; rw [(rdK m 1 c).ArrAt_in 0 rfl] at h; exact h
    -- the same three points-tos, spelt with the contents as found
    have hT3 : (T3 m c : sProp 𝕄)
        = iprop((((c : Thread nD τ).loc main_arg0) ↦{fullShare} F0 0) ∗ (((c : Thread nD τ).loc main_arg1) ↦{fullShare} F0 1)
            ∗ (((c : Thread nD τ).loc main_arg2) ↦{fullShare} F1 0)) := by
      unfold T3; rw [e0, e1, e2]
    have h0eq := (Pipeline.RDat.arrays_eq (pcfgs (F := F)) adm (rdK m) 0 c launch0.arr_whole (fun w => rdOf_share 0 c _ w) F0).trans (bigSep_W0 _)
    ihave Hp0 := (Entails.of_eq h0eq) $$ Ha0
    icases Hp0 with ⟨Hx, HW, Hv00, Hv01⟩
    have h1eq := (Pipeline.RDat.arrays_eq (pcfgs (F := F)) adm (rdK m) 1 c launch1.arr_whole (fun w => rdOf_share 1 c _ w) F1).trans (bigSep_W1 _)
    ihave Hp1 := (Entails.of_eq h1eq) $$ Ha1
    icases Hp1 with ⟨He, Hv10, Hv11⟩
    -- region 2's entry contents: on this core what was just found, elsewhere anything
    let B : (c' : Dev nD) → Contents2 (F := F) c' :=
      Function.update (fun c' => contents2 c' (V0 m c' main_v0_0) (V0 m c' main_v1_0) (V0 m c' main_v0_1) (V0 m c' main_v1_1) (V0 m c' main_v2))
        c (contents2 c (F0 2) (F1 1) (F0 3) (F1 2) (V0 m c main_v2))
    have hB : B c = contents2 c (F0 2) (F1 1) (F0 3) (F1 2) (V0 m c main_v2) := Function.update_self _ _ _
    have hpre : (iprop(pts2 c (B c) ∗ owes0 c) : sProp 𝕄)
        = iprop(((((c : Thread nD τ).loc main_v0_0) ↦{fullShare} F0 2) ∗ (((c : Thread nD τ).loc main_v1_0) ↦{fullShare} F1 1)
            ∗ (((c : Thread nD τ).loc main_v0_1) ↦{fullShare} F0 3) ∗ (((c : Thread nD τ).loc main_v1_1) ↦{fullShare} F1 2)
            ∗ (((c : Thread nD τ).loc main_v2) ↦{fullShare} V0 m c main_v2)) ∗ owes0 c) := by
      rw [hB, pts2_contents2]
    iapply (Pipeline.RDat.RegionSeg.wp (pcfgs (F := F)) adm (rd2 B) () cellOf_inj (embR : Emb (UR sig nD τ) 𝕄) defs₀ 𝒱₀ L lv (R2 B) c none
      (fun u hu => nomatch hu) k K)
    isplitl [Hk Hx HW He]
    · iintro ⟨Hb, Hpost⟩
      ihave Hp := (Entails.of_eq (R2_post B c)) $$ Hpost
      icases Hp with ⟨-, HO⟩
      iapply Hk
      isplitl [Hb]; · iexact Hb
      isplitr [HO]
      · iapply (Entails.of_eq hT3.symm)
        isplitl [Hx]; · iexact Hx
        isplitl [HW]; · iexact HW
        iexact He
      · iexact HO
    isplitl [Hb]; · iexact Hb
    isplitl [Hv00 Hv01 Hv10 Hv11 Hv2 HO]
    · iapply (Entails.of_eq ((R2_pre B c).trans hpre).symm)
      isplitr [HO]
      · isplitl [Hv00]; · iexact Hv00
        isplitl [Hv10]; · iexact Hv10
        isplitl [Hv01]; · iexact Hv01
        isplitl [Hv11]; · iexact Hv11
        iexact Hv2
      · iexact HO
    isplitl [Hlev]; · iexact Hlev
    unfold ghostR
    icases HG with ⟨Hg, Ht⟩
    have hg2 : (bigSep Finset.univ (fun p : Fin 3 => Pipeline.cellsGhost (Pipeline.pin (pcfgs (F := F)) adm) (embR : Emb (UR sig nD τ) 𝕄) p c) : sProp 𝕄)
        ⊢ Pipeline.cellsGhost (Pipeline.pin (pcfgs (F := F)) adm) (embR : Emb (UR sig nD τ) 𝕄) 2 c := bigSep_elim (Finset.mem_univ (2 : Fin 3))
    have ht2 : (bigSep Finset.univ (fun p : Fin 3 => Pipeline.toksInit (Pipeline.pin (pcfgs (F := F)) adm) (embR : Emb (UR sig nD τ) 𝕄) p c) : sProp 𝕄)
        ⊢ Pipeline.toksInit (Pipeline.pin (pcfgs (F := F)) adm) (embR : Emb (UR sig nD τ) 𝕄) 2 c := bigSep_elim (Finset.mem_univ (2 : Fin 3))
    ihave Hg2 := hg2 $$ Hg
    ihave Ht2 := ht2 $$ Ht
    isplitl [Hg2]; · iexact Hg2
    iexact Ht2

/-- @main's three items. -/
abbrev segs : List (Pipeline.RDat.Seg (pcfgs (F := F)) adm (rdK m) () defs₀ 𝒱₀ L lv) := [.region (R0 m), .region (R1 m), .host (H2 m)]

/-- The launch element: the rounds library's at every staging cell and transfer, once in each copy. -/
def u₀ : U2 :=
  (initOf (Pipeline.cells cfgs cellOf_inj) (Pipeline.launchToks cfgs cellOf_inj),
   initOf (Pipeline.cells cfgs cellOf_inj) (Pipeline.launchToks cfgs cellOf_inj))

variable (ρ : Dev nD → PrngReg)

set_option backward.isDefEq.respectTransparency.types false in
set_option maxHeartbeats 1600000 in
/-- For any float instance: from any memory with zero counters every weakly fair execution of @main terminates, nothing
    faulting, and every final memory holds each argument as launched. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdK m) () cellOf_inj (embL : Emb (UR sig nD τ) 𝕄) defs₀ 𝒱₀ L lv m ρ main (segs m)
    (fun c Q => by
      rewrite [main_chain c, Pipeline.RDat.Seg.run_eq_chain]
      exact .rfl)
    (by simp only [Pipeline.RDat.Seg.pipes_host, Pipeline.RDat.Seg.pipes_region, Pipeline.RDat.Seg.pipes_nil]; decide)
    (O₀ := 0) (hL := fun _ _ => rfl) (G := ghostR (F := F)) (u₀ := u₀)
    (hu₀ := by
      unfold u₀
      iintro Hu
      ihave H := (ownU_pair _ _) $$ Hu
      icases H with ⟨HL, HR⟩
      imod (Pipeline.fund_ghost (Pipeline.pin (pcfgs (F := F)) adm) (embR : Emb (UR sig nD τ) 𝕄) cellOf_inj) $$ HR with ⟨Hg, Ht⟩
      imodintro
      isplitl [HL]; · iexact HL
      unfold ghostR
      rw [bigSep_sep']
      isplitl [Hg]; · iexact Hg
      iexact Ht)
    (T₀ := T0 m) (Tₙ := T3 m)
    (hch := ⟨fun _ => .rfl, fun _ => .rfl, fun _ => .rfl, fun _ => .rfl⟩)
    (hinit := by
      refine Pipeline.initEach L lv fun c => ?_
      unfold T0
      iintro ⟨⟨Hub, -, HO, -, -, HG⟩, -⟩
      imodintro
      isplitl [Hub]; · iexact Hub
      isplitl [HO]; · iexists ∅; iexact HO
      iexact HG)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold T3
      iintro ⟨⟨H0, H1, H2⟩, HSI⟩
      icombine HSI H0 gives %h0
      icombine HSI H1 gives %h1
      icombine HSI H2 gives %h2
      imodintro
      isplitr
      · ipureintro; exact ⟨Buf.eq_of_forall_mem_univ h0, Buf.eq_of_forall_mem_univ h1, Buf.eq_of_forall_mem_univ h2⟩
      iexact HSI)
    (hQ := fun _ h => h)

end Cert.Kernel.Frame

end
-- ==== Proof.KernelFrameClaim.lean ====
/-
  `frame_Kernel`: the word-level program's frame is the run of KernelFrameRun at the bit-exact instance. The precondition
  is not used: the program runs to its end and leaves its arguments alone from any memory with zero counters.
-/
import proofs.«132659_j10831907520535_1_alg».proof.Defs
import proofs.«132659_j10831907520535_1_alg».proof.Proof.Gen.Kernel
import proofs.«132659_j10831907520535_1_alg».proof.Proof.Gen.Pre_finite_inputs
import proofs.«132659_j10831907520535_1_alg».proof.Proof.KernelFrameRun

noncomputable section

namespace Cert.Proof.KernelClaims

open Idealize.ShloMosaic Idealize.SL.Sem

theorem frame_p : Cert.frame_Kernel := fun m ρ _ => Cert.Kernel.Frame.run_main (F := Bits) m ρ

end Cert.Proof.KernelClaims

end
-- ==== Proof.Spec.lean ====
/-
  The function both programs compute, over the extended reals, index by index.

  For x : 2048×1024, W : 1024×1024 and a bank e : 50000×1024:
    t(r,k)      = Σ_j x(r,j) · W(k,j)                      (t = x·Wᵀ)
    ‖t_r‖       = sqrt (Σ_k t(r,k)²),   ‖e_n‖ = sqrt (Σ_k e(n,k)²)
    out(r,n)    = (Σ_k t(r,k) · e(n,k)) / max (‖t_r‖ · ‖e_n‖) ε
  with ε the one f32 word 0x358637BD both programs carry (it is never evaluated: the same word stands on both sides).
  Sums are over Fin 1024 in the extended reals, where + and · are commutative and associative, so a sum may be
  regrouped or reindexed freely; nothing here needs the entries to be finite.
-/
import Idealize.ShloMosaic.PureOps.Ideal
import Idealize.ShloMosaic.Lib.ValueIdx

noncomputable section

namespace Cert.Spec

open Idealize.ShloMosaic Idealize.ShloMosaic.ValueIdx

abbrev SX : Shape := ⟨2, ![2048, 1024]⟩
abbrev SW : Shape := ⟨2, ![1024, 1024]⟩
abbrev SE : Shape := ⟨2, ![50000, 1024]⟩
abbrev SO : Shape := ⟨2, ![2048, 50000]⟩

/-- Entry (r, k) of the projection t = x·Wᵀ. -/
def proj (x : SX.Idx → EReal) (W : SW.Idx → EReal) (r : Fin 2048) (k : Fin 1024) : EReal :=
  ∑ j : Fin 1024, x (ix2 r j) * W (ix2 k j)

/-- The norm of row r of the projection. -/
def projNorm (x : SX.Idx → EReal) (W : SW.Idx → EReal) (r : Fin 2048) : EReal :=
  Ideal.sqrt (∑ k : Fin 1024, proj x W r k * proj x W r k)

/-- The norm of row n of the bank. -/
def bankNorm (e : SE.Idx → EReal) (n : Fin 50000) : EReal :=
  Ideal.sqrt (∑ k : Fin 1024, e (ix2 n k) * e (ix2 n k))

/-- The similarity of projected row r against bank row n. -/
def cosAt (x : SX.Idx → EReal) (W : SW.Idx → EReal) (e : SE.Idx → EReal) (r : Fin 2048) (n : Fin 50000) : EReal :=
  Ideal.div (∑ k : Fin 1024, proj x W r k * e (ix2 n k))
    (max (projNorm x W r * bankNorm e n) (Ideal.ofBits .f32 0x358637BD#32))

/-- The whole result array. -/
def cosSim (x : SX.Idx → EReal) (W : SW.Idx → EReal) (e : SE.Idx → EReal) : SO.Idx → EReal :=
  fun i => cosAt x W e (i 0) (i 1)

theorem cosSim_ix2 (x : SX.Idx → EReal) (W : SW.Idx → EReal) (e : SE.Idx → EReal) (r : Fin 2048) (n : Fin 50000) :
    cosSim x W e (ix2 r n) = cosAt x W e r n := rfl

end Cert.Spec

end
-- ==== Proof.IdealBodies.lean ====
/-
  What each kernel body does to the staging buffers it is called with, for any float instance.

  Each of the three kernel functions loads its input windows' staging buffers whole, computes, and overwrites its
  output windows' staging buffers whole (the loads of the output buffers that stand before the stores are dead).
  So, run from the buffers at any contents, a body leaves each input buffer as it found it and each output buffer
  at one pure function of the input buffers' contents — the function the program text names for that store:
    kernel 0 (projection):  the bf16 copy of t = x·Wᵀ, and the column of row norms sqrt(Σ_k t(r,k)²);
    kernel 1 (bank pass):   the bf16 copy of the bank block, and the row of its row norms;
    kernel 2 (similarity):  (t·eᵀ) / max(‖t‖·‖e‖, ε) on one block of bank rows.
  These triples say nothing about which grid point runs or which of a window's two buffers is current: they hold at
  every slot, by cases on the slots.
-/
import proofs.«132659_j10831907520535_1_alg».proof.Proof.Gen.KernelIdeal.Launch
import proofs.«132659_j10831907520535_1_alg».proof.Proof.Gen.KernelIdeal.Skeleton
import Idealize.ShloMosaic.Lib.Pipeline.Kit
import Idealize.ShloMosaic.Lib.Tactic

noncomputable section

namespace Cert.KernelIdeal.Bodies

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- No kernel here has a variant of its own. -/
abbrev 𝒱₀ : Variants := Variants.none

set_option maxHeartbeats 8000000 in
/-- The body of kernel 0 on whichever staging buffers its windows' slots name: every load is of a whole buffer and
    every store overwrites a whole buffer, so the inputs' buffers keep their contents and each output's buffer ends
    holding its payload of the inputs' contents. -/
theorem sound_body0 (c : Dev nD) (E : Set ℕ) (i : grid0.Coords) (s0 : Fin 2) (s1 : Fin 1) (s2 : Fin 2) (s3 : Fin 2)
    (X0 : S1024x1024.Idx → Elt F .f32) (X1 : S1024x1024.Idx → Elt F .f32) (X2 : S1024x1024.Idx → Elt F .bf16) (X3 : S1024x1.Idx → Elt F .f32) (K : PUnit → sProp 𝕄) :
    iprop((owns (c : Thread nD τ) (stage0_0 s0) fullShare X0
            ∗ owns (c : Thread nD τ) (stage0_1 s1) fullShare X1
            ∗ owns (c : Thread nD τ) (stage0_2 s2) fullShare X2
            ∗ owns (c : Thread nD τ) (stage0_3 s3) fullShare X3)
          ∗ (iprop(owns (c : Thread nD τ) (stage0_0 s0) fullShare X0
                  ∗ owns (c : Thread nD τ) (stage0_1 s1) fullShare X1
                  ∗ owns (c : Thread nD τ) (stage0_2 s2) fullShare (k0_pay3 X0 X1)
                  ∗ owns (c : Thread nD τ) (stage0_3 s3) fullShare (k0_pay2 X0 X1)) -∗ K ⟨⟩))
      ⊢ wp frame (wpE (defs₀ (F := F)) 𝒱₀ c none) E
          (cc0__proj_kernel i (stage0_0 s0) (hstage0_0 s0) (stage0_1 s1) (hstage0_1 s1) (stage0_2 s2) (hstage0_2 s2) (stage0_3 s3) (hstage0_3 s3)) K := by
  have hz : (![0, 0] : Fin 2 → Nat) = fun _ => 0 := funext fun a => by fin_cases a <;> rfl
  fin_cases s0 <;> fin_cases s1 <;> fin_cases s2 <;> fin_cases s3
  · -- staging slots 0, 0, 0, 0
    have hr0 : (Memref.whole cc0_stg0_0 : Memref sig .tc _ _ _).view.readAt (Elt F) (Rect.unit (s := S1024x1024) ![0, 0] S1024x1024.size
        inb_S1024x1024_S1024x1024_0_0).toLoadRect = id := funext (Memref.readAt_unit_zero (Elt F) cc0_stg0_0 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_0).access (Rect.unit (s := S1024x1024) ![0, 0] S1024x1024.size inb_S1024x1024_S1024x1024_0_0)) :
        View sig .tc _ _ _).write (Elt F) f w Finset.univ = w := Memref.write_access_unit_zero_univ (Elt F) cc0_stg2_0 hz _
    have hw3 : ∀ f w, (((Memref.whole cc0_stg3_0).access (Rect.unit (s := S1024x1) ![0, 0] S1024x1.size inb_S1024x1_S1024x1_0_0)) :
        View sig .tc _ _ _).write (Elt F) f w Finset.univ = w := Memref.write_access_unit_zero_univ (Elt F) cc0_stg3_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 0, 0, 0, 1
    have hr0 : (Memref.whole cc0_stg0_0 : Memref sig .tc _ _ _).view.readAt (Elt F) (Rect.unit (s := S1024x1024) ![0, 0] S1024x1024.size
        inb_S1024x1024_S1024x1024_0_0).toLoadRect = id := funext (Memref.readAt_unit_zero (Elt F) cc0_stg0_0 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_0).access (Rect.unit (s := S1024x1024) ![0, 0] S1024x1024.size inb_S1024x1024_S1024x1024_0_0)) :
        View sig .tc _ _ _).write (Elt F) f w Finset.univ = w := Memref.write_access_unit_zero_univ (Elt F) cc0_stg2_0 hz _
    have hw3 : ∀ f w, (((Memref.whole cc0_stg3_1).access (Rect.unit (s := S1024x1) ![0, 0] S1024x1.size inb_S1024x1_S1024x1_0_0)) :
        View sig .tc _ _ _).write (Elt F) f w Finset.univ = w := Memref.write_access_unit_zero_univ (Elt F) cc0_stg3_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 0, 0, 1, 0
    have hr0 : (Memref.whole cc0_stg0_0 : Memref sig .tc _ _ _).view.readAt (Elt F) (Rect.unit (s := S1024x1024) ![0, 0] S1024x1024.size
        inb_S1024x1024_S1024x1024_0_0).toLoadRect = id := funext (Memref.readAt_unit_zero (Elt F) cc0_stg0_0 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_1).access (Rect.unit (s := S1024x1024) ![0, 0] S1024x1024.size inb_S1024x1024_S1024x1024_0_0)) :
        View sig .tc _ _ _).write (Elt F) f w Finset.univ = w := Memref.write_access_unit_zero_univ (Elt F) cc0_stg2_1 hz _
    have hw3 : ∀ f w, (((Memref.whole cc0_stg3_0).access (Rect.unit (s := S1024x1) ![0, 0] S1024x1.size inb_S1024x1_S1024x1_0_0)) :
        View sig .tc _ _ _).write (Elt F) f w Finset.univ = w := Memref.write_access_unit_zero_univ (Elt F) cc0_stg3_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 0, 0, 1, 1
    have hr0 : (Memref.whole cc0_stg0_0 : Memref sig .tc _ _ _).view.readAt (Elt F) (Rect.unit (s := S1024x1024) ![0, 0] S1024x1024.size
        inb_S1024x1024_S1024x1024_0_0).toLoadRect = id := funext (Memref.readAt_unit_zero (Elt F) cc0_stg0_0 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_1).access (Rect.unit (s := S1024x1024) ![0, 0] S1024x1024.size inb_S1024x1024_S1024x1024_0_0)) :
        View sig .tc _ _ _).write (Elt F) f w Finset.univ = w := Memref.write_access_unit_zero_univ (Elt F) cc0_stg2_1 hz _
    have hw3 : ∀ f w, (((Memref.whole cc0_stg3_1).access (Rect.unit (s := S1024x1) ![0, 0] S1024x1.size inb_S1024x1_S1024x1_0_0)) :
        View sig .tc _ _ _).write (Elt F) f w Finset.univ = w := Memref.write_access_unit_zero_univ (Elt F) cc0_stg3_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 1, 0, 0, 0
    have hr0 : (Memref.whole cc0_stg0_1 : Memref sig .tc _ _ _).view.readAt (Elt F) (Rect.unit (s := S1024x1024) ![0, 0] S1024x1024.size
        inb_S1024x1024_S1024x1024_0_0).toLoadRect = id := funext (Memref.readAt_unit_zero (Elt F) cc0_stg0_1 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_0).access (Rect.unit (s := S1024x1024) ![0, 0] S1024x1024.size inb_S1024x1024_S1024x1024_0_0)) :
        View sig .tc _ _ _).write (Elt F) f w Finset.univ = w := Memref.write_access_unit_zero_univ (Elt F) cc0_stg2_0 hz _
    have hw3 : ∀ f w, (((Memref.whole cc0_stg3_0).access (Rect.unit (s := S1024x1) ![0, 0] S1024x1.size inb_S1024x1_S1024x1_0_0)) :
        View sig .tc _ _ _).write (Elt F) f w Finset.univ = w := Memref.write_access_unit_zero_univ (Elt F) cc0_stg3_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 1, 0, 0, 1
    have hr0 : (Memref.whole cc0_stg0_1 : Memref sig .tc _ _ _).view.readAt (Elt F) (Rect.unit (s := S1024x1024) ![0, 0] S1024x1024.size
        inb_S1024x1024_S1024x1024_0_0).toLoadRect = id := funext (Memref.readAt_unit_zero (Elt F) cc0_stg0_1 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_0).access (Rect.unit (s := S1024x1024) ![0, 0] S1024x1024.size inb_S1024x1024_S1024x1024_0_0)) :
        View sig .tc _ _ _).write (Elt F) f w Finset.univ = w := Memref.write_access_unit_zero_univ (Elt F) cc0_stg2_0 hz _
    have hw3 : ∀ f w, (((Memref.whole cc0_stg3_1).access (Rect.unit (s := S1024x1) ![0, 0] S1024x1.size inb_S1024x1_S1024x1_0_0)) :
        View sig .tc _ _ _).write (Elt F) f w Finset.univ = w := Memref.write_access_unit_zero_univ (Elt F) cc0_stg3_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 1, 0, 1, 0
    have hr0 : (Memref.whole cc0_stg0_1 : Memref sig .tc _ _ _).view.readAt (Elt F) (Rect.unit (s := S1024x1024) ![0, 0] S1024x1024.size
        inb_S1024x1024_S1024x1024_0_0).toLoadRect = id := funext (Memref.readAt_unit_zero (Elt F) cc0_stg0_1 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_1).access (Rect.unit (s := S1024x1024) ![0, 0] S1024x1024.size inb_S1024x1024_S1024x1024_0_0)) :
        View sig .tc _ _ _).write (Elt F) f w Finset.univ = w := Memref.write_access_unit_zero_univ (Elt F) cc0_stg2_1 hz _
    have hw3 : ∀ f w, (((Memref.whole cc0_stg3_0).access (Rect.unit (s := S1024x1) ![0, 0] S1024x1.size inb_S1024x1_S1024x1_0_0)) :
        View sig .tc _ _ _).write (Elt F) f w Finset.univ = w := Memref.write_access_unit_zero_univ (Elt F) cc0_stg3_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3
  · -- staging slots 1, 0, 1, 1
    have hr0 : (Memref.whole cc0_stg0_1 : Memref sig .tc _ _ _).view.readAt (Elt F) (Rect.unit (s := S1024x1024) ![0, 0] S1024x1024.size
        inb_S1024x1024_S1024x1024_0_0).toLoadRect = id := funext (Memref.readAt_unit_zero (Elt F) cc0_stg0_1 hz _)
    have hr1 : (Memref.whole cc0_stg1_0 : Memref sig .tc _ _ _).view.readAt (Elt F) (Rect.unit (s := S1024x1024) ![0, 0] S1024x1024.size
        inb_S1024x1024_S1024x1024_0_0).toLoadRect = id := funext (Memref.readAt_unit_zero (Elt F) cc0_stg1_0 hz _)
    have hw2 : ∀ f w, (((Memref.whole cc0_stg2_1).access (Rect.unit (s := S1024x1024) ![0, 0] S1024x1024.size inb_S1024x1024_S1024x1024_0_0)) :
        View sig .tc _ _ _).write (Elt F) f w Finset.univ = w := Memref.write_access_unit_zero_univ (Elt F) cc0_stg2_1 hz _
    have hw3 : ∀ f w, (((Memref.whole cc0_stg3_1).access (Rect.unit (s := S1024x1) ![0, 0] S1024x1.size inb_S1024x1_S1024x1_0_0)) :
        View sig .tc _ _ _).write (Elt F) f w Finset.univ = w := Memref.write_access_unit_zero_univ (Elt F) cc0_stg3_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hw2, hw3]
    isplitl [H0]
    · iexists f0; isplitr; · ipureintro; exact hf0
      iexact H0
    isplitl [H1]
    · iexists f1; isplitr; · ipureintro; exact hf1
      iexact H1
    isplitl [H2]
    · iexists k0_pay3 f0 f1; isplitr; · ipureintro; rw [hf0, hf1]
      iexact H2
    · iexists k0_pay2 f0 f1; isplitr; · ipureintro; rw [hf0, hf1]
      iexact H3

set_option maxHeartbeats 8000000 in
/-- The body of kernel 1 on whichever staging buffers its windows' slots name: every load is of a whole buffer and
    every store overwrites a whole buffer, so the inputs' buffers keep their contents and each output's buffer ends
    holding its payload of the inputs' contents. -/
theorem sound_body1 (c : Dev nD) (E : Set ℕ) (i : grid1.Coords) (s0 : Fin 2) (s1 : Fin 2) (s2 : Fin 2)
    (X0 : S1024x1024.Idx → Elt F .f32) (X1 : S1024x1024.Idx → Elt F .bf16) (X2 : S1x1024.Idx → Elt F .f32) (K : PUnit → sProp 𝕄) :
    iprop((owns (c : Thread nD τ) (stage1_0 s0) fullShare X0
            ∗ owns (c : Thread nD τ) (stage1_1 s1) fullShare X1
            ∗ owns (c : Thread nD τ) (stage1_2 s2) fullShare X2)
          ∗ (iprop(owns (c : Thread nD τ) (stage1_0 s0) fullShare X0
                  ∗ owns (c : Thread nD τ) (stage1_1 s1) fullShare (k1_pay2 X0)
                  ∗ owns (c : Thread nD τ) (stage1_2 s2) fullShare (k1_pay1 X0)) -∗ K ⟨⟩))
      ⊢ wp frame (wpE (defs₀ (F := F)) 𝒱₀ c none) E
          (cc1__norm_cast_kernel i (stage1_0 s0) (hstage1_0 s0) (stage1_1 s1) (hstage1_1 s1) (stage1_2 s2) (hstage1_2 s2)) K := by
  have hz : (![0, 0] : Fin 2 → Nat) = fun _ => 0 := funext fun a => by fin_cases a <;> rfl
  fin_cases s0 <;> fin_cases s1 <;> fin_cases s2
  · -- staging slots 0, 0, 0
    have hr0 : (Memref.whole cc1_stg0_0 : Memref sig .tc _ _ _).view.readAt (Elt F) (Rect.unit (s := S1024x1024) ![0, 0] S1024x1024.size
        inb_S1024x1024_S1024x1024_0_0).toLoadRect = id := funext (Memref.readAt_unit_zero (Elt F) cc1_stg0_0 hz _)
    have hw1 : ∀ f w, (((Memref.whole cc1_stg1_0).access (Rect.unit (s := S1024x1024) ![0, 0] S1024x1024.size inb_S1024x1024_S1024x1024_0_0)) :
        View sig .tc _ _ _).write (Elt F) f w Finset.univ = w := Memref.write_access_unit_zero_univ (Elt F) cc1_stg1_0 hz _
    have hw2 : ∀ f w, (((Memref.whole cc1_stg2_0).access (Rect.unit (s := S1x1024) ![0, 0] S1x1024.size inb_S1x1024_S1x1024_0_0)) :
        View sig .tc _ _ _).write (Elt F) f w Finset.univ = w := Memref.write_access_unit_zero_univ (Elt F) cc1_stg2_0 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 0, 0, 1
    have hr0 : (Memref.whole cc1_stg0_0 : Memref sig .tc _ _ _).view.readAt (Elt F) (Rect.unit (s := S1024x1024) ![0, 0] S1024x1024.size
        inb_S1024x1024_S1024x1024_0_0).toLoadRect = id := funext (Memref.readAt_unit_zero (Elt F) cc1_stg0_0 hz _)
    have hw1 : ∀ f w, (((Memref.whole cc1_stg1_0).access (Rect.unit (s := S1024x1024) ![0, 0] S1024x1024.size inb_S1024x1024_S1024x1024_0_0)) :
        View sig .tc _ _ _).write (Elt F) f w Finset.univ = w := Memref.write_access_unit_zero_univ (Elt F) cc1_stg1_0 hz _
    have hw2 : ∀ f w, (((Memref.whole cc1_stg2_1).access (Rect.unit (s := S1x1024) ![0, 0] S1x1024.size inb_S1x1024_S1x1024_0_0)) :
        View sig .tc _ _ _).write (Elt F) f w Finset.univ = w := Memref.write_access_unit_zero_univ (Elt F) cc1_stg2_1 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 0, 1, 0
    have hr0 : (Memref.whole cc1_stg0_0 : Memref sig .tc _ _ _).view.readAt (Elt F) (Rect.unit (s := S1024x1024) ![0, 0] S1024x1024.size
        inb_S1024x1024_S1024x1024_0_0).toLoadRect = id := funext (Memref.readAt_unit_zero (Elt F) cc1_stg0_0 hz _)
    have hw1 : ∀ f w, (((Memref.whole cc1_stg1_1).access (Rect.unit (s := S1024x1024) ![0, 0] S1024x1024.size inb_S1024x1024_S1024x1024_0_0)) :
        View sig .tc _ _ _).write (Elt F) f w Finset.univ = w := Memref.write_access_unit_zero_univ (Elt F) cc1_stg1_1 hz _
    have hw2 : ∀ f w, (((Memref.whole cc1_stg2_0).access (Rect.unit (s := S1x1024) ![0, 0] S1x1024.size inb_S1x1024_S1x1024_0_0)) :
        View sig .tc _ _ _).write (Elt F) f w Finset.univ = w := Memref.write_access_unit_zero_univ (Elt F) cc1_stg2_0 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 0, 1, 1
    have hr0 : (Memref.whole cc1_stg0_0 : Memref sig .tc _ _ _).view.readAt (Elt F) (Rect.unit (s := S1024x1024) ![0, 0] S1024x1024.size
        inb_S1024x1024_S1024x1024_0_0).toLoadRect = id := funext (Memref.readAt_unit_zero (Elt F) cc1_stg0_0 hz _)
    have hw1 : ∀ f w, (((Memref.whole cc1_stg1_1).access (Rect.unit (s := S1024x1024) ![0, 0] S1024x1024.size inb_S1024x1024_S1024x1024_0_0)) :
        View sig .tc _ _ _).write (Elt F) f w Finset.univ = w := Memref.write_access_unit_zero_univ (Elt F) cc1_stg1_1 hz _
    have hw2 : ∀ f w, (((Memref.whole cc1_stg2_1).access (Rect.unit (s := S1x1024) ![0, 0] S1x1024.size inb_S1x1024_S1x1024_0_0)) :
        View sig .tc _ _ _).write (Elt F) f w Finset.univ = w := Memref.write_access_unit_zero_univ (Elt F) cc1_stg2_1 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 1, 0, 0
    have hr0 : (Memref.whole cc1_stg0_1 : Memref sig .tc _ _ _).view.readAt (Elt F) (Rect.unit (s := S1024x1024) ![0, 0] S1024x1024.size
        inb_S1024x1024_S1024x1024_0_0).toLoadRect = id := funext (Memref.readAt_unit_zero (Elt F) cc1_stg0_1 hz _)
    have hw1 : ∀ f w, (((Memref.whole cc1_stg1_0).access (Rect.unit (s := S1024x1024) ![0, 0] S1024x1024.size inb_S1024x1024_S1024x1024_0_0)) :
        View sig .tc _ _ _).write (Elt F) f w Finset.univ = w := Memref.write_access_unit_zero_univ (Elt F) cc1_stg1_0 hz _
    have hw2 : ∀ f w, (((Memref.whole cc1_stg2_0).access (Rect.unit (s := S1x1024) ![0, 0] S1x1024.size inb_S1x1024_S1x1024_0_0)) :
        View sig .tc _ _ _).write (Elt F) f w Finset.univ = w := Memref.write_access_unit_zero_univ (Elt F) cc1_stg2_0 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 1, 0, 1
    have hr0 : (Memref.whole cc1_stg0_1 : Memref sig .tc _ _ _).view.readAt (Elt F) (Rect.unit (s := S1024x1024) ![0, 0] S1024x1024.size
        inb_S1024x1024_S1024x1024_0_0).toLoadRect = id := funext (Memref.readAt_unit_zero (Elt F) cc1_stg0_1 hz _)
    have hw1 : ∀ f w, (((Memref.whole cc1_stg1_0).access (Rect.unit (s := S1024x1024) ![0, 0] S1024x1024.size inb_S1024x1024_S1024x1024_0_0)) :
        View sig .tc _ _ _).write (Elt F) f w Finset.univ = w := Memref.write_access_unit_zero_univ (Elt F) cc1_stg1_0 hz _
    have hw2 : ∀ f w, (((Memref.whole cc1_stg2_1).access (Rect.unit (s := S1x1024) ![0, 0] S1x1024.size inb_S1x1024_S1x1024_0_0)) :
        View sig .tc _ _ _).write (Elt F) f w Finset.univ = w := Memref.write_access_unit_zero_univ (Elt F) cc1_stg2_1 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 1, 1, 0
    have hr0 : (Memref.whole cc1_stg0_1 : Memref sig .tc _ _ _).view.readAt (Elt F) (Rect.unit (s := S1024x1024) ![0, 0] S1024x1024.size
        inb_S1024x1024_S1024x1024_0_0).toLoadRect = id := funext (Memref.readAt_unit_zero (Elt F) cc1_stg0_1 hz _)
    have hw1 : ∀ f w, (((Memref.whole cc1_stg1_1).access (Rect.unit (s := S1024x1024) ![0, 0] S1024x1024.size inb_S1024x1024_S1024x1024_0_0)) :
        View sig .tc _ _ _).write (Elt F) f w Finset.univ = w := Memref.write_access_unit_zero_univ (Elt F) cc1_stg1_1 hz _
    have hw2 : ∀ f w, (((Memref.whole cc1_stg2_0).access (Rect.unit (s := S1x1024) ![0, 0] S1x1024.size inb_S1x1024_S1x1024_0_0)) :
        View sig .tc _ _ _).write (Elt F) f w Finset.univ = w := Memref.write_access_unit_zero_univ (Elt F) cc1_stg2_0 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2
  · -- staging slots 1, 1, 1
    have hr0 : (Memref.whole cc1_stg0_1 : Memref sig .tc _ _ _).view.readAt (Elt F) (Rect.unit (s := S1024x1024) ![0, 0] S1024x1024.size
        inb_S1024x1024_S1024x1024_0_0).toLoadRect = id := funext (Memref.readAt_unit_zero (Elt F) cc1_stg0_1 hz _)
    have hw1 : ∀ f w, (((Memref.whole cc1_stg1_1).access (Rect.unit (s := S1024x1024) ![0, 0] S1024x1024.size inb_S1024x1024_S1024x1024_0_0)) :
        View sig .tc _ _ _).write (Elt F) f w Finset.univ = w := Memref.write_access_unit_zero_univ (Elt F) cc1_stg1_1 hz _
    have hw2 : ∀ f w, (((Memref.whole cc1_stg2_1).access (Rect.unit (s := S1x1024) ![0, 0] S1x1024.size inb_S1x1024_S1x1024_0_0)) :
        View sig .tc _ _ _).write (Elt F) f w Finset.univ = w := Memref.write_access_unit_zero_univ (Elt F) cc1_stg2_1 hz _
    simp only [owns_whole_eq, cc1__norm_cast_kernel_eq_skeleton]; unfold cc1__norm_cast_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hw1, hw2]
    isplitl [H0]
    · iexists f0; isplitr; · ipureintro; exact hf0
      iexact H0
    isplitl [H1]
    · iexists k1_pay2 f0; isplitr; · ipureintro; rw [hf0]
      iexact H1
    · iexists k1_pay1 f0; isplitr; · ipureintro; rw [hf0]
      iexact H2

set_option maxHeartbeats 8000000 in
/-- The body of kernel 2 on whichever staging buffers its windows' slots name: every load is of a whole buffer and
    every store overwrites a whole buffer, so the inputs' buffers keep their contents and each output's buffer ends
    holding its payload of the inputs' contents. -/
theorem sound_body2 (c : Dev nD) (E : Set ℕ) (i : grid2.Coords) (s0 : Fin 1) (s1 : Fin 2) (s2 : Fin 1) (s3 : Fin 2) (s4 : Fin 2)
    (X0 : S2048x1024.Idx → Elt F .bf16) (X1 : S512x1024.Idx → Elt F .bf16) (X2 : S2048x1.Idx → Elt F .f32) (X3 : S1x512.Idx → Elt F .f32) (X4 : S2048x512.Idx → Elt F .f32) (K : PUnit → sProp 𝕄) :
    iprop((owns (c : Thread nD τ) (stage2_0 s0) fullShare X0
            ∗ owns (c : Thread nD τ) (stage2_1 s1) fullShare X1
            ∗ owns (c : Thread nD τ) (stage2_2 s2) fullShare X2
            ∗ owns (c : Thread nD τ) (stage2_3 s3) fullShare X3
            ∗ owns (c : Thread nD τ) (stage2_4 s4) fullShare X4)
          ∗ (iprop(owns (c : Thread nD τ) (stage2_0 s0) fullShare X0
                  ∗ owns (c : Thread nD τ) (stage2_1 s1) fullShare X1
                  ∗ owns (c : Thread nD τ) (stage2_2 s2) fullShare X2
                  ∗ owns (c : Thread nD τ) (stage2_3 s3) fullShare X3
                  ∗ owns (c : Thread nD τ) (stage2_4 s4) fullShare (k2_pay1 X0 X1 X2 X3)) -∗ K ⟨⟩))
      ⊢ wp frame (wpE (defs₀ (F := F)) 𝒱₀ c none) E
          (cc2__cos_sim_kernel i (stage2_0 s0) (hstage2_0 s0) (stage2_1 s1) (hstage2_1 s1) (stage2_2 s2) (hstage2_2 s2) (stage2_3 s3) (hstage2_3 s3) (stage2_4 s4) (hstage2_4 s4)) K := by
  have hz : (![0, 0] : Fin 2 → Nat) = fun _ => 0 := funext fun a => by fin_cases a <;> rfl
  fin_cases s0 <;> fin_cases s1 <;> fin_cases s2 <;> fin_cases s3 <;> fin_cases s4
  · -- staging slots 0, 0, 0, 0, 0
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_0 : Memref sig .tc _ _ _).view.readAt (Elt F) (Rect.unit (s := S512x1024) ![0, 0] S512x1024.size
        inb_S512x1024_S512x1024_0_0).toLoadRect = id := funext (Memref.readAt_unit_zero (Elt F) cc2_stg1_0 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_0 : Memref sig .tc _ _ _).view.readAt (Elt F) (Rect.unit (s := S1x512) ![0, 0] S1x512.size
        inb_S1x512_S1x512_0_0).toLoadRect = id := funext (Memref.readAt_unit_zero (Elt F) cc2_stg3_0 hz _)
    have hw4 : ∀ f w, (((Memref.whole cc2_stg4_0).access (Rect.unit (s := S2048x512) ![0, 0] S2048x512.size inb_S2048x512_S2048x512_0_0)) :
        View sig .tc _ _ _).write (Elt F) f w Finset.univ = w := Memref.write_access_unit_zero_univ (Elt F) cc2_stg4_0 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 0, 0, 0, 1
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_0 : Memref sig .tc _ _ _).view.readAt (Elt F) (Rect.unit (s := S512x1024) ![0, 0] S512x1024.size
        inb_S512x1024_S512x1024_0_0).toLoadRect = id := funext (Memref.readAt_unit_zero (Elt F) cc2_stg1_0 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_0 : Memref sig .tc _ _ _).view.readAt (Elt F) (Rect.unit (s := S1x512) ![0, 0] S1x512.size
        inb_S1x512_S1x512_0_0).toLoadRect = id := funext (Memref.readAt_unit_zero (Elt F) cc2_stg3_0 hz _)
    have hw4 : ∀ f w, (((Memref.whole cc2_stg4_1).access (Rect.unit (s := S2048x512) ![0, 0] S2048x512.size inb_S2048x512_S2048x512_0_0)) :
        View sig .tc _ _ _).write (Elt F) f w Finset.univ = w := Memref.write_access_unit_zero_univ (Elt F) cc2_stg4_1 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 0, 0, 1, 0
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_0 : Memref sig .tc _ _ _).view.readAt (Elt F) (Rect.unit (s := S512x1024) ![0, 0] S512x1024.size
        inb_S512x1024_S512x1024_0_0).toLoadRect = id := funext (Memref.readAt_unit_zero (Elt F) cc2_stg1_0 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_1 : Memref sig .tc _ _ _).view.readAt (Elt F) (Rect.unit (s := S1x512) ![0, 0] S1x512.size
        inb_S1x512_S1x512_0_0).toLoadRect = id := funext (Memref.readAt_unit_zero (Elt F) cc2_stg3_1 hz _)
    have hw4 : ∀ f w, (((Memref.whole cc2_stg4_0).access (Rect.unit (s := S2048x512) ![0, 0] S2048x512.size inb_S2048x512_S2048x512_0_0)) :
        View sig .tc _ _ _).write (Elt F) f w Finset.univ = w := Memref.write_access_unit_zero_univ (Elt F) cc2_stg4_0 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 0, 0, 1, 1
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_0 : Memref sig .tc _ _ _).view.readAt (Elt F) (Rect.unit (s := S512x1024) ![0, 0] S512x1024.size
        inb_S512x1024_S512x1024_0_0).toLoadRect = id := funext (Memref.readAt_unit_zero (Elt F) cc2_stg1_0 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_1 : Memref sig .tc _ _ _).view.readAt (Elt F) (Rect.unit (s := S1x512) ![0, 0] S1x512.size
        inb_S1x512_S1x512_0_0).toLoadRect = id := funext (Memref.readAt_unit_zero (Elt F) cc2_stg3_1 hz _)
    have hw4 : ∀ f w, (((Memref.whole cc2_stg4_1).access (Rect.unit (s := S2048x512) ![0, 0] S2048x512.size inb_S2048x512_S2048x512_0_0)) :
        View sig .tc _ _ _).write (Elt F) f w Finset.univ = w := Memref.write_access_unit_zero_univ (Elt F) cc2_stg4_1 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 1, 0, 0, 0
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_1 : Memref sig .tc _ _ _).view.readAt (Elt F) (Rect.unit (s := S512x1024) ![0, 0] S512x1024.size
        inb_S512x1024_S512x1024_0_0).toLoadRect = id := funext (Memref.readAt_unit_zero (Elt F) cc2_stg1_1 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_0 : Memref sig .tc _ _ _).view.readAt (Elt F) (Rect.unit (s := S1x512) ![0, 0] S1x512.size
        inb_S1x512_S1x512_0_0).toLoadRect = id := funext (Memref.readAt_unit_zero (Elt F) cc2_stg3_0 hz _)
    have hw4 : ∀ f w, (((Memref.whole cc2_stg4_0).access (Rect.unit (s := S2048x512) ![0, 0] S2048x512.size inb_S2048x512_S2048x512_0_0)) :
        View sig .tc _ _ _).write (Elt F) f w Finset.univ = w := Memref.write_access_unit_zero_univ (Elt F) cc2_stg4_0 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 1, 0, 0, 1
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_1 : Memref sig .tc _ _ _).view.readAt (Elt F) (Rect.unit (s := S512x1024) ![0, 0] S512x1024.size
        inb_S512x1024_S512x1024_0_0).toLoadRect = id := funext (Memref.readAt_unit_zero (Elt F) cc2_stg1_1 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_0 : Memref sig .tc _ _ _).view.readAt (Elt F) (Rect.unit (s := S1x512) ![0, 0] S1x512.size
        inb_S1x512_S1x512_0_0).toLoadRect = id := funext (Memref.readAt_unit_zero (Elt F) cc2_stg3_0 hz _)
    have hw4 : ∀ f w, (((Memref.whole cc2_stg4_1).access (Rect.unit (s := S2048x512) ![0, 0] S2048x512.size inb_S2048x512_S2048x512_0_0)) :
        View sig .tc _ _ _).write (Elt F) f w Finset.univ = w := Memref.write_access_unit_zero_univ (Elt F) cc2_stg4_1 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 1, 0, 1, 0
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_1 : Memref sig .tc _ _ _).view.readAt (Elt F) (Rect.unit (s := S512x1024) ![0, 0] S512x1024.size
        inb_S512x1024_S512x1024_0_0).toLoadRect = id := funext (Memref.readAt_unit_zero (Elt F) cc2_stg1_1 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_1 : Memref sig .tc _ _ _).view.readAt (Elt F) (Rect.unit (s := S1x512) ![0, 0] S1x512.size
        inb_S1x512_S1x512_0_0).toLoadRect = id := funext (Memref.readAt_unit_zero (Elt F) cc2_stg3_1 hz _)
    have hw4 : ∀ f w, (((Memref.whole cc2_stg4_0).access (Rect.unit (s := S2048x512) ![0, 0] S2048x512.size inb_S2048x512_S2048x512_0_0)) :
        View sig .tc _ _ _).write (Elt F) f w Finset.univ = w := Memref.write_access_unit_zero_univ (Elt F) cc2_stg4_0 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4
  · -- staging slots 0, 1, 0, 1, 1
    have hr0 : (Memref.whole cc2_stg0_0 : Memref sig .tc _ _ _).view.readAt (Elt F) (Rect.unit (s := S2048x1024) ![0, 0] S2048x1024.size
        inb_S2048x1024_S2048x1024_0_0).toLoadRect = id := funext (Memref.readAt_unit_zero (Elt F) cc2_stg0_0 hz _)
    have hr1 : (Memref.whole cc2_stg1_1 : Memref sig .tc _ _ _).view.readAt (Elt F) (Rect.unit (s := S512x1024) ![0, 0] S512x1024.size
        inb_S512x1024_S512x1024_0_0).toLoadRect = id := funext (Memref.readAt_unit_zero (Elt F) cc2_stg1_1 hz _)
    have hr2 : (Memref.whole cc2_stg2_0 : Memref sig .tc _ _ _).view.readAt (Elt F) (Rect.unit (s := S2048x1) ![0, 0] S2048x1.size
        inb_S2048x1_S2048x1_0_0).toLoadRect = id := funext (Memref.readAt_unit_zero (Elt F) cc2_stg2_0 hz _)
    have hr3 : (Memref.whole cc2_stg3_1 : Memref sig .tc _ _ _).view.readAt (Elt F) (Rect.unit (s := S1x512) ![0, 0] S1x512.size
        inb_S1x512_S1x512_0_0).toLoadRect = id := funext (Memref.readAt_unit_zero (Elt F) cc2_stg3_1 hz _)
    have hw4 : ∀ f w, (((Memref.whole cc2_stg4_1).access (Rect.unit (s := S2048x512) ![0, 0] S2048x512.size inb_S2048x512_S2048x512_0_0)) :
        View sig .tc _ _ _).write (Elt F) f w Finset.univ = w := Memref.write_access_unit_zero_univ (Elt F) cc2_stg4_1 hz _
    simp only [owns_whole_eq, cc2__cos_sim_kernel_eq_skeleton]; unfold cc2__cos_sim_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr0, hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists k2_pay1 f0 f1 f2 f3; isplitr; · ipureintro; rw [hf0, hf1, hf2, hf3]
      iexact H4

end Cert.KernelIdeal.Bodies

end
-- ==== Proof.IdealData0.lean ====
/-
  The proof data of the first pipeline (the projection), at the ideal values.

  Its two input windows hold blocks of x (1024 rows at each of the two points) and all of W (fetched once); its two
  output windows are written with the projection block t = x·Wᵀ and the column of its row norms. All four blocks tile
  their arrays, so every staging buffer is named exactly.
-/
import proofs.«132659_j10831907520535_1_alg».proof.Proof.Spec
import proofs.«132659_j10831907520535_1_alg».proof.Proof.IdealBodies
import proofs.«132659_j10831907520535_1_alg».proof.Proof.Gen.KernelIdeal.Points
import Idealize.ShloMosaic.Lib.Pipeline.Kit
import Idealize.ShloMosaic.Lib.Pipeline.Frame
import Idealize.ShloMosaic.Lib.Pipeline.FrameBody

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The core's unscoped buffers when the program starts. -/
abbrev V0 (c : Dev nD) : (b : Ref sig .tc) → Buf (Elt Ideal) ((c : Thread nD τ).loc b) := fun b => m ((c : Thread nD τ).loc b)

/-- The block of x the first pipeline reads at point t. -/
def xblk (c : Dev nD) (t : Fin cfg0.N) : S1024x1024.Idx → Elt Ideal .f32 :=
  win0_0.fill (grid0.coords t) (fun _ => Scalar.ofBits (F := Ideal) .f32 0#32) ((win0_0.blk t).view.read (Elt Ideal) (V0 m c main_arg0))
/-- All of W, as the first pipeline reads it. -/
def wblk (c : Dev nD) (t : Fin cfg0.N) : S1024x1024.Idx → Elt Ideal .f32 :=
  win0_1.fill (grid0.coords t) (fun _ => Scalar.ofBits (F := Ideal) .f32 0#32) ((win0_1.blk t).view.read (Elt Ideal) (V0 m c main_arg1))

/-- The first pipeline's proof data: arrays at their launch contents; after the body the inputs' buffers at their
    blocks and the outputs' at the projection block and its row norms. -/
def dat0 (c : Dev nD) : Dat τ (Elt Ideal) Unit ℕ (UR sig nD τ) ℕ cfg0 c where
  A w := V0 m c (Pipeline.arrRef spec0 w)
  after w t := match w with
    | ⟨0, _⟩ => xblk m c t
    | ⟨1, _⟩ => wblk m c t
    | ⟨2, _⟩ => k0_pay3 (xblk m c t) (wblk m c t)
    | ⟨3, _⟩ => k0_pay2 (xblk m c t) (wblk m c t)
  Φ _ := Pipeline.scopedRest (Ix := Unit) (Name := ℕ) (U := UR sig nD τ) (Lvl := ℕ) (Val := Elt Ideal) spec0 c
  q _ := fullShare
  owed _ := 0

theorem before0_0 (c : Dev nD) (t : Fin cfg0.N) (d) : (dat0 m c).before 0 t d = xblk m c t := by
  rw [(dat0 m c).before_in_eq_fetched 0 rfl (fun _ => rfl) (fun _ _ _ => rfl) (fun t => by
    dsimp only [dat0]; unfold xblk; exact (cfg0.win 0).cut_fill _ _ _) t d]
  exact (dat0 m c).fetched_of_clip_none 0 t (fun _ => rfl) _ _

theorem before0_1 (c : Dev nD) (t : Fin cfg0.N) (d) : (dat0 m c).before 1 t d = wblk m c t := by
  rw [(dat0 m c).before_in_eq_fetched 1 rfl (fun _ => rfl) (fun _ _ _ => rfl) (fun t => by
    dsimp only [dat0]; unfold wblk; exact (cfg0.win 1).cut_fill _ _ _) t d]
  exact (dat0 m c).fetched_of_clip_none 1 t (fun _ => rfl) _ _

theorem before0_2 (c : Dev nD) (t : Fin cfg0.N) (d) : (dat0 m c).before 2 t d = d :=
  (dat0 m c).before_out_reset 2 rfl t (by
    by_cases h : t.val = 0
    · exact .inl h
    · exact .inr ⟨h, flush0_2 _⟩) d

theorem before0_3 (c : Dev nD) (t : Fin cfg0.N) (d) : (dat0 m c).before 3 t d = d :=
  (dat0 m c).before_out_reset 3 rfl t (by
    by_cases h : t.val = 0
    · exact .inl h
    · exact .inr ⟨h, flush0_3 _⟩) d

/-- The body's obligation at every point: the inputs' buffers arrive holding their blocks, the outputs' anything; the
    body leaves the inputs' as found and the outputs' at the projection block and its row norms. -/
theorem body_obligation0 (c : Dev nD) : BodyObligation (dat0 m c) (defs₀ (F := Ideal)) Bodies.𝒱₀ () Set.univ := fun t => by
  rw [bigSep_W0, bigSep_W0]
  simp only
  rw [show (dat0 m c).Φ t.succ = (dat0 m c).Φ t.castSucc from rfl,
    show (dat0 m c).owesAt () t.succ = (dat0 m c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (Bodies.sound_body0 (F := Ideal) c Set.univ (grid0.coords t) (cfg0.slots t 0) (cfg0.slots t 1) (cfg0.slots t 2) (cfg0.slots t 3)
    (xblk m c t) (wblk m c t) d2 d3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Run

end
-- ==== Proof.IdealData1.lean ====
/-
  The proof data of the second pipeline (the pass over the bank), at the ideal values.

  Its input window holds a block of 1024 bank rows, the last block overhanging the bank's 50000 rows; its two output
  windows are written with the same block (the format change is the identity on extended reals) and with the row of
  the block's row norms. Every window is stated on the rows inside the bank only.
-/
import proofs.«132659_j10831907520535_1_alg».proof.Proof.IdealData0

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The core's unscoped buffers after the first pipeline: its two result arrays at what it wrote. -/
abbrev V1 (c : Dev nD) : (b : Ref sig .tc) → Buf (Elt Ideal) ((c : Thread nD τ).loc b) :=
  Function.update (Function.update (V0 m c) main_v0_0 ((dat0 m c).arrAt 2 cfg0.N)) main_v0_1 ((dat0 m c).arrAt 3 cfg0.N)

/-- The block of bank rows the second pipeline reads at point t, filled out with zeros past the bank's end. -/
def eblk (c : Dev nD) (t : Fin cfg1.N) : S1024x1024.Idx → Elt Ideal .f32 :=
  win1_0.fill (grid1.coords t) (fun _ => Scalar.ofBits (F := Ideal) .f32 0#32) ((win1_0.blk t).view.read (Elt Ideal) (V1 m c main_arg2))

/-- The second pipeline's proof data. -/
def dat1 (c : Dev nD) : Dat τ (Elt Ideal) Unit ℕ (UR sig nD τ) ℕ cfg1 c where
  A w := V1 m c (Pipeline.arrRef spec1 w)
  after w t := match w with
    | ⟨0, _⟩ => eblk m c t
    | ⟨1, _⟩ => k1_pay2 (eblk m c t)
    | ⟨2, _⟩ => k1_pay1 (eblk m c t)
  Φ _ := Pipeline.scopedRest (Ix := Unit) (Name := ℕ) (U := UR sig nD τ) (Lvl := ℕ) (Val := Elt Ideal) spec1 c
  q _ := fullShare
  owed _ := 0

/-- The bank's block at point t, its rows inside the bank. -/
abbrev eraw (c : Dev nD) (t : Fin cfg1.N) : (win1_0.xblock (grid1.coords t)).Idx → Elt Ideal .f32 :=
  (win1_0.blk t).view.read (Elt Ideal) (V1 m c main_arg2)

theorem before1_0 (c : Dev nD) (t : Fin cfg1.N) (d) :
    (dat1 m c).before 0 t d = win1_0.fill (grid1.coords t) d (eraw m c t) := by
  rw [(dat1 m c).before_fetched 0 t (fetch1_0 t) d]
  rfl

theorem before1_1 (c : Dev nD) (t : Fin cfg1.N) (d) : (dat1 m c).before 1 t d = d :=
  (dat1 m c).before_out_reset 1 rfl t (by
    by_cases h : t.val = 0
    · exact .inl h
    · exact .inr ⟨h, flush1_1 _⟩) d

theorem before1_2 (c : Dev nD) (t : Fin cfg1.N) (d) : (dat1 m c).before 2 t d = d :=
  (dat1 m c).before_out_reset 2 rfl t (by
    by_cases h : t.val = 0
    · exact .inl h
    · exact .inr ⟨h, flush1_2 _⟩) d

end Cert.KernelIdeal.Run

end
-- ==== Proof.IdealData2.lean ====
/-
  The proof data of the third pipeline (the similarity), at the ideal values.

  Its windows: all of the projection and all of its row norms (fetched once), a block of 512 bank rows and the
  matching block of the bank's row norms (the last blocks overhanging the 50000 rows), and the result's block of 512
  columns, written with (t·eᵀ) / max(‖t‖·‖e‖, ε). The three moving windows are stated on the part inside their arrays.
-/
import proofs.«132659_j10831907520535_1_alg».proof.Proof.IdealData1

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The core's unscoped buffers after the second pipeline: its two result arrays at what it wrote. -/
abbrev V2 (c : Dev nD) : (b : Ref sig .tc) → Buf (Elt Ideal) ((c : Thread nD τ).loc b) :=
  Function.update (Function.update (V1 m c) main_v1_0 ((dat1 m c).arrAt 1 cfg1.N)) main_v1_1 ((dat1 m c).arrAt 2 cfg1.N)

/-- The projection, whole, as the third pipeline reads it. -/
def tblk (c : Dev nD) (t : Fin cfg2.N) : S2048x1024.Idx → Elt Ideal .bf16 :=
  win2_0.fill (grid2.coords t) (fun _ => Scalar.ofBits (F := Ideal) .bf16 0#16) ((win2_0.blk t).view.read (Elt Ideal) (V2 m c main_v0_0))
/-- The block of bank rows at point t, filled out with zeros past the bank's end. -/
def e2blk (c : Dev nD) (t : Fin cfg2.N) : S512x1024.Idx → Elt Ideal .bf16 :=
  win2_1.fill (grid2.coords t) (fun _ => Scalar.ofBits (F := Ideal) .bf16 0#16) ((win2_1.blk t).view.read (Elt Ideal) (V2 m c main_v1_0))
/-- The projection's row norms, whole. -/
def tnblk (c : Dev nD) (t : Fin cfg2.N) : S2048x1.Idx → Elt Ideal .f32 :=
  win2_2.fill (grid2.coords t) (fun _ => Scalar.ofBits (F := Ideal) .f32 0#32) ((win2_2.blk t).view.read (Elt Ideal) (V2 m c main_v0_1))
/-- The block of the bank's row norms at point t, filled out with zeros past the end. -/
def enblk (c : Dev nD) (t : Fin cfg2.N) : S1x512.Idx → Elt Ideal .f32 :=
  win2_3.fill (grid2.coords t) (fun _ => Scalar.ofBits (F := Ideal) .f32 0#32) ((win2_3.blk t).view.read (Elt Ideal) (V2 m c main_v1_1))

/-- The third pipeline's proof data. -/
def dat2 (c : Dev nD) : Dat τ (Elt Ideal) Unit ℕ (UR sig nD τ) ℕ cfg2 c where
  A w := V2 m c (Pipeline.arrRef spec2 w)
  after w t := match w with
    | ⟨0, _⟩ => tblk m c t
    | ⟨1, _⟩ => e2blk m c t
    | ⟨2, _⟩ => tnblk m c t
    | ⟨3, _⟩ => enblk m c t
    | ⟨4, _⟩ => k2_pay1 (tblk m c t) (e2blk m c t) (tnblk m c t) (enblk m c t)
  Φ _ := Pipeline.scopedRest (Ix := Unit) (Name := ℕ) (U := UR sig nD τ) (Lvl := ℕ) (Val := Elt Ideal) spec2 c
  q _ := fullShare
  owed _ := 0

/-- The bank rows' block at point t, its rows inside the bank. -/
abbrev e2raw (c : Dev nD) (t : Fin cfg2.N) : (win2_1.xblock (grid2.coords t)).Idx → Elt Ideal .bf16 :=
  (win2_1.blk t).view.read (Elt Ideal) (V2 m c main_v1_0)
/-- The bank norms' block at point t, its part inside the array. -/
abbrev enraw (c : Dev nD) (t : Fin cfg2.N) : (win2_3.xblock (grid2.coords t)).Idx → Elt Ideal .f32 :=
  (win2_3.blk t).view.read (Elt Ideal) (V2 m c main_v1_1)

theorem before2_0 (c : Dev nD) (t : Fin cfg2.N) (d) : (dat2 m c).before 0 t d = tblk m c t := by
  rw [(dat2 m c).before_in_eq_fetched 0 rfl (fun _ => rfl) (fun _ _ _ => rfl) (fun t => by
    dsimp only [dat2]; unfold tblk; exact win2_0.cut_fill _ _ _) t d]
  exact (dat2 m c).fetched_of_clip_none 0 t (fun _ => rfl) _ _

theorem before2_1 (c : Dev nD) (t : Fin cfg2.N) (d) :
    (dat2 m c).before 1 t d = win2_1.fill (grid2.coords t) d (e2raw m c t) := by
  rw [(dat2 m c).before_fetched 1 t (fetch2_1 t) d]
  rfl

theorem before2_2 (c : Dev nD) (t : Fin cfg2.N) (d) : (dat2 m c).before 2 t d = tnblk m c t := by
  rw [(dat2 m c).before_in_eq_fetched 2 rfl (fun _ => rfl) (fun _ _ _ => rfl) (fun t => by
    dsimp only [dat2]; unfold tnblk; exact win2_2.cut_fill _ _ _) t d]
  exact (dat2 m c).fetched_of_clip_none 2 t (fun _ => rfl) _ _

theorem before2_3 (c : Dev nD) (t : Fin cfg2.N) (d) :
    (dat2 m c).before 3 t d = win2_3.fill (grid2.coords t) d (enraw m c t) := by
  rw [(dat2 m c).before_fetched 3 t (fetch2_3 t) d]
  rfl

theorem before2_4 (c : Dev nD) (t : Fin cfg2.N) (d) : (dat2 m c).before 4 t d = d :=
  (dat2 m c).before_out_reset 4 rfl t (by
    by_cases h : t.val = 0
    · exact .inl h
    · exact .inr ⟨h, flush2_4 _⟩) d

/-- The core's unscoped buffers after the third pipeline: the result array at what it wrote. -/
abbrev V3 (c : Dev nD) : (b : Ref sig .tc) → Buf (Elt Ideal) ((c : Thread nD τ).loc b) :=
  Function.update (V2 m c) main_v2 ((dat2 m c).arrAt 4 cfg2.N)

end Cert.KernelIdeal.Run

end
-- ==== Proof.IdealPayloads.lean ====
/-
  The three kernel bodies' stored values, read entry by entry over the extended reals.

  Each body's arithmetic is one pure function of the blocks it loads. Read at an entry:
    projection body:  the product block's entry (r, k) is Σ_j x(r,j)·W(k,j) (both operands contracted on their second
                      axis, summed into a zero accumulator; the narrowing to bf16 is the identity on extended reals),
                      and the norm column's entry (r, 0) is sqrt (Σ_k t(r,k)²);
    bank body:        the norm row's entry (0, j) is sqrt (Σ_k e(j,k)²), and the bf16 copy is the block itself;
    similarity body:  entry (r, j) is (Σ_k t(r,k)·e(j,k)) / max (‖t_r‖·‖e_j‖) ε.
  So entry (r, ·) of a result depends on row r of the first operand only, and entry (·, j) on row j of the second:
  whatever a block holds in rows past its array's end never reaches an entry that belongs to the array.
-/
import proofs.«132659_j10831907520535_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payloads

open Idealize.ShloMosaic Idealize.ShloMosaic.ValueIdx Cert.KernelIdeal Cert.KernelIdeal.Gen

/-! ## The layout operations and reductions of the bodies, at an entry -/

/-- A sum along the second axis of a 1024×1024 block, at row r. -/
theorem rowSum_apply (src : S1024x1024.Idx → EReal) (r : Fin 1024) :
    multiReduction (F := Ideal) (φ := .f32) .add [1] S1024 src 0x00000000#32 reduces_S1024x1024_S1024 (.inl rfl) rfl (ix1 r)
      = ∑ k : Fin 1024, src (ix2 r k) := by
  refine (Ideal.multiReduction_add_single (φ := .f32) src 0x00000000#32 reduces_S1024x1024_S1024 (.inl rfl) rfl (ix1 r)).trans ?_
  refine Finset.sum_congr rfl fun k _ => congrArg src (funext fun c => Fin.ext ?_)
  match c with
  | ⟨0, _⟩ => rfl
  | ⟨1, _⟩ => rfl

/-- A length-1024 vector viewed as a 1024×1 column, at (r, 0). -/
theorem column_apply (v : S1024.Idx → EReal) (r : Fin 1024) (z : Fin 1) :
    shapeCast S1024x1 v shapeCasts_S1024_S1024x1 (ix2 r z) = v (ix1 r) := by
  refine shapeCast_apply v shapeCasts_S1024_S1024x1 (ix2 r z) (ix1 r) ?_
  rw [Shape.rowMajor_val_one, Shape.rowMajor_val_two]
  show r.val = r.val * 1 + z.val
  omega

/-- The transpose of a 1024×1 column, at (0, j). -/
theorem rowOfColumn_apply (v : S1024x1.Idx → EReal) (z : Fin 1) (j : Fin 1024) :
    transpose S1x1024 [1, 0] v transposes_S1024x1_p1_0_S1x1024 (ix2 z j) = v (ix2 j z) :=
  transpose_apply [1, 0] v transposes_S1024x1_p1_0_S1x1024 (ix2 z j) (ix2 j z) (fun b => match b with
    | ⟨0, _⟩ => rfl
    | ⟨1, _⟩ => rfl)

/-- A 2048×1 column spread over 512 columns, at (r, j). -/
theorem spreadColumn_apply (v : S2048x1.Idx → EReal) (r : Fin 2048) (j : Fin 512) :
    broadcastTo S2048x512 v broadcasts_S2048x1_S2048x512 (ix2 r j) = v (ix2 r 0) :=
  broadcastTo_apply v broadcasts_S2048x1_S2048x512 (ix2 r j) (ix2 r 0) (fun a => match a with
    | ⟨0, _⟩ => by show r.val = if (2048 : Nat) = 1 then 0 else r.val; rw [if_neg (by decide)]
    | ⟨1, _⟩ => by show 0 = if (1 : Nat) = 1 then 0 else j.val; rw [if_pos rfl])

/-- A 1×512 row spread over 2048 rows, at (r, j). -/
theorem spreadRow_apply (v : S1x512.Idx → EReal) (r : Fin 2048) (j : Fin 512) :
    broadcastTo S2048x512 v broadcasts_S1x512_S2048x512 (ix2 r j) = v (ix2 0 j) :=
  broadcastTo_apply v broadcasts_S1x512_S2048x512 (ix2 r j) (ix2 0 j) (fun a => match a with
    | ⟨0, _⟩ => by show 0 = if (1 : Nat) = 1 then 0 else r.val; rw [if_pos rfl]
    | ⟨1, _⟩ => by show j.val = if (512 : Nat) = 1 then 0 else j.val; rw [if_neg (by decide)])

/-! ## The two products: both operands contracted on their second axis, into a zero accumulator -/

theorem lhs0_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs0_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs0_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs0_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The projection body's product of two 1024×1024 blocks, at (r, k): row r of the first against row k of the second. -/
theorem product0_apply (a : S1024x1024.Idx → EReal) (b : S1024x1024.Idx → EReal) (r : Fin 1024) (k : Fin 1024) :
    matmul (F := Ideal) (φ₁ := .bf16) (φ₂ := .bf16) dot_S1024x1024_S1024x1024_S1024x1024_1_1_0_0_n_n none a b
        (constant (F := Ideal) S1024x1024 .f32 0x00000000#32) (ix2 r k)
      = ∑ j : Fin 1024, a (ix2 r j) * b (ix2 k j) := by
  refine (Ideal.matmul_constant_zero_apply (φ₁ := .bf16) (φ₂ := .bf16) dot_S1024x1024_S1024x1024_S1024x1024_1_1_0_0_n_n none a b (ix2 r k)).trans ?_
  rw [← Equiv.sum_comp (contrEquiv1 dot_S1024x1024_S1024x1024_S1024x1024_1_1_0_0_n_n 1024 rfl rfl).symm]
  refine Finset.sum_congr rfl fun j _ => ?_
  have hq := contrEquiv1_symm_val dot_S1024x1024_S1024x1024_S1024x1024_1_1_0_0_n_n 1024 rfl rfl j
  have el : dot_S1024x1024_S1024x1024_S1024x1024_1_1_0_0_n_n.lhsIdx (ix2 r k) ((contrEquiv1 dot_S1024x1024_S1024x1024_S1024x1024_1_1_0_0_n_n 1024 rfl rfl).symm j) = ix2 r j :=
    funext fun c => Fin.ext (by
      match c with
      | ⟨0, _⟩ => exact lhs0_0 _ _
      | ⟨1, _⟩ => exact (lhs0_1 _ _).trans hq)
  have er : dot_S1024x1024_S1024x1024_S1024x1024_1_1_0_0_n_n.rhsIdx (ix2 r k) ((contrEquiv1 dot_S1024x1024_S1024x1024_S1024x1024_1_1_0_0_n_n 1024 rfl rfl).symm j) = ix2 k j :=
    funext fun c => Fin.ext (by
      match c with
      | ⟨0, _⟩ => exact rhs0_0 _ _
      | ⟨1, _⟩ => exact (rhs0_1 _ _).trans hq)
  rw [el, er]

theorem lhs2_0 (i : S2048x512.Idx) (q : dot_S2048x1024_S512x1024_S2048x512_1_1_0_0_n_n.contr.Idx) :
    (dot_S2048x1024_S512x1024_S2048x512_1_1_0_0_n_n.lhsIdx i q 0).val = (i 0).val := by
  unfold DotDims.lhsIdx
  rw [dif_neg (show ¬(0 : Fin S2048x1024.rank) ∈ dot_S2048x1024_S512x1024_S2048x512_1_1_0_0_n_n.lhsBatch by decide), dif_pos (show (0 : Fin S2048x1024.rank) ∈ dot_S2048x1024_S512x1024_S2048x512_1_1_0_0_n_n.lhsNonContracting by decide)]
  rfl
theorem lhs2_1 (i : S2048x512.Idx) (q : dot_S2048x1024_S512x1024_S2048x512_1_1_0_0_n_n.contr.Idx) :
    (dot_S2048x1024_S512x1024_S2048x512_1_1_0_0_n_n.lhsIdx i q 1).val = (q ⟨0, by decide⟩).val :=
  dot_S2048x1024_S512x1024_S2048x512_1_1_0_0_n_n.lhsIdx_val_of_single rfl i q
theorem rhs2_0 (i : S2048x512.Idx) (q : dot_S2048x1024_S512x1024_S2048x512_1_1_0_0_n_n.contr.Idx) :
    (dot_S2048x1024_S512x1024_S2048x512_1_1_0_0_n_n.rhsIdx i q 0).val = (i 1).val := by
  unfold DotDims.rhsIdx
  rw [dif_neg (show ¬(0 : Fin S512x1024.rank) ∈ dot_S2048x1024_S512x1024_S2048x512_1_1_0_0_n_n.rhsBatch by decide), dif_pos (show (0 : Fin S512x1024.rank) ∈ dot_S2048x1024_S512x1024_S2048x512_1_1_0_0_n_n.rhsNonContracting by decide)]
  rfl
theorem rhs2_1 (i : S2048x512.Idx) (q : dot_S2048x1024_S512x1024_S2048x512_1_1_0_0_n_n.contr.Idx) :
    (dot_S2048x1024_S512x1024_S2048x512_1_1_0_0_n_n.rhsIdx i q 1).val = (q ⟨0, by decide⟩).val :=
  dot_S2048x1024_S512x1024_S2048x512_1_1_0_0_n_n.rhsIdx_val_of_single rfl i q

/-- The similarity body's product of a 2048×1024 block and a 512×1024 block, at (r, j): row r against row j. -/
theorem product2_apply (a : S2048x1024.Idx → EReal) (b : S512x1024.Idx → EReal) (r : Fin 2048) (j : Fin 512) :
    matmul (F := Ideal) (φ₁ := .bf16) (φ₂ := .bf16) dot_S2048x1024_S512x1024_S2048x512_1_1_0_0_n_n none a b
        (constant (F := Ideal) S2048x512 .f32 0x00000000#32) (ix2 r j)
      = ∑ k : Fin 1024, a (ix2 r k) * b (ix2 j k) := by
  refine (Ideal.matmul_constant_zero_apply (φ₁ := .bf16) (φ₂ := .bf16) dot_S2048x1024_S512x1024_S2048x512_1_1_0_0_n_n none a b (ix2 r j)).trans ?_
  rw [← Equiv.sum_comp (contrEquiv1 dot_S2048x1024_S512x1024_S2048x512_1_1_0_0_n_n 1024 rfl rfl).symm]
  refine Finset.sum_congr rfl fun k _ => ?_
  have hq := contrEquiv1_symm_val dot_S2048x1024_S512x1024_S2048x512_1_1_0_0_n_n 1024 rfl rfl k
  have el : dot_S2048x1024_S512x1024_S2048x512_1_1_0_0_n_n.lhsIdx (ix2 r j) ((contrEquiv1 dot_S2048x1024_S512x1024_S2048x512_1_1_0_0_n_n 1024 rfl rfl).symm k) = ix2 r k :=
    funext fun c => Fin.ext (by
      match c with
      | ⟨0, _⟩ => exact lhs2_0 _ _
      | ⟨1, _⟩ => exact (lhs2_1 _ _).trans hq)
  have er : dot_S2048x1024_S512x1024_S2048x512_1_1_0_0_n_n.rhsIdx (ix2 r j) ((contrEquiv1 dot_S2048x1024_S512x1024_S2048x512_1_1_0_0_n_n 1024 rfl rfl).symm k) = ix2 j k :=
    funext fun c => Fin.ext (by
      match c with
      | ⟨0, _⟩ => exact rhs2_0 _ _
      | ⟨1, _⟩ => exact (rhs2_1 _ _).trans hq)
  rw [el, er]

/-! ## The payloads at an entry -/

/-- Projection body: entry (r, k) of the product block is row r of the first block against row k of the second. -/
theorem pay0_product (x W : S1024x1024.Idx → EReal) (r k : Fin 1024) :
    k0_pay1 (F := Ideal) x W (ix2 r k) = ∑ j : Fin 1024, x (ix2 r j) * W (ix2 k j) := by
  unfold k0_pay1
  exact product0_apply _ _ r k

/-- Projection body: entry (r, 0) of the norm column is the norm of row r of the product block. -/
theorem pay0_norm (x W : S1024x1024.Idx → EReal) (r : Fin 1024) (z : Fin 1) :
    k0_pay2 (F := Ideal) x W (ix2 r z)
      = Ideal.sqrt (∑ k : Fin 1024, k0_pay1 (F := Ideal) x W (ix2 r k) * k0_pay1 (F := Ideal) x W (ix2 r k)) := by
  unfold k0_pay2
  refine congrArg Ideal.sqrt ?_
  refine (column_apply _ r z).trans ?_
  exact rowSum_apply _ r

/-- Projection body: the stored bf16 block is the product block (narrowing is the identity on extended reals). -/
theorem pay0_copy (x W : S1024x1024.Idx → EReal) :
    (k0_pay3 (F := Ideal) x W : S1024x1024.Idx → EReal) = k0_pay1 (F := Ideal) x W := rfl

/-- Bank body: entry (0, j) of the norm row is the norm of row j of the block. -/
theorem pay1_norm (e : S1024x1024.Idx → EReal) (z : Fin 1) (j : Fin 1024) :
    k1_pay1 (F := Ideal) e (ix2 z j) = Ideal.sqrt (∑ k : Fin 1024, e (ix2 j k) * e (ix2 j k)) := by
  unfold k1_pay1
  refine (rowOfColumn_apply _ z j).trans ?_
  refine congrArg Ideal.sqrt ?_
  refine (column_apply _ j z).trans ?_
  exact rowSum_apply _ j

/-- Bank body: the stored bf16 block is the block itself. -/
theorem pay1_copy (e : S1024x1024.Idx → EReal) :
    (k1_pay2 (F := Ideal) e : S1024x1024.Idx → EReal) = e := rfl

/-- Similarity body: entry (r, j) is projected row r against bank row j, over the bounded product of their norms. -/
theorem pay2_apply (t : S2048x1024.Idx → EReal) (e : S512x1024.Idx → EReal) (nt : S2048x1.Idx → EReal) (ne : S1x512.Idx → EReal)
    (r : Fin 2048) (j : Fin 512) :
    k2_pay1 (F := Ideal) t e nt ne (ix2 r j)
      = Ideal.div (∑ k : Fin 1024, t (ix2 r k) * e (ix2 j k))
          (max (nt (ix2 r 0) * ne (ix2 0 j)) (Ideal.ofBits .f32 0x358637BD#32)) := by
  unfold k2_pay1
  simp only [shapeCast_self]
  refine congrArg₂ Ideal.div (product2_apply t e r j) ?_
  refine congrArg₂ max ?_ rfl
  exact congrArg₂ (· * ·) (spreadColumn_apply nt r j) (spreadRow_apply ne r j)

end Cert.KernelIdeal.Payloads

end
-- ==== Proof.IdealIndep.lean ====
/-
  A body's entries inside the array do not see what a clipped block holds past the array's end.

  The last block of the bank (rows 49152… of 50000 in blocks of 1024, rows 49664… in blocks of 512) overhangs the
  array: a fetch fills only the block's leading rows, and the rest of the staging buffer keeps whatever it held.
  Each body reads, for the entry in row (or column) c of its result, only row c of the overhanging operand; and the
  write-back moves only the leading rows (columns) of the result, cut exactly where the fetch was. So the part of
  the result that is written back is the same whatever the filler was.
-/
import proofs.«132659_j10831907520535_1_alg».proof.Proof.IdealPayloads

noncomputable section

namespace Cert.KernelIdeal.Run

open Idealize.ShloMosaic Idealize.ShloMosaic.ValueIdx Cert.KernelIdeal Cert.KernelIdeal.Gen Cert.KernelIdeal.Payloads

/-- Two fills of one fetched part agree wherever the fetch moved the entry. -/
theorem fill_eq_of_moved {G : Pipeline.Grid} (w : Pipeline.Window sig G) {α : Type} (i : G.Coords)
    (d d' : w.block.Idx → α) (g : (w.xblock i).Idx → α) (j : w.block.Idx) (h : w.moved i j = true) :
    w.fill i d g j = w.fill i d' g j := by
  unfold Pipeline.Window.fill
  rw [dif_pos h, dif_pos h]

/-- Bank pass, the bf16 copy: the rows written back are rows the fetch moved. -/
theorem indep1_1 (i : grid1.Coords) (d d' : S1024x1024.Idx → Elt Ideal .f32) (g : (win1_0.xblock i).Idx → Elt Ideal .f32) :
    win1_1.cut i (k1_pay2 (F := Ideal) (win1_0.fill i d g)) = win1_1.cut i (k1_pay2 (F := Ideal) (win1_0.fill i d' g)) := by
  funext j
  show win1_0.fill i d g (win1_1.xinj i j) = win1_0.fill i d' g (win1_1.xinj i j)
  refine fill_eq_of_moved win1_0 i d d' g _ ((win1_0.moved_iff i _).mpr fun a => ?_)
  exact (j a).isLt

/-- Bank pass, the norms: the norm written back in column c is of row c, which the fetch moved. -/
theorem indep1_2 (i : grid1.Coords) (d d' : S1024x1024.Idx → Elt Ideal .f32) (g : (win1_0.xblock i).Idx → Elt Ideal .f32) :
    win1_2.cut i (k1_pay1 (F := Ideal) (win1_0.fill i d g)) = win1_2.cut i (k1_pay1 (F := Ideal) (win1_0.fill i d' g)) := by
  funext j
  show k1_pay1 (F := Ideal) (win1_0.fill i d g) (win1_2.xinj i j) = k1_pay1 (F := Ideal) (win1_0.fill i d' g) (win1_2.xinj i j)
  obtain ⟨z, c, hzc, hc⟩ : ∃ (z : Fin 1) (c : Fin 1024), win1_2.xinj i j = ix2 z c ∧ c.val = (j 1).val :=
    ⟨win1_2.xinj i j 0, win1_2.xinj i j 1, eq_ix2 (n0 := 1) (n1 := 1024) _, rfl⟩
  rw [hzc, pay1_norm, pay1_norm]
  refine congrArg Ideal.sqrt (Finset.sum_congr rfl fun k _ => ?_)
  have h0 : c.val < win1_0.xsize i 0 := by rw [hc]; exact (j 1).isLt
  have hm : win1_0.moved i (ix2 c k) = true := (win1_0.moved_iff i _).mpr fun a => match a with
    | ⟨0, _⟩ => h0
    | ⟨1, _⟩ => k.isLt
  rw [fill_eq_of_moved win1_0 i d d' g _ hm]

/-- Similarity: the entry written back in column c reads row c of the bank block and entry c of the norm row,
    both of which their fetches moved. -/
theorem indep2_4 (i : grid2.Coords) (T : S2048x1024.Idx → Elt Ideal .bf16) (N : S2048x1.Idx → Elt Ideal .f32)
    (d1 d1' : S512x1024.Idx → Elt Ideal .bf16) (g1 : (win2_1.xblock i).Idx → Elt Ideal .bf16)
    (d3 d3' : S1x512.Idx → Elt Ideal .f32) (g3 : (win2_3.xblock i).Idx → Elt Ideal .f32) :
    win2_4.cut i (k2_pay1 (F := Ideal) T (win2_1.fill i d1 g1) N (win2_3.fill i d3 g3))
      = win2_4.cut i (k2_pay1 (F := Ideal) T (win2_1.fill i d1' g1) N (win2_3.fill i d3' g3)) := by
  funext j
  show k2_pay1 (F := Ideal) T (win2_1.fill i d1 g1) N (win2_3.fill i d3 g3) (win2_4.xinj i j)
    = k2_pay1 (F := Ideal) T (win2_1.fill i d1' g1) N (win2_3.fill i d3' g3) (win2_4.xinj i j)
  obtain ⟨r, c, hrc, hc⟩ : ∃ (r : Fin 2048) (c : Fin 512), win2_4.xinj i j = ix2 r c ∧ c.val = (j 1).val :=
    ⟨win2_4.xinj i j 0, win2_4.xinj i j 1, eq_ix2 (n0 := 2048) (n1 := 512) _, rfl⟩
  rw [hrc, pay2_apply, pay2_apply]
  have h1 : c.val < win2_1.xsize i 0 := by rw [hc]; exact (j 1).isLt
  have h3 : c.val < win2_3.xsize i 1 := by rw [hc]; exact (j 1).isLt
  have hm3 : win2_3.moved i (ix2 0 c) = true := (win2_3.moved_iff i _).mpr fun a => match a with
    | ⟨0, _⟩ => Nat.one_pos
    | ⟨1, _⟩ => h3
  rw [fill_eq_of_moved win2_3 i d3 d3' g3 _ hm3]
  refine congrArg (fun s => Ideal.div s _) (Finset.sum_congr rfl fun k _ => ?_)
  have hm1 : win2_1.moved i (ix2 c k) = true := (win2_1.moved_iff i _).mpr fun a => match a with
    | ⟨0, _⟩ => h1
    | ⟨1, _⟩ => k.isLt
  rw [fill_eq_of_moved win2_1 i d1 d1' g1 _ hm1]

end Cert.KernelIdeal.Run

end
-- ==== Proof.IdealObligations.lean ====
/-
  The body obligations of the second and third pipelines, whose moving windows overhang their arrays.

  A staging buffer of such a window arrives holding its block on the part inside the array and anything past it; the
  body's payloads, read inside the array, do not depend on what lies past it, so each output buffer is handed back
  as the payload of the zero-filled blocks on the part inside the array.
-/
import proofs.«132659_j10831907520535_1_alg».proof.Proof.IdealData2
import proofs.«132659_j10831907520535_1_alg».proof.Proof.IdealIndep

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## The second pipeline -/

theorem leaves1_0 (c : Dev nD) (t : Fin cfg1.N) (d0 : S1024x1024.Idx → Elt Ideal .f32) :
    (win1 (0 : Fin 3)).fill (grid1.coords t) d0 ((win1 (0 : Fin 3)).cut (grid1.coords t) ((dat1 m c).after (0 : Fin 3) t))
      = win1_0.fill (grid1.coords t) d0 (eraw m c t) := by
  dsimp only [dat1]; unfold eblk
  exact congrArg (win1_0.fill (grid1.coords t) d0) (win1_0.cut_fill _ _ _)

theorem leaves1_1 (c : Dev nD) (t : Fin cfg1.N) (d0 : S1024x1024.Idx → Elt Ideal .f32) :
    (win1 (1 : Fin 3)).fill (grid1.coords t) (k1_pay2 (F := Ideal) (win1_0.fill (grid1.coords t) d0 (eraw m c t)))
        ((win1 (1 : Fin 3)).cut (grid1.coords t) ((dat1 m c).after (1 : Fin 3) t))
      = k1_pay2 (F := Ideal) (win1_0.fill (grid1.coords t) d0 (eraw m c t)) := by
  dsimp only [dat1]; unfold eblk
  exact win1_1.fill_congr_cut _ (indep1_1 _ d0 _ _)

theorem leaves1_2 (c : Dev nD) (t : Fin cfg1.N) (d0 : S1024x1024.Idx → Elt Ideal .f32) :
    (win1 (2 : Fin 3)).fill (grid1.coords t) (k1_pay1 (F := Ideal) (win1_0.fill (grid1.coords t) d0 (eraw m c t)))
        ((win1 (2 : Fin 3)).cut (grid1.coords t) ((dat1 m c).after (2 : Fin 3) t))
      = k1_pay1 (F := Ideal) (win1_0.fill (grid1.coords t) d0 (eraw m c t)) := by
  dsimp only [dat1]; unfold eblk
  exact win1_2.fill_congr_cut _ (indep1_2 _ d0 _ _)

theorem body_obligation1 (c : Dev nD) : BodyObligationLoose (dat1 m c) (defs₀ (F := Ideal)) Bodies.𝒱₀ () Set.univ := fun t => by
  rw [bigSep_W1, bigSep_W1]
  simp only
  rw [show (dat1 m c).Φ t.succ = (dat1 m c).Φ t.castSucc from rfl,
    show (dat1 m c).owesAt () t.succ = (dat1 m c).owesAt () t.castSucc from rfl]
  iintro ⟨HΦ, Ho, ⟨%d0, H0⟩, ⟨%d1, H1⟩, ⟨%d2, H2⟩⟩
  rw [before1_0 m c t d0, before1_1 m c t d1, before1_2 m c t d2]
  iapply (Bodies.sound_body1 (F := Ideal) c Set.univ (grid1.coords t) (cfg1.slots t 0) (cfg1.slots t 1) (cfg1.slots t 2)
    (win1_0.fill (grid1.coords t) d0 (eraw m c t)) d1 d2 _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · iexists d0
    rw [leaves1_0 m c t d0]; try iexact H0
  isplitl [H1]
  · iexists k1_pay2 (F := Ideal) (win1_0.fill (grid1.coords t) d0 (eraw m c t))
    rw [leaves1_1 m c t d0]; try iexact H1
  · iexists k1_pay1 (F := Ideal) (win1_0.fill (grid1.coords t) d0 (eraw m c t))
    rw [leaves1_2 m c t d0]; try iexact H2

/-! ## The third pipeline -/

theorem leaves2_1 (c : Dev nD) (t : Fin cfg2.N) (d1 : S512x1024.Idx → Elt Ideal .bf16) :
    (win2 (1 : Fin 5)).fill (grid2.coords t) d1 ((win2 (1 : Fin 5)).cut (grid2.coords t) ((dat2 m c).after (1 : Fin 5) t))
      = win2_1.fill (grid2.coords t) d1 (e2raw m c t) := by
  dsimp only [dat2]; unfold e2blk
  exact congrArg (win2_1.fill (grid2.coords t) d1) (win2_1.cut_fill _ _ _)

theorem leaves2_3 (c : Dev nD) (t : Fin cfg2.N) (d3 : S1x512.Idx → Elt Ideal .f32) :
    (win2 (3 : Fin 5)).fill (grid2.coords t) d3 ((win2 (3 : Fin 5)).cut (grid2.coords t) ((dat2 m c).after (3 : Fin 5) t))
      = win2_3.fill (grid2.coords t) d3 (enraw m c t) := by
  dsimp only [dat2]; unfold enblk
  exact congrArg (win2_3.fill (grid2.coords t) d3) (win2_3.cut_fill _ _ _)

theorem leaves2_4 (c : Dev nD) (t : Fin cfg2.N) (d1 : S512x1024.Idx → Elt Ideal .bf16) (d3 : S1x512.Idx → Elt Ideal .f32) :
    (win2 (4 : Fin 5)).fill (grid2.coords t)
        (k2_pay1 (F := Ideal) (tblk m c t) (win2_1.fill (grid2.coords t) d1 (e2raw m c t)) (tnblk m c t) (win2_3.fill (grid2.coords t) d3 (enraw m c t)))
        ((win2 (4 : Fin 5)).cut (grid2.coords t) ((dat2 m c).after (4 : Fin 5) t))
      = k2_pay1 (F := Ideal) (tblk m c t) (win2_1.fill (grid2.coords t) d1 (e2raw m c t)) (tnblk m c t) (win2_3.fill (grid2.coords t) d3 (enraw m c t)) := by
  dsimp only [dat2]; unfold e2blk enblk
  exact win2_4.fill_congr_cut _ (indep2_4 _ (tblk m c t) (tnblk m c t) d1 _ _ d3 _ _)

set_option maxHeartbeats 1600000 in
theorem body_obligation2 (c : Dev nD) : BodyObligationLoose (dat2 m c) (defs₀ (F := Ideal)) Bodies.𝒱₀ () Set.univ := fun t => by
  rw [bigSep_W2, bigSep_W2]
  simp only
  rw [show (dat2 m c).Φ t.succ = (dat2 m c).Φ t.castSucc from rfl,
    show (dat2 m c).owesAt () t.succ = (dat2 m c).owesAt () t.castSucc from rfl]
  iintro ⟨HΦ, Ho, ⟨%d0, H0⟩, ⟨%d1, H1⟩, ⟨%d2, H2⟩, ⟨%d3, H3⟩, ⟨%d4, H4⟩⟩
  rw [before2_0 m c t d0, before2_1 m c t d1, before2_2 m c t d2, before2_3 m c t d3, before2_4 m c t d4]
  iapply (Bodies.sound_body2 (F := Ideal) c Set.univ (grid2.coords t) (cfg2.slots t 0) (cfg2.slots t 1) (cfg2.slots t 2) (cfg2.slots t 3) (cfg2.slots t 4)
    (tblk m c t) (win2_1.fill (grid2.coords t) d1 (e2raw m c t)) (tnblk m c t) (win2_3.fill (grid2.coords t) d3 (enraw m c t)) d4 _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]
  · iexists d1
    rw [leaves2_1 m c t d1]; try iexact H1
  isplitl [H2]; · iexact H2
  isplitl [H3]
  · iexists d3
    rw [leaves2_3 m c t d3]; try iexact H3
  · iexists k2_pay1 (F := Ideal) (tblk m c t) (win2_1.fill (grid2.coords t) d1 (e2raw m c t)) (tnblk m c t) (win2_3.fill (grid2.coords t) d3 (enraw m c t))
    rw [leaves2_4 m c t d1 d3]; try iexact H4

end Cert.KernelIdeal.Run

end
-- ==== Proof.IdealRegions.lean ====
/-
  The three pipelines as regions of the program, and the run of the whole program.

  Between two regions a core holds its unscoped buffers at a known valuation (the launch contents, then each
  pipeline's result arrays at what its write-backs leave) and owes nothing. Each region takes its windows' arrays out
  of that valuation, runs, and puts them back at their final contents.
-/
import proofs.«132659_j10831907520535_1_alg».proof.Proof.IdealObligations
import proofs.«132659_j10831907520535_1_alg».proof.Proof.Gen.KernelIdeal.Launch
import Idealize.ShloMosaic.Lib.Pipeline.Regions

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The pipeline library's algebra is the certificate's. -/
abbrev EP : Emb (UR sig nD τ) (MT nD τ sig Unit (Elt Ideal) ℕ (UR sig nD τ) ℕ) := emb₁

/-- The three pipelines' proof data. -/
def dats : (p : Fin 3) → (c : Dev nD) → Dat τ (Elt Ideal) Unit ℕ (UR sig nD τ) ℕ (cfgs p) c :=
  fun | ⟨0, _⟩ => dat0 m | ⟨1, _⟩ => dat1 m | ⟨2, _⟩ => dat2 m | ⟨_ + 3, h⟩ => absurd h (Nat.not_lt.2 (Nat.le_add_left _ _))

abbrev L : GSem nD τ sig → Finset Unit := fun _ => ∅
abbrev lv : GSem nD τ sig → Unit → ℕ := fun _ _ => 0
abbrev adm : (p : Fin 3) → (pcfgs (F := Ideal) p).Adm := fun p => (cfgs p).toPCfg_adm

/-- What rides beside the buffers between regions: the core owes nothing. -/
abbrev R (c : Dev nD) : sProp 𝕄 := iprop(∃ W, owes (c : Thread nD τ) (0 : CellTallies nD τ sig Unit) W)

/-- No pipeline here has a prefetched table. -/
theorem prefHeld_emp (p : Fin 3) (c : Dev nD) :
    (BI.emp : sProp 𝕄) ⊢ Pipeline.prefHeld (pcfgs (F := Ideal) p).pre c (fun _ => fullShare) (adm p).1 := by
  unfold Pipeline.prefHeld; rw [show (Finset.univ : Finset (Fin 0)) = ∅ from rfl, BI.bigSep_empty]

set_option backward.isDefEq.respectTransparency.types false in
/-- THE FIRST REGION: from the launch valuation to the one with the projection and its row norms written. -/
def reg0 : Pipeline.RegionSeg (pcfgs (F := Ideal)) adm (dats m) () defs₀ Bodies.𝒱₀ L lv 0 where
  win := launch0.win.to₀
  block_pos := launch0.block_pos
  stage_whole := launch0.stage_whole
  K := PEmpty
  osem := fun k => k.elim
  ho := Pipeline.OwnSemFacts.none _
  hbody c := (body_obligation0 m c).loose
  hwaits := Pipeline.hwaits_of_owed_zero _ _ _ _ L lv 0 fun _ _ => rfl
  pre c := iprop(unscopedBufs c (V0 m c) ∗ R c)
  post c := iprop(unscopedBufs c (V1 m c) ∗ R c)
  X c := iprop(emp)
  Y c := iprop(emp)
  Z c := Pipeline.unscopedRest (Ix := Unit) (Name := ℕ) (U := UR sig nD τ) (Lvl := ℕ) spec0 c (V0 m c)
  hentry c := by
    have hsplit := Pipeline.arrays_of_unscopedBufs (pcfgs (F := Ideal)) adm (dats m) (p := 0) launch0.win launch0.arr_whole c
      ((dats m 0 c).share_full fun _ => rfl) (V0 m c) fun _ => rfl
    iintro ⟨⟨Hub, HO⟩, -, -⟩
    ihave H := hsplit $$ Hub
    icases H with ⟨Ha, Hr⟩
    imodintro
    isplitl [Ha]; · iexact Ha
    isplitr; · iapply (prefHeld_emp 0 c); iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt Ideal) spec0 c from rfl]
    iintro ⟨-, -, Hr⟩
    iexact Hr
  hout c := by
    rw [Pipeline.ownSems0_none, show (dats m 0 c).Φ (Fin.last (Pipeline.pin (pcfgs (F := Ideal)) adm 0).N) = Pipeline.scopedRest (Ix := Unit) (Name := ℕ) (U := UR sig nD τ) (Lvl := ℕ) (Val := Elt Ideal) spec0 c from rfl]
    iintro Hr
    isplitr; · iempintro
    isplitr; · iempintro
    iexact Hr
  hexit c := by
    have hA : ∀ w, (dats m 0 c).arrAt w (Pipeline.pin (pcfgs (F := Ideal)) adm 0).N = V1 m c (Pipeline.arrRef (cfgs 0).spec w) := fun w => by
      match w with
      | ⟨0, _⟩ => exact ((dats m 0 c).arrAt_in 0 rfl _).trans (by
          show V0 m c main_arg0 = V1 m c main_arg0
          unfold V1; rw [Function.update_of_ne (by decide), Function.update_of_ne (by decide)])
      | ⟨1, _⟩ => exact ((dats m 0 c).arrAt_in 1 rfl _).trans (by
          show V0 m c main_arg1 = V1 m c main_arg1
          unfold V1; rw [Function.update_of_ne (by decide), Function.update_of_ne (by decide)])
      | ⟨2, _⟩ =>
          show (dat0 m c).arrAt 2 cfg0.N = V1 m c main_v0_0
          unfold V1; rw [Function.update_of_ne (by decide), Function.update_self]
      | ⟨3, _⟩ =>
          show (dat0 m c).arrAt 3 cfg0.N = V1 m c main_v0_1
          unfold V1; rw [Function.update_self]
    have hrest : (Pipeline.unscopedRest (Ix := Unit) (Name := ℕ) (U := UR sig nD τ) (Lvl := ℕ) spec0 c (V0 m c) : sProp 𝕄)
        = Pipeline.unscopedRest (cfgs 0).spec c (V1 m c) := by
      show Pipeline.unscopedRest spec0 c (V0 m c) = Pipeline.unscopedRest spec0 c (V1 m c)
      rw [unscopedRest0_eq, unscopedRest0_eq]
      unfold V1
      rw [Function.update_of_ne (by decide), Function.update_of_ne (by decide), Function.update_of_ne (by decide), Function.update_of_ne (by decide),
        Function.update_of_ne (by decide), Function.update_of_ne (by decide), Function.update_of_ne (by decide), Function.update_of_ne (by decide)]
    rw [Pipeline.unscopedBufs_split cfgs 0 launch0.win.arr_unscoped launch0.win.arr_inj c (V1 m c), ← hrest,
      show ((dats m 0 c).arrAt · (Pipeline.pin (pcfgs (F := Ideal)) adm 0).N) = fun w => V1 m c (Pipeline.arrRef (cfgs 0).spec w) from funext hA,
      Pipeline.arrays_eq cfgs (dats m) 0 c launch0.arr_whole ((dats m 0 c).share_full fun _ => rfl)]
    iintro ⟨Ha, HO, -, Hr⟩
    imodintro
    isplitr [HO]
    · isplitl [Ha]
      · iexact Ha
      · iexact Hr
    · unfold Pipeline.Dat.owesAt Pipeline.owesWithin
      icases HO with ⟨%W, -, HO⟩; iexists W; iexact HO

set_option backward.isDefEq.respectTransparency.types false in
def reg1 : Pipeline.RegionSeg (pcfgs (F := Ideal)) adm (dats m) () defs₀ Bodies.𝒱₀ L lv 1 where
  win := launch1.win.to₀
  block_pos := launch1.block_pos
  stage_whole := launch1.stage_whole
  K := PEmpty
  osem := fun k => k.elim
  ho := Pipeline.OwnSemFacts.none _
  hbody c := body_obligation1 m c
  hwaits := Pipeline.hwaits_of_owed_zero _ _ _ _ L lv 1 fun _ _ => rfl
  pre c := iprop(unscopedBufs c (V1 m c) ∗ R c)
  post c := iprop(unscopedBufs c (V2 m c) ∗ R c)
  X c := iprop(emp)
  Y c := iprop(emp)
  Z c := Pipeline.unscopedRest (Ix := Unit) (Name := ℕ) (U := UR sig nD τ) (Lvl := ℕ) spec1 c (V1 m c)
  hentry c := by
    have hsplit := Pipeline.arrays_of_unscopedBufs (pcfgs (F := Ideal)) adm (dats m) (p := 1) launch1.win launch1.arr_whole c
      ((dats m 1 c).share_full fun _ => rfl) (V1 m c) fun _ => rfl
    iintro ⟨⟨Hub, HO⟩, -, -⟩
    ihave H := hsplit $$ Hub
    icases H with ⟨Ha, Hr⟩
    imodintro
    isplitl [Ha]; · iexact Ha
    isplitr; · iapply (prefHeld_emp 1 c); iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 1 c).Φ 0 = Pipeline.scopedRest (Ix := Unit) (Name := ℕ) (U := UR sig nD τ) (Lvl := ℕ) (Val := Elt Ideal) spec1 c from rfl]
    iintro ⟨-, -, Hr⟩
    iexact Hr
  hout c := by
    rw [Pipeline.ownSems0_none, show (dats m 1 c).Φ (Fin.last (Pipeline.pin (pcfgs (F := Ideal)) adm 1).N) = Pipeline.scopedRest (Ix := Unit) (Name := ℕ) (U := UR sig nD τ) (Lvl := ℕ) (Val := Elt Ideal) spec1 c from rfl]
    iintro Hr
    isplitr; · iempintro
    isplitr; · iempintro
    iexact Hr
  hexit c := by
    have hA : ∀ w, (dats m 1 c).arrAt w (Pipeline.pin (pcfgs (F := Ideal)) adm 1).N = V2 m c (Pipeline.arrRef (cfgs 1).spec w) := fun w => by
      match w with
      | ⟨0, _⟩ => exact ((dats m 1 c).arrAt_in 0 rfl _).trans (by
          show V1 m c main_arg2 = V2 m c main_arg2
          unfold V2; rw [Function.update_of_ne (by decide), Function.update_of_ne (by decide)])
      | ⟨1, _⟩ =>
          show (dat1 m c).arrAt 1 cfg1.N = V2 m c main_v1_0
          unfold V2; rw [Function.update_of_ne (by decide), Function.update_self]
      | ⟨2, _⟩ =>
          show (dat1 m c).arrAt 2 cfg1.N = V2 m c main_v1_1
          unfold V2; rw [Function.update_self]
    have hrest : (Pipeline.unscopedRest (Ix := Unit) (Name := ℕ) (U := UR sig nD τ) (Lvl := ℕ) spec1 c (V1 m c) : sProp 𝕄)
        = Pipeline.unscopedRest (cfgs 1).spec c (V2 m c) := by
      show Pipeline.unscopedRest spec1 c (V1 m c) = Pipeline.unscopedRest spec1 c (V2 m c)
      rw [unscopedRest1_eq, unscopedRest1_eq]
      unfold V2
      rw [Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide), Function.update_of_ne (by decide)]
    rw [Pipeline.unscopedBufs_split cfgs 1 launch1.win.arr_unscoped launch1.win.arr_inj c (V2 m c), ← hrest,
      show ((dats m 1 c).arrAt · (Pipeline.pin (pcfgs (F := Ideal)) adm 1).N) = fun w => V2 m c (Pipeline.arrRef (cfgs 1).spec w) from funext hA,
      Pipeline.arrays_eq cfgs (dats m) 1 c launch1.arr_whole ((dats m 1 c).share_full fun _ => rfl)]
    iintro ⟨Ha, HO, -, Hr⟩
    imodintro
    isplitr [HO]
    · isplitl [Ha]
      · iexact Ha
      · iexact Hr
    · unfold Pipeline.Dat.owesAt Pipeline.owesWithin
      icases HO with ⟨%W, -, HO⟩; iexists W; iexact HO

set_option backward.isDefEq.respectTransparency.types false in
def reg2 : Pipeline.RegionSeg (pcfgs (F := Ideal)) adm (dats m) () defs₀ Bodies.𝒱₀ L lv 2 where
  win := launch2.win.to₀
  block_pos := launch2.block_pos
  stage_whole := launch2.stage_whole
  K := PEmpty
  osem := fun k => k.elim
  ho := Pipeline.OwnSemFacts.none _
  hbody c := body_obligation2 m c
  hwaits := Pipeline.hwaits_of_owed_zero _ _ _ _ L lv 2 fun _ _ => rfl
  pre c := iprop(unscopedBufs c (V2 m c) ∗ R c)
  post c := iprop(unscopedBufs c (V3 m c) ∗ R c)
  X c := iprop(emp)
  Y c := iprop(emp)
  Z c := Pipeline.unscopedRest (Ix := Unit) (Name := ℕ) (U := UR sig nD τ) (Lvl := ℕ) spec2 c (V2 m c)
  hentry c := by
    have hsplit := Pipeline.arrays_of_unscopedBufs (pcfgs (F := Ideal)) adm (dats m) (p := 2) launch2.win launch2.arr_whole c
      ((dats m 2 c).share_full fun _ => rfl) (V2 m c) fun _ => rfl
    iintro ⟨⟨Hub, HO⟩, -, -⟩
    ihave H := hsplit $$ Hub
    icases H with ⟨Ha, Hr⟩
    imodintro
    isplitl [Ha]; · iexact Ha
    isplitr; · iapply (prefHeld_emp 2 c); iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 2 c).Φ 0 = Pipeline.scopedRest (Ix := Unit) (Name := ℕ) (U := UR sig nD τ) (Lvl := ℕ) (Val := Elt Ideal) spec2 c from rfl]
    iintro ⟨-, -, Hr⟩
    iexact Hr
  hout c := by
    rw [Pipeline.ownSems0_none, show (dats m 2 c).Φ (Fin.last (Pipeline.pin (pcfgs (F := Ideal)) adm 2).N) = Pipeline.scopedRest (Ix := Unit) (Name := ℕ) (U := UR sig nD τ) (Lvl := ℕ) (Val := Elt Ideal) spec2 c from rfl]
    iintro Hr
    isplitr; · iempintro
    isplitr; · iempintro
    iexact Hr
  hexit c := by
    have hA : ∀ w, (dats m 2 c).arrAt w (Pipeline.pin (pcfgs (F := Ideal)) adm 2).N = V3 m c (Pipeline.arrRef (cfgs 2).spec w) := fun w => by
      match w with
      | ⟨0, _⟩ => exact ((dats m 2 c).arrAt_in 0 rfl _).trans (by
          show V2 m c main_v0_0 = V3 m c main_v0_0
          unfold V3; rw [Function.update_of_ne (by decide)])
      | ⟨1, _⟩ => exact ((dats m 2 c).arrAt_in 1 rfl _).trans (by
          show V2 m c main_v1_0 = V3 m c main_v1_0
          unfold V3; rw [Function.update_of_ne (by decide)])
      | ⟨2, _⟩ => exact ((dats m 2 c).arrAt_in 2 rfl _).trans (by
          show V2 m c main_v0_1 = V3 m c main_v0_1
          unfold V3; rw [Function.update_of_ne (by decide)])
      | ⟨3, _⟩ => exact ((dats m 2 c).arrAt_in 3 rfl _).trans (by
          show V2 m c main_v1_1 = V3 m c main_v1_1
          unfold V3; rw [Function.update_of_ne (by decide)])
      | ⟨4, _⟩ =>
          show (dat2 m c).arrAt 4 cfg2.N = V3 m c main_v2
          unfold V3; rw [Function.update_self]
    have hrest : (Pipeline.unscopedRest (Ix := Unit) (Name := ℕ) (U := UR sig nD τ) (Lvl := ℕ) spec2 c (V2 m c) : sProp 𝕄)
        = Pipeline.unscopedRest (cfgs 2).spec c (V3 m c) := by
      show Pipeline.unscopedRest spec2 c (V2 m c) = Pipeline.unscopedRest spec2 c (V3 m c)
      rw [unscopedRest2_eq, unscopedRest2_eq]
      unfold V3
      rw [Function.update_of_ne (by decide), Function.update_of_ne (by decide), Function.update_of_ne (by decide)]
    rw [Pipeline.unscopedBufs_split cfgs 2 launch2.win.arr_unscoped launch2.win.arr_inj c (V3 m c), ← hrest,
      show ((dats m 2 c).arrAt · (Pipeline.pin (pcfgs (F := Ideal)) adm 2).N) = fun w => V3 m c (Pipeline.arrRef (cfgs 2).spec w) from funext hA,
      Pipeline.arrays_eq cfgs (dats m) 2 c launch2.arr_whole ((dats m 2 c).share_full fun _ => rfl)]
    iintro ⟨Ha, HO, -, Hr⟩
    imodintro
    isplitr [HO]
    · isplitl [Ha]
      · iexact Ha
      · iexact Hr
    · unfold Pipeline.Dat.owesAt Pipeline.owesWithin
      icases HO with ⟨%W, -, HO⟩; iexists W; iexact HO

/-! ## The run -/

/-- No pipeline writes an argument, so the last valuation has each at its launch contents. -/
theorem V3_of_ne (c : Dev nD) (b : Ref sig .tc)
    (h : b ≠ main_v2 ∧ b ≠ main_v1_1 ∧ b ≠ main_v1_0 ∧ b ≠ main_v0_1 ∧ b ≠ main_v0_0) : V3 m c b = m ((c : Thread nD τ).loc b) := by
  obtain ⟨h1, h2, h3, h4, h5⟩ := h
  unfold V3 V2 V1
  rw [Function.update_of_ne h1, Function.update_of_ne h2, Function.update_of_ne h3, Function.update_of_ne h4, Function.update_of_ne h5]

/-- The result array in the last valuation is what the third pipeline's write-backs leave. -/
theorem V3_result (c : Dev nD) : V3 m c main_v2 = (dat2 m c).arrAt 4 cfg2.N := by
  unfold V3; rw [Function.update_self]

/-- The rounds library's launch element: every staging cell's owner at round 0 and a duty token for every transfer
    the pipelines issue. -/
def u₀ : UR sig nD τ := initOf (Pipeline.cells (Pipeline.pin (pcfgs (F := Ideal)) adm) cellOf_inj) (Pipeline.launchToks (Pipeline.pin (pcfgs (F := Ideal)) adm) cellOf_inj)

/-- The program as its three regions. -/
abbrev segs : List (Pipeline.Seg (pcfgs (F := Ideal)) adm (dats m) () defs₀ Bodies.𝒱₀ L lv) :=
  [.region (reg0 m), .region (reg1 m), .region (reg2 m)]

set_option backward.isDefEq.respectTransparency.types false in
/-- From any memory with zero counters, every weakly fair execution of the program terminates, the result array
    holding what the third pipeline's write-backs leave and the three arguments what they held. -/
theorem run_blocks (ρ : Dev nD → PrngReg) :
    θ_run defs (onTc (τ := τ) (main (F := Ideal))) ⟨m, fun _ => 0, ρ⟩ (fun r => ∀ c : Dev nD,
      r.2.mem ((c : Thread nD τ).loc main_v2) = (dat2 m c).arrAt 4 cfg2.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_regions_kit (pcfgs (F := Ideal)) adm (dats m) () cellOf_inj EP defs₀ Bodies.𝒱₀ L lv m ρ main (segs m)
    (fun c Q => by rw [main_segs adm (dats m) () Bodies.𝒱₀ L lv (reg0 m) (reg1 m) (reg2 m) c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(unscopedBufs c (V0 m c) ∗ R c)) (Tₙ := fun c => unscopedBufs c (V3 m c))
    (hch := ⟨fun _ => .rfl, fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => s.mem ((c : Thread nD τ).loc main_v2) = (dat2 m c).arrAt 4 cfg2.N
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      unfold unscopedBufs
      iintro ⟨Hh, HSI⟩
      ihave Hr := (pointsTo_read_all (Finset.univ.filter fun b : Ref sig .tc => ¬ b.isScoped) (fun b => (c : Thread nD τ).loc b) (V3 m c) s') $$ [Hh HSI]
      · isplitl [Hh] <;> iassumption
      icases Hr with ⟨%h, HSI⟩
      imodintro
      isplitr
      · ipureintro
        exact ⟨(h main_v2 (Finset.mem_filter.mpr ⟨Finset.mem_univ _, by decide⟩)).trans (V3_result m c),
          (h main_arg0 (Finset.mem_filter.mpr ⟨Finset.mem_univ _, by decide⟩)).trans (V3_of_ne m c main_arg0 (by decide)),
          (h main_arg1 (Finset.mem_filter.mpr ⟨Finset.mem_univ _, by decide⟩)).trans (V3_of_ne m c main_arg1 (by decide)),
          (h main_arg2 (Finset.mem_filter.mpr ⟨Finset.mem_univ _, by decide⟩)).trans (V3_of_ne m c main_arg2 (by decide))⟩
      · iexact HSI)
    (hQ := fun _ h => h)

end Cert.KernelIdeal.Run

end
-- ==== Proof.IdealBlocks2.lean ====
/-
  The third pipeline's blocks read at an entry, and the cover of the result array by its blocks.

  The grid has 98 points. Point t holds the whole projection and all its row norms, bank rows 512·t … 512·t + 511
  and the matching 512 entries of the bank's row norms — at the last point only the first 336 of them lie inside the
  50000 rows — and writes back columns 512·t … of the result, as many as lie inside. So an entry of a moving block
  that the transfer moved is the array's entry 512·t further along the moving axis, and every column of the result
  lies in exactly the block of the point t = column / 512.
-/
import proofs.«132659_j10831907520535_1_alg».proof.Proof.IdealData2
import Idealize.ShloMosaic.Lib.Pipeline.Value

noncomputable section

namespace Cert.KernelIdeal.Run

open Cert.KernelIdeal Cert.KernelIdeal.Gen

open Idealize.ShloMosaic Idealize.ShloMosaic.ValueIdx
open Idealize.ShloMosaic.TcCoe
open Idealize.SL.Sem
open Idealize.ShloMosaic.Pipeline (Dat Cfg Window)

variable (m : (ℓ : Loc nD τ sig) → Buf (Elt Ideal) ℓ)

/-- The block indices of the third pipeline's five windows at each of its 98 points, and how many rows (columns) of the
    moving axis each transfer moves: 512, but 336 at the last point. -/
theorem idx2 : ∀ t : Fin grid2.N,
    win2_0.index t 0 = 0 ∧ win2_0.index t 1 = 0 ∧ win2_1.index t 0 = t.val ∧ win2_1.index t 1 = 0
    ∧ win2_2.index t 0 = 0 ∧ win2_2.index t 1 = 0 ∧ win2_3.index t 0 = 0 ∧ win2_3.index t 1 = t.val
    ∧ win2_4.index t 0 = 0 ∧ win2_4.index t 1 = t.val
    ∧ win2_1.xsize (grid2.coords t) 0 = (if (t.val + 1) * 512 ≤ 50000 then 512 else 50000 - t.val * 512)
    ∧ win2_3.xsize (grid2.coords t) 1 = (if (t.val + 1) * 512 ≤ 50000 then 512 else 50000 - t.val * 512)
    ∧ win2_4.xsize (grid2.coords t) 1 = (if (t.val + 1) * 512 ≤ 50000 then 512 else 50000 - t.val * 512) := by
  decide +kernel

/-- A column the result's transfer moves at point t is a column of the result array. -/
theorem blk2_inb (t : Fin cfg2.N) (n : Nat) (hn : n < win2_4.xsize (grid2.coords t) 1) : t.val * 512 + n < 50000 := by
  have ht : t.val < 98 := lt_of_lt_of_eq t.isLt N_2
  rw [(idx2 t).2.2.2.2.2.2.2.2.2.2.2.2] at hn
  split at hn <;> omega

/-- The three moving windows move the same number of rows (columns) at each point. -/
theorem xsize2_1 (t : Fin cfg2.N) : win2_1.xsize (grid2.coords t) 0 = win2_4.xsize (grid2.coords t) 1 := by
  rw [(idx2 t).2.2.2.2.2.2.2.2.2.2.1, (idx2 t).2.2.2.2.2.2.2.2.2.2.2.2]
theorem xsize2_3 (t : Fin cfg2.N) : win2_3.xsize (grid2.coords t) 1 = win2_4.xsize (grid2.coords t) 1 := by
  rw [(idx2 t).2.2.2.2.2.2.2.2.2.2.2.1, (idx2 t).2.2.2.2.2.2.2.2.2.2.2.2]

/-- The projection's block at any point is the whole array the pipeline finds. -/
theorem tblk_apply (c : Dev nD) (t : Fin cfg2.N) (r : Fin 2048) (k : Fin 1024) :
    tblk m c t (ix2 r k) = (V2 m c main_v0_0 : S2048x1024.Idx → Elt Ideal .bf16) (ix2 r k) := by
  unfold tblk
  refine (win2_0.fill_xinj (grid2.coords t) _ _ (ix2 r k)).trans ?_
  rw [View.read_apply]
  show V2 m c main_v0_0 _ = V2 m c main_v0_0 _
  congr 1
  funext a
  apply Fin.ext
  match a with
  | ⟨0, _⟩ => show win2_0.index t 0 * 2048 + 1 * r.val = r.val; rw [(idx2 t).1]; omega
  | ⟨1, _⟩ => show win2_0.index t 1 * 1024 + 1 * k.val = k.val; rw [(idx2 t).2.1]; omega

/-- The block of the projection's row norms at any point is the whole column the pipeline finds. -/
theorem tnblk_apply (c : Dev nD) (t : Fin cfg2.N) (r : Fin 2048) (z : Fin 1) :
    tnblk m c t (ix2 r z) = (V2 m c main_v0_1 : S2048x1.Idx → Elt Ideal .f32) (ix2 r z) := by
  unfold tnblk
  refine (win2_2.fill_xinj (grid2.coords t) _ _ (ix2 r z)).trans ?_
  rw [View.read_apply]
  show V2 m c main_v0_1 _ = V2 m c main_v0_1 _
  congr 1
  funext a
  apply Fin.ext
  match a with
  | ⟨0, _⟩ => show win2_2.index t 0 * 2048 + 1 * r.val = r.val; rw [(idx2 t).2.2.2.2.1]; omega
  | ⟨1, _⟩ => show win2_2.index t 1 * 1 + 1 * z.val = z.val; rw [(idx2 t).2.2.2.2.2.1]; omega

/-- Row n of the bank rows' block at point t, for a row the fetch moved, is row 512·t + n of the array the pipeline finds. -/
theorem e2blk_apply (c : Dev nD) (t : Fin cfg2.N) (n : Fin 512) (k : Fin 1024) (hn : n.val < win2_4.xsize (grid2.coords t) 1)
    (N : Fin 50000) (hN : N.val = t.val * 512 + n.val) :
    e2blk m c t (ix2 n k) = (V2 m c main_v1_0 : S50000x1024.Idx → Elt Ideal .bf16) (ix2 N k) := by
  have hm : win2_1.moved (grid2.coords t) (ix2 n k) = true := (win2_1.moved_iff _ _).mpr fun a => match a with
    | ⟨0, _⟩ => by show n.val < win2_1.xsize (grid2.coords t) 0; rw [xsize2_1]; exact hn
    | ⟨1, _⟩ => k.isLt
  unfold e2blk Pipeline.Window.fill
  rw [dif_pos hm, View.read_apply]
  show V2 m c main_v1_0 _ = V2 m c main_v1_0 _
  congr 1
  funext a
  apply Fin.ext
  match a with
  | ⟨0, _⟩ => show win2_1.index t 0 * 512 + 1 * n.val = N.val; rw [(idx2 t).2.2.1, hN]; omega
  | ⟨1, _⟩ => show win2_1.index t 1 * 1024 + 1 * k.val = k.val; rw [(idx2 t).2.2.2.1]; omega

/-- Entry n of the bank norms' block at point t, for an entry the fetch moved, is entry 512·t + n of the row the pipeline finds. -/
theorem enblk_apply (c : Dev nD) (t : Fin cfg2.N) (z : Fin 1) (n : Fin 512) (hn : n.val < win2_4.xsize (grid2.coords t) 1)
    (N : Fin 50000) (hN : N.val = t.val * 512 + n.val) :
    enblk m c t (ix2 z n) = (V2 m c main_v1_1 : S1x50000.Idx → Elt Ideal .f32) (ix2 z N) := by
  have hm : win2_3.moved (grid2.coords t) (ix2 z n) = true := (win2_3.moved_iff _ _).mpr fun a => match a with
    | ⟨0, _⟩ => z.isLt
    | ⟨1, _⟩ => by show n.val < win2_3.xsize (grid2.coords t) 1; rw [xsize2_3]; exact hn
  unfold enblk Pipeline.Window.fill
  rw [dif_pos hm, View.read_apply]
  show V2 m c main_v1_1 _ = V2 m c main_v1_1 _
  congr 1
  funext a
  apply Fin.ext
  match a with
  | ⟨0, _⟩ => show win2_3.index t 0 * 1 + 1 * z.val = z.val; rw [(idx2 t).2.2.2.2.2.2.1]; omega
  | ⟨1, _⟩ => show win2_3.index t 1 * 512 + 1 * n.val = N.val; rw [(idx2 t).2.2.2.2.2.2.2.1, hN]; omega

/-- The result's block at point t read out of a whole array: entry (r, n) of the block is entry (r, 512·t + n) of the array. -/
theorem outblk_read (c : Dev nD) (t : Fin cfg2.N) (G : S2048x50000.Idx → Elt Ideal .f32)
    (j : (win2_4.xblock (grid2.coords t)).Idx) (R : Fin 2048) (N : Fin 50000) (hR : R.val = (j 0).val) (hN : N.val = t.val * 512 + (j 1).val) :
    (win2_4.blk t).view.read (Elt Ideal) (G : Buf (Elt Ideal) ((c : Thread nD τ).loc main_v2)) j = G (ix2 R N) := by
  rw [View.read_apply]
  show G _ = G _
  congr 1
  funext a
  apply Fin.ext
  match a with
  | ⟨0, _⟩ => show win2_4.index t 0 * 2048 + 1 * (j 0).val = R.val; rw [(idx2 t).2.2.2.2.2.2.2.2.1, hR]; omega
  | ⟨1, _⟩ => show win2_4.index t 1 * 512 + 1 * (j 1).val = N.val; rw [(idx2 t).2.2.2.2.2.2.2.2.2.1, hN]; omega

/-- Every column of the result lies in the cut block of the point that holds it: columns 512·t … at point t, the last
    point's block ending at column 49999. -/
theorem cover2_4 (i : S2048x50000.Idx) :
    ∃ t : Fin cfg2.N, (cfg2.win 4).flush t = true ∧ i ∈ ((cfg2.win 4).blk t).view.set := by
  have h0 : (i 0).val < 2048 := (i 0).isLt
  have h1 : (i 1).val < 50000 := (i 1).isLt
  obtain ⟨t, ht⟩ : ∃ t : Fin cfg2.N, t.val = (i 1).val / 512 :=
    ⟨⟨(i 1).val / 512, by rw [show cfg2.N = 98 from N_2]; omega⟩, rfl⟩
  refine ⟨t, flush2_4 t, ?_⟩
  show i ∈ ((View.whole main_v2).slice (win2_4.rect t)).set
  rw [View.set_slice_whole, Rect.mem_set_unit]
  intro a
  match a with
  | ⟨0, _⟩ =>
    show win2_4.index t 0 * 2048 ≤ (i 0).val ∧ (i 0).val < win2_4.index t 0 * 2048 + 2048
    rw [(idx2 t).2.2.2.2.2.2.2.2.1]
    omega
  | ⟨1, _⟩ =>
    show win2_4.index t 1 * 512 ≤ (i 1).val ∧ (i 1).val < win2_4.index t 1 * 512 + win2_4.xsize (grid2.coords t) 1
    rw [(idx2 t).2.2.2.2.2.2.2.2.2.1, (idx2 t).2.2.2.2.2.2.2.2.2.2.2.2, ht]
    split <;> omega

end Cert.KernelIdeal.Run

end
-- ==== Proof.IdealArrays0.lean ====
/-
  What the first pipeline leaves in its two result arrays: the projection and its row norms.

  The grid has two points; point t holds rows 1024·t … 1024·t + 1023 of x, all of W, and writes back rows
  1024·t … 1024·t + 1023 of the two results. Row r of point t's block of x is row 1024·t + r of x, so by the body's
  reading at an entry the product block's entry (r, k) is entry (1024·t + r, k) of the projection, and the norm
  column's entry r is the norm of that row. The two points' blocks cover all 2048 rows.
-/
import proofs.«132659_j10831907520535_1_alg».proof.Proof.IdealData0
import proofs.«132659_j10831907520535_1_alg».proof.Proof.IdealPayloads
import Idealize.ShloMosaic.Lib.Pipeline.Value

noncomputable section

namespace Cert.KernelIdeal.Run

open Cert.KernelIdeal Cert.KernelIdeal.Gen Cert.KernelIdeal.Payloads

open Idealize.ShloMosaic Idealize.ShloMosaic.ValueIdx
open Idealize.ShloMosaic.TcCoe
open Idealize.SL.Sem
open Idealize.ShloMosaic.Pipeline (Dat Cfg Window)

variable (m : (ℓ : Loc nD τ sig) → Buf (Elt Ideal) ℓ)

/-- The block indices of the first pipeline's four windows at each of its two points. -/
theorem idx0 : ∀ t : Fin grid0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0 := by
  decide +kernel

/-- Row r of the block of x at point t is row 1024·t + r of x. -/
theorem xblk_apply (c : Dev nD) (t : Fin cfg0.N) (r j : Fin 1024) (R : Fin 2048) (hR : R.val = t.val * 1024 + r.val) :
    xblk m c t (ix2 r j) = (m ((c : Thread nD τ).loc main_arg0) : Cert.Spec.SX.Idx → EReal) (ix2 R j) := by
  unfold xblk
  refine (win0_0.fill_xinj (grid0.coords t) _ _ (ix2 r j)).trans ?_
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = R.val; rw [(idx0 t).1, hR]; omega
  | ⟨1, _⟩ => show win0_0.index t 1 * 1024 + 1 * j.val = j.val; rw [(idx0 t).2.1]; omega

/-- The block of W at either point is W. -/
theorem wblk_apply (c : Dev nD) (t : Fin cfg0.N) (k j : Fin 1024) :
    wblk m c t (ix2 k j) = (m ((c : Thread nD τ).loc main_arg1) : Cert.Spec.SW.Idx → EReal) (ix2 k j) := by
  unfold wblk
  refine (win0_1.fill_xinj (grid0.coords t) _ _ (ix2 k j)).trans ?_
  rw [View.read_apply]
  show m ((c : Thread nD τ).loc main_arg1) _ = m ((c : Thread nD τ).loc main_arg1) _
  congr 1
  funext a
  apply Fin.ext
  match a with
  | ⟨0, _⟩ => show win0_1.index t 0 * 1024 + 1 * k.val = k.val; rw [(idx0 t).2.2.1]; omega
  | ⟨1, _⟩ => show win0_1.index t 1 * 1024 + 1 * j.val = j.val; rw [(idx0 t).2.2.2.1]; omega

/-- Entry (r, k) of the product block at point t is entry (1024·t + r, k) of the projection. -/
theorem prodblk_apply (c : Dev nD) (t : Fin cfg0.N) (r k : Fin 1024) (R : Fin 2048) (hR : R.val = t.val * 1024 + r.val) :
    k0_pay1 (F := Ideal) (xblk m c t) (wblk m c t) (ix2 r k)
      = Cert.Spec.proj (m ((c : Thread nD τ).loc main_arg0)) (m ((c : Thread nD τ).loc main_arg1)) R k := by
  refine (pay0_product _ _ r k).trans ?_
  unfold Cert.Spec.proj
  refine Finset.sum_congr rfl fun j _ => ?_
  rw [xblk_apply m c t r j R hR, wblk_apply m c t k j]

/-- The projection, as the array the first result ends holding. -/
abbrev projArr (c : Dev nD) : Buf (Elt Ideal) ((c : Thread nD τ).loc main_v0_0) :=
  fun i => Cert.Spec.proj (m ((c : Thread nD τ).loc main_arg0)) (m ((c : Thread nD τ).loc main_arg1)) (i 0) (i 1)

/-- The projection's row norms, as the array the second result ends holding. -/
abbrev projNormArr (c : Dev nD) : Buf (Elt Ideal) ((c : Thread nD τ).loc main_v0_1) :=
  fun i => Cert.Spec.projNorm (m ((c : Thread nD τ).loc main_arg0)) (m ((c : Thread nD τ).loc main_arg1)) (i 0)

/-- What point t writes back to the first result is the projection's block there. -/
theorem flushed0_2 (c : Dev nD) (t : Fin cfg0.N) :
    (dat0 m c).flushed 2 t = ((cfg0.win 2).blk t).view.read (Elt Ideal) (projArr m c) := by
  funext y
  rw [View.read_apply]
  obtain ⟨r, k, rfl⟩ : ∃ (r k : Fin 1024), y = ix2 r k := ⟨y 0, y 1, eq_ix2 (n0 := 1024) (n1 := 1024) y⟩
  show k0_pay3 (F := Ideal) (xblk m c t) (wblk m c t) (ix2 r k)
    = Cert.Spec.proj (m ((c : Thread nD τ).loc main_arg0)) (m ((c : Thread nD τ).loc main_arg1))
        ((win0_2.blk t).view.emb (ix2 r k) 0) ((win0_2.blk t).view.emb (ix2 r k) 1)
  rw [pay0_copy]
  have hR : ((win0_2.blk t).view.emb (ix2 r k) 0).val = t.val * 1024 + r.val := by
    show win0_2.index t 0 * 1024 + 1 * r.val = _
    rw [(idx0 t).2.2.2.2.1]; omega
  have hK : (win0_2.blk t).view.emb (ix2 r k) 1 = k := Fin.ext (by
    show win0_2.index t 1 * 1024 + 1 * k.val = _
    rw [(idx0 t).2.2.2.2.2.1]; omega)
  rw [hK]
  exact prodblk_apply m c t r k _ hR

/-- What point t writes back to the second result is the block of the projection's row norms there. -/
theorem flushed0_3 (c : Dev nD) (t : Fin cfg0.N) :
    (dat0 m c).flushed 3 t = ((cfg0.win 3).blk t).view.read (Elt Ideal) (projNormArr m c) := by
  funext y
  rw [View.read_apply]
  obtain ⟨r, z, rfl⟩ : ∃ (r : Fin 1024) (z : Fin 1), y = ix2 r z := ⟨y 0, y 1, eq_ix2 (n0 := 1024) (n1 := 1) y⟩
  show k0_pay2 (F := Ideal) (xblk m c t) (wblk m c t) (ix2 r z)
    = Cert.Spec.projNorm (m ((c : Thread nD τ).loc main_arg0)) (m ((c : Thread nD τ).loc main_arg1))
        ((win0_3.blk t).view.emb (ix2 r z) 0)
  have hR : ((win0_3.blk t).view.emb (ix2 r z) 0).val = t.val * 1024 + r.val := by
    show win0_3.index t 0 * 1024 + 1 * r.val = _
    rw [(idx0 t).2.2.2.2.2.2.1]; omega
  refine (pay0_norm _ _ r z).trans ?_
  unfold Cert.Spec.projNorm
  refine congrArg Ideal.sqrt (Finset.sum_congr rfl fun k _ => ?_)
  rw [prodblk_apply m c t r k _ hR]

/-- Every row of the first result lies in the block of the point that holds it: rows 0…1023 at point 0, rows 1024…2047 at point 1. -/
theorem cover0_2 (i : S2048x1024.Idx) :
    ∃ t : Fin cfg0.N, (cfg0.win 2).flush t = true ∧ i ∈ ((cfg0.win 2).blk t).view.set := by
  have h0 : (i 0).val < 2048 := (i 0).isLt
  have h1 : (i 1).val < 1024 := (i 1).isLt
  obtain ⟨t, ht⟩ : ∃ t : Fin cfg0.N, t.val = (i 0).val / 1024 :=
    ⟨⟨(i 0).val / 1024, by rw [show cfg0.N = 2 from N_0]; omega⟩, rfl⟩
  refine ⟨t, flush0_2 t, ?_⟩
  show i ∈ ((View.whole main_v0_0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(idx0 t).2.2.2.2.1, ht]
    omega
  | ⟨1, _⟩ =>
    show win0_2.index t 1 * 1024 ≤ (i 1).val ∧ (i 1).val < win0_2.index t 1 * 1024 + 1024
    rw [(idx0 t).2.2.2.2.2.1]
    omega

/-- The same for the column of norms. -/
theorem cover0_3 (i : S2048x1.Idx) :
    ∃ t : Fin cfg0.N, (cfg0.win 3).flush t = true ∧ i ∈ ((cfg0.win 3).blk t).view.set := by
  have h0 : (i 0).val < 2048 := (i 0).isLt
  have h1 : (i 1).val < 1 := (i 1).isLt
  obtain ⟨t, ht⟩ : ∃ t : Fin cfg0.N, t.val = (i 0).val / 1024 :=
    ⟨⟨(i 0).val / 1024, by rw [show cfg0.N = 2 from N_0]; omega⟩, rfl⟩
  refine ⟨t, flush0_3 t, ?_⟩
  show i ∈ ((View.whole main_v0_1).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(idx0 t).2.2.2.2.2.2.1, ht]
    omega
  | ⟨1, _⟩ =>
    show win0_3.index t 1 * 1 ≤ (i 1).val ∧ (i 1).val < win0_3.index t 1 * 1 + 1
    rw [(idx0 t).2.2.2.2.2.2.2]
    omega

/-- The first result array ends holding the projection. -/
theorem final0_proj (c : Dev nD) :
    (dat0 m c).arrAt 2 cfg0.N
      = fun i => Cert.Spec.proj (m ((c : Thread nD τ).loc main_arg0)) (m ((c : Thread nD τ).loc main_arg1)) (i 0) (i 1) :=
  (dat0 m c).arrAt_eq_of_cover 2 (projArr m c) (fun t _ => flushed0_2 m c t) cover0_2

/-- The second result array ends holding the projection's row norms. -/
theorem final0_norm (c : Dev nD) :
    (dat0 m c).arrAt 3 cfg0.N
      = fun i => Cert.Spec.projNorm (m ((c : Thread nD τ).loc main_arg0)) (m ((c : Thread nD τ).loc main_arg1)) (i 0) :=
  (dat0 m c).arrAt_eq_of_cover 3 (projNormArr m c) (fun t _ => flushed0_3 m c t) cover0_3

end Cert.KernelIdeal.Run

end
-- ==== Proof.IdealArrays1.lean ====
/-
  What the second pipeline leaves in its two result arrays: the bank itself and the bank's row norms.

  The grid has 49 points; point t holds rows 1024·t … of the bank, 1024 of them except at the last point, whose block
  overhangs the bank's 50000 rows and is cut to the 848 rows inside. Row r of point t's block, for r among the rows the
  fetch moved, is row 1024·t + r of the bank. The copy written back is that row; the norm written back in column r of the
  norm row's block is the norm of that row. The write-backs are cut where the fetches were, and the cut blocks cover
  rows 0 … 49999 exactly.
-/
import proofs.«132659_j10831907520535_1_alg».proof.Proof.IdealData1
import proofs.«132659_j10831907520535_1_alg».proof.Proof.IdealPayloads
import Idealize.ShloMosaic.Lib.Pipeline.Value

noncomputable section

namespace Cert.KernelIdeal.Run

open Cert.KernelIdeal Cert.KernelIdeal.Gen Cert.KernelIdeal.Payloads

open Idealize.ShloMosaic Idealize.ShloMosaic.ValueIdx
open Idealize.ShloMosaic.TcCoe
open Idealize.SL.Sem
open Idealize.ShloMosaic.Pipeline (Dat Cfg Window)

variable (m : (ℓ : Loc nD τ sig) → Buf (Elt Ideal) ℓ)

/-- The block indices of the second pipeline's three windows at each of its 49 points, and how many rows (columns)
    of the moving axis each transfer moves: 1024, but 848 at the last point. -/
theorem idx1 : ∀ t : Fin grid1.N,
    win1_0.index t 0 = t.val ∧ win1_0.index t 1 = 0 ∧ win1_1.index t 0 = t.val ∧ win1_1.index t 1 = 0
    ∧ win1_2.index t 0 = 0 ∧ win1_2.index t 1 = t.val
    ∧ win1_1.xsize (grid1.coords t) 0 = (if (t.val + 1) * 1024 ≤ 50000 then 1024 else 50000 - t.val * 1024)
    ∧ win1_2.xsize (grid1.coords t) 1 = (if (t.val + 1) * 1024 ≤ 50000 then 1024 else 50000 - t.val * 1024) := by
  decide +kernel

/-- The second pipeline finds the bank as the program was given it: the first pipeline wrote other arrays. -/
theorem V1_arg2 (c : Dev nD) : V1 m c main_arg2 = m ((c : Thread nD τ).loc main_arg2) := by
  show Function.update (Function.update (V0 m c) main_v0_0 _) main_v0_1 _ main_arg2 = _
  rw [Function.update_of_ne (by decide), Function.update_of_ne (by decide)]

/-- Row r of the bank's block at point t, for a row the fetch moved, is row 1024·t + r of the bank. -/
theorem eblk_apply (c : Dev nD) (t : Fin cfg1.N) (r k : Fin 1024) (hr : r.val < win1_0.xsize (grid1.coords t) 0)
    (n : Fin 50000) (hn : n.val = t.val * 1024 + r.val) :
    eblk m c t (ix2 r k) = (m ((c : Thread nD τ).loc main_arg2) : Cert.Spec.SE.Idx → EReal) (ix2 n k) := by
  have hm : win1_0.moved (grid1.coords t) (ix2 r k) = true := (win1_0.moved_iff _ _).mpr fun a => match a with
    | ⟨0, _⟩ => hr
    | ⟨1, _⟩ => k.isLt
  unfold eblk Pipeline.Window.fill
  rw [dif_pos hm, View.read_apply]
  show V1 m c main_arg2 _ = _
  rw [V1_arg2]
  congr 1
  funext a
  apply Fin.ext
  match a with
  | ⟨0, _⟩ => show win1_0.index t 0 * 1024 + 1 * r.val = n.val; rw [(idx1 t).1, hn]; omega
  | ⟨1, _⟩ => show win1_0.index t 1 * 1024 + 1 * k.val = k.val; rw [(idx1 t).2.1]; omega

/-- The bank, as the array the first result ends holding. -/
abbrev bankArr (c : Dev nD) : Buf (Elt Ideal) ((c : Thread nD τ).loc main_v1_0) :=
  fun i => (m ((c : Thread nD τ).loc main_arg2) : Cert.Spec.SE.Idx → EReal) i

/-- The bank's row norms, as the array the second result ends holding. -/
abbrev bankNormArr (c : Dev nD) : Buf (Elt Ideal) ((c : Thread nD τ).loc main_v1_1) :=
  fun i => Cert.Spec.bankNorm (m ((c : Thread nD τ).loc main_arg2)) (i 1)

/-- What point t writes back to the first result is the bank's rows there. -/
theorem flushed1_1 (c : Dev nD) (t : Fin cfg1.N) :
    (dat1 m c).flushed 1 t = ((cfg1.win 1).blk t).view.read (Elt Ideal) (bankArr m c) := by
  funext y
  rw [View.read_apply]
  show eblk m c t (win1_1.xinj (grid1.coords t) y)
    = (m ((c : Thread nD τ).loc main_arg2) : Cert.Spec.SE.Idx → EReal) ((win1_1.blk t).view.emb y)
  obtain ⟨r, k, hrk, hr, hk⟩ : ∃ (r k : Fin 1024), win1_1.xinj (grid1.coords t) y = ix2 r k ∧ r.val = (y 0).val ∧ k.val = (y 1).val :=
    ⟨win1_1.xinj _ y 0, win1_1.xinj _ y 1, eq_ix2 (n0 := 1024) (n1 := 1024) _, rfl, rfl⟩
  have hn : ((win1_1.blk t).view.emb y 0).val = t.val * 1024 + r.val := by
    show win1_1.index t 0 * 1024 + 1 * (y 0).val = _
    rw [(idx1 t).2.2.1, hr]; omega
  rw [hrk, eblk_apply m c t r k (by rw [hr]; exact (y 0).isLt) _ hn]
  refine congrArg _ (funext fun a => Fin.ext ?_)
  match a with
  | ⟨0, _⟩ => rfl
  | ⟨1, _⟩ =>
    show k.val = win1_1.index t 1 * 1024 + 1 * (y 1).val
    rw [(idx1 t).2.2.2.1, hk]; omega

/-- What point t writes back to the second result is the block of the bank's row norms there. -/
theorem flushed1_2 (c : Dev nD) (t : Fin cfg1.N) :
    (dat1 m c).flushed 2 t = ((cfg1.win 2).blk t).view.read (Elt Ideal) (bankNormArr m c) := by
  funext y
  rw [View.read_apply]
  show k1_pay1 (F := Ideal) (eblk m c t) (win1_2.xinj (grid1.coords t) y)
    = Cert.Spec.bankNorm (m ((c : Thread nD τ).loc main_arg2)) ((win1_2.blk t).view.emb y 1)
  obtain ⟨z, r, hzr, hr⟩ : ∃ (z : Fin 1) (r : Fin 1024), win1_2.xinj (grid1.coords t) y = ix2 z r ∧ r.val = (y 1).val :=
    ⟨win1_2.xinj _ y 0, win1_2.xinj _ y 1, eq_ix2 (n0 := 1) (n1 := 1024) _, rfl⟩
  have hn : ((win1_2.blk t).view.emb y 1).val = t.val * 1024 + r.val := by
    show win1_2.index t 1 * 1024 + 1 * (y 1).val = _
    rw [(idx1 t).2.2.2.2.2.1, hr]; omega
  rw [hzr]
  refine (pay1_norm _ z r).trans ?_
  unfold Cert.Spec.bankNorm
  refine congrArg Ideal.sqrt (Finset.sum_congr rfl fun k _ => ?_)
  rw [eblk_apply m c t r k (by rw [hr]; exact (y 1).isLt) _ hn]

/-- Every row of the bank lies in the cut block of the point that holds it: rows 1024·t … at point t, the last
    point's block ending at row 49999. -/
theorem cover1_1 (i : S50000x1024.Idx) :
    ∃ t : Fin cfg1.N, (cfg1.win 1).flush t = true ∧ i ∈ ((cfg1.win 1).blk t).view.set := by
  have h0 : (i 0).val < 50000 := (i 0).isLt
  have h1 : (i 1).val < 1024 := (i 1).isLt
  obtain ⟨t, ht⟩ : ∃ t : Fin cfg1.N, t.val = (i 0).val / 1024 :=
    ⟨⟨(i 0).val / 1024, by rw [show cfg1.N = 49 from N_1]; omega⟩, rfl⟩
  refine ⟨t, flush1_1 t, ?_⟩
  show i ∈ ((View.whole main_v1_0).slice (win1_1.rect t)).set
  rw [View.set_slice_whole, Rect.mem_set_unit]
  intro a
  match a with
  | ⟨0, _⟩ =>
    show win1_1.index t 0 * 1024 ≤ (i 0).val ∧ (i 0).val < win1_1.index t 0 * 1024 + win1_1.xsize (grid1.coords t) 0
    rw [(idx1 t).2.2.1, (idx1 t).2.2.2.2.2.2.1, ht]
    split <;> omega
  | ⟨1, _⟩ =>
    show win1_1.index t 1 * 1024 ≤ (i 1).val ∧ (i 1).val < win1_1.index t 1 * 1024 + 1024
    rw [(idx1 t).2.2.2.1]
    omega

/-- The same for the row of norms. -/
theorem cover1_2 (i : S1x50000.Idx) :
    ∃ t : Fin cfg1.N, (cfg1.win 2).flush t = true ∧ i ∈ ((cfg1.win 2).blk t).view.set := by
  have h0 : (i 0).val < 1 := (i 0).isLt
  have h1 : (i 1).val < 50000 := (i 1).isLt
  obtain ⟨t, ht⟩ : ∃ t : Fin cfg1.N, t.val = (i 1).val / 1024 :=
    ⟨⟨(i 1).val / 1024, by rw [show cfg1.N = 49 from N_1]; omega⟩, rfl⟩
  refine ⟨t, flush1_2 t, ?_⟩
  show i ∈ ((View.whole main_v1_1).slice (win1_2.rect t)).set
  rw [View.set_slice_whole, Rect.mem_set_unit]
  intro a
  match a with
  | ⟨0, _⟩ =>
    show win1_2.index t 0 * 1 ≤ (i 0).val ∧ (i 0).val < win1_2.index t 0 * 1 + 1
    rw [(idx1 t).2.2.2.2.1]
    omega
  | ⟨1, _⟩ =>
    show win1_2.index t 1 * 1024 ≤ (i 1).val ∧ (i 1).val < win1_2.index t 1 * 1024 + win1_2.xsize (grid1.coords t) 1
    rw [(idx1 t).2.2.2.2.2.1, (idx1 t).2.2.2.2.2.2.2, ht]
    split <;> omega

/-- The first result array ends holding the bank. -/
theorem final1_bank (c : Dev nD) :
    (dat1 m c).arrAt 1 cfg1.N = fun i => (m ((c : Thread nD τ).loc main_arg2) : Cert.Spec.SE.Idx → EReal) i :=
  (dat1 m c).arrAt_eq_of_cover 1 (bankArr m c) (fun t _ => flushed1_1 m c t) cover1_1

/-- The second result array ends holding the bank's row norms. -/
theorem final1_norm (c : Dev nD) :
    (dat1 m c).arrAt 2 cfg1.N = fun i => Cert.Spec.bankNorm (m ((c : Thread nD τ).loc main_arg2)) (i 1) :=
  (dat1 m c).arrAt_eq_of_cover 2 (bankNormArr m c) (fun t _ => flushed1_2 m c t) cover1_2

end Cert.KernelIdeal.Run

end
-- ==== Proof.IdealArrays1b.lean ====
/-
  What the third pipeline finds in the four arrays the first two pipelines wrote.

  When the similarity pipeline starts, the core's buffers are the program's arguments with the first pipeline's two
  results (the projection and its row norms) and the second pipeline's two results (the bank and its row norms)
  written over their arrays, each of which is a different buffer. So each of the four arrays holds its closed form.
-/
import proofs.«132659_j10831907520535_1_alg».proof.Proof.IdealData2
import proofs.«132659_j10831907520535_1_alg».proof.Proof.IdealArrays0
import proofs.«132659_j10831907520535_1_alg».proof.Proof.IdealArrays1

noncomputable section

namespace Cert.KernelIdeal.Run

open Cert.KernelIdeal Cert.KernelIdeal.Gen

open Idealize.ShloMosaic Idealize.ShloMosaic.ValueIdx
open Idealize.ShloMosaic.TcCoe
open Idealize.SL.Sem
open Idealize.ShloMosaic.Pipeline (Dat Cfg Window)

variable (m : (ℓ : Loc nD τ sig) → Buf (Elt Ideal) ℓ)

/-- The third pipeline finds the projection in the first pipeline's first result. -/
theorem V2_proj (c : Dev nD) :
    V2 m c main_v0_0
      = fun i => Cert.Spec.proj (m ((c : Thread nD τ).loc main_arg0)) (m ((c : Thread nD τ).loc main_arg1)) (i 0) (i 1) := by
  show Function.update (Function.update (Function.update (Function.update (V0 m c) main_v0_0 _) main_v0_1 _) main_v1_0 _) main_v1_1 _ main_v0_0 = _
  rw [Function.update_of_ne (by decide), Function.update_of_ne (by decide), Function.update_of_ne (by decide), Function.update_self]
  exact final0_proj m c

/-- … its row norms in the first pipeline's second result, -/
theorem V2_projNorm (c : Dev nD) :
    V2 m c main_v0_1
      = fun i => Cert.Spec.projNorm (m ((c : Thread nD τ).loc main_arg0)) (m ((c : Thread nD τ).loc main_arg1)) (i 0) := by
  show Function.update (Function.update (Function.update (Function.update (V0 m c) main_v0_0 _) main_v0_1 _) main_v1_0 _) main_v1_1 _ main_v0_1 = _
  rw [Function.update_of_ne (by decide), Function.update_of_ne (by decide), Function.update_self]
  exact final0_norm m c

/-- … the bank in the second pipeline's first result, -/
theorem V2_bank (c : Dev nD) :
    V2 m c main_v1_0 = fun i => (m ((c : Thread nD τ).loc main_arg2) : Cert.Spec.SE.Idx → EReal) i := by
  show Function.update (Function.update (Function.update (Function.update (V0 m c) main_v0_0 _) main_v0_1 _) main_v1_0 _) main_v1_1 _ main_v1_0 = _
  rw [Function.update_of_ne (by decide), Function.update_self]
  exact final1_bank m c

/-- … and the bank's row norms in its second. -/
theorem V2_bankNorm (c : Dev nD) :
    V2 m c main_v1_1 = fun i => Cert.Spec.bankNorm (m ((c : Thread nD τ).loc main_arg2)) (i 1) := by
  show Function.update (Function.update (Function.update (Function.update (V0 m c) main_v0_0 _) main_v0_1 _) main_v1_0 _) main_v1_1 _ main_v1_1 = _
  rw [Function.update_self]
  exact final1_norm m c

end Cert.KernelIdeal.Run

end
-- ==== Proof.IdealArrays2.lean ====
/-
  What the third pipeline leaves in the result array: the specification.

  Point t writes back columns 512·t … of the result, as many as lie inside the 50000. Entry (r, n) of its block, for a
  column n the transfer moves, is the body's quotient over row r of the projection block, row n of the bank rows' block,
  entry r of the projection's norms and entry n of the bank norms' block. The projection and its norms are whole; row n
  and entry n of the moving blocks are row and entry N = 512·t + n of the bank and of its norms, both moved by their
  fetches since column n is moved. With the arrays the first two pipelines left — the projection, its row norms, the bank,
  its row norms — that quotient is the specification's entry (r, N). The cut blocks cover all 50000 columns.
-/
import proofs.«132659_j10831907520535_1_alg».proof.Proof.IdealBlocks2
import proofs.«132659_j10831907520535_1_alg».proof.Proof.IdealArrays1b
import proofs.«132659_j10831907520535_1_alg».proof.Proof.IdealPayloads

noncomputable section

namespace Cert.KernelIdeal.Run

open Cert.KernelIdeal Cert.KernelIdeal.Gen Cert.KernelIdeal.Payloads

open Idealize.ShloMosaic Idealize.ShloMosaic.ValueIdx
open Idealize.ShloMosaic.TcCoe
open Idealize.SL.Sem
open Idealize.ShloMosaic.Pipeline (Dat Cfg Window)

variable (m : (ℓ : Loc nD τ sig) → Buf (Elt Ideal) ℓ)

/-- The specification of the program's three arguments, as the array the result ends holding. -/
abbrev cosArr (c : Dev nD) : Buf (Elt Ideal) ((c : Thread nD τ).loc main_v2) :=
  fun i => Cert.Spec.cosSim (m ((c : Thread nD τ).loc main_arg0)) (m ((c : Thread nD τ).loc main_arg1))
    (m ((c : Thread nD τ).loc main_arg2)) i

/-- What point t writes back to the result is the specification's block there. -/
theorem flushed2_4 (c : Dev nD) (t : Fin cfg2.N) :
    (dat2 m c).flushed 4 t = ((cfg2.win 4).blk t).view.read (Elt Ideal) (cosArr m c) := by
  funext y
  obtain ⟨r, n, hrn, hr, hn⟩ : ∃ (r : Fin 2048) (n : Fin 512),
      win2_4.xinj (grid2.coords t) y = ix2 r n ∧ r.val = (y 0).val ∧ n.val = (y 1).val :=
    ⟨win2_4.xinj _ y 0, win2_4.xinj _ y 1, eq_ix2 (n0 := 2048) (n1 := 512) _, rfl, rfl⟩
  have hnlt : n.val < win2_4.xsize (grid2.coords t) 1 := by rw [hn]; exact (y 1).isLt
  obtain ⟨N, hN⟩ : ∃ N : Fin 50000, N.val = t.val * 512 + n.val := ⟨⟨t.val * 512 + n.val, blk2_inb t n.val hnlt⟩, rfl⟩
  show k2_pay1 (F := Ideal) (tblk m c t) (e2blk m c t) (tnblk m c t) (enblk m c t) (win2_4.xinj (grid2.coords t) y)
    = (win2_4.blk t).view.read (Elt Ideal) (cosArr m c) y
  rw [outblk_read c t (cosArr m c) y r N hr (by rw [hN, hn]), hrn, pay2_apply]
  show _ = Cert.Spec.cosAt (m ((c : Thread nD τ).loc main_arg0)) (m ((c : Thread nD τ).loc main_arg1))
    (m ((c : Thread nD τ).loc main_arg2)) r N
  unfold Cert.Spec.cosAt
  rw [tnblk_apply, enblk_apply m c t 0 n hnlt N hN, V2_projNorm, V2_bankNorm]
  refine congrArg₂ Ideal.div (Finset.sum_congr rfl fun k _ => ?_) rfl
  rw [tblk_apply, e2blk_apply m c t n k hnlt N hN, V2_proj, V2_bank]
  rfl

/-- The result array ends holding the specification of the three arguments. -/
theorem final2 (c : Dev nD) :
    (dat2 m c).arrAt 4 cfg2.N
      = Cert.Spec.cosSim (m ((c : Thread nD τ).loc main_arg0)) (m ((c : Thread nD τ).loc main_arg1))
          (m ((c : Thread nD τ).loc main_arg2)) :=
  (dat2 m c).arrAt_eq_of_cover 4 (cosArr m c) (fun t _ => flushed2_4 m c t) cover2_4

end Cert.KernelIdeal.Run

end
-- ==== Proof.IdealRun.lean ====
/-
  The value the program computes at the ideal values: from any memory, every execution terminates with the result
  array holding the similarity of every projected row against every bank row, and the three arguments unchanged.
-/
import proofs.«132659_j10831907520535_1_alg».proof.Proof.IdealRegions
import proofs.«132659_j10831907520535_1_alg».proof.Proof.IdealArrays2

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The run of the whole program, its result in closed form. -/
theorem run_value (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v2)
            = Cert.Spec.cosSim (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run defs _ _).mono (fun _ h c => ⟨(h c).1.trans (final2 m c), (h c).2⟩) (run_blocks m ρ)

end Cert.KernelIdeal.Run

end
-- ==== Proof.RefValue.lean ====
/-
  The reference program, read at the extended reals, is the specification.

  The reference forms t = x·Wᵀ by transposing W and contracting x's second axis with the transpose's first, so its
  entry (r, k) is Σ_j x(r,j)·W(k,j): the specification's projection. Each norm is a square root of a row's sum of
  squares started from the constant 0 (0 + Σ = Σ). The dot products against the bank contract t's second axis with
  the first axis of the bank's transpose: Σ_k t(r,k)·e(n,k). The two norms are spread over the 2048×50000 result by
  broadcasts through a unit axis, multiplied, bounded below by ε, and divide the dot product.
  Every step is a reading of one operation at an index; no law beyond 0 + s = s is used.
-/
import proofs.«132659_j10831907520535_1_alg».proof.Proof.Spec
import proofs.«132659_j10831907520535_1_alg».proof.Proof.Gen.ReferenceIdeal.Read

noncomputable section

namespace Cert.ReferenceIdeal.RefValue

open Idealize.ShloMosaic Idealize.ShloMosaic.ValueIdx Cert.ReferenceIdeal Cert.ReferenceIdeal.Read Cert.Spec

/-- Entry (r, k) of the reference's first contraction is the projection's. -/
theorem proj_eq (x : SX.Idx → EReal) (W : SW.Idx → EReal) (r : Fin 2048) (k : Fin 1024) :
    val_main_v1 (F := Ideal) x W (ix2 r k) = proj x W r k := by
  rw [val_main_v1_apply]
  unfold proj
  refine Finset.sum_congr rfl fun j _ => ?_
  rw [val_main_v0_apply]
  have el : lidx_main_v1 (ix2 r k) j = ix2 r j :=
    funext fun a => by match a with | ⟨0, _⟩ => rfl | ⟨1, _⟩ => rfl
  have er : idx_main_v0 (ridx_main_v1 (ix2 r k) j) = ix2 k j :=
    funext fun a => by match a with | ⟨0, _⟩ => rfl | ⟨1, _⟩ => rfl
  rw [el, er]

/-- The reference's norm of row r of the projection. -/
theorem projNorm_eq (x : SX.Idx → EReal) (W : SW.Idx → EReal) (r : Fin 2048) :
    val_main_v2 (F := Ideal) x W (ix1 r) = projNorm x W r := by
  rw [val_main_v2_apply, Ideal.hostUnary_sqrt_def, val_main_call0_v1_apply, val_main_call0_cst_apply,
    Ideal.ofBits_def, Ideal.ofBits_zero_f32, zero_add]
  unfold projNorm
  refine congrArg Ideal.sqrt (Finset.sum_congr rfl fun k _ => ?_)
  have e : idx_main_call0_v1 (ix1 r) k = ix2 r k :=
    funext fun a => by match a with | ⟨0, _⟩ => rfl | ⟨1, _⟩ => rfl
  rw [val_main_call0_v0_apply, Ideal.mulf_def, e, proj_eq]

/-- The reference's norm of row n of the bank. -/
theorem bankNorm_eq (e : SE.Idx → EReal) (n : Fin 50000) :
    val_main_v3 (F := Ideal) e (ix1 n) = bankNorm e n := by
  rw [val_main_v3_apply, Ideal.hostUnary_sqrt_def, val_main_call1_v1_apply, val_main_call1_cst_apply,
    Ideal.ofBits_def, Ideal.ofBits_zero_f32, zero_add]
  unfold bankNorm
  refine congrArg Ideal.sqrt (Finset.sum_congr rfl fun k _ => ?_)
  have h : idx_main_call1_v1 (ix1 n) k = ix2 n k :=
    funext fun a => by match a with | ⟨0, _⟩ => rfl | ⟨1, _⟩ => rfl
  rw [val_main_call1_v0_apply, Ideal.mulf_def, h]

/-- Entry (r, n) of the reference's second contraction: projected row r against bank row n. -/
theorem dots_eq (x : SX.Idx → EReal) (W : SW.Idx → EReal) (e : SE.Idx → EReal) (r : Fin 2048) (n : Fin 50000) :
    val_main_v5 (F := Ideal) x W e (ix2 r n) = ∑ k : Fin 1024, proj x W r k * e (ix2 n k) := by
  rw [val_main_v5_apply]
  refine Finset.sum_congr rfl fun k _ => ?_
  rw [val_main_v4_apply]
  have el : lidx_main_v5 (ix2 r n) k = ix2 r k :=
    funext fun a => by match a with | ⟨0, _⟩ => rfl | ⟨1, _⟩ => rfl
  have er : idx_main_v4 (ridx_main_v5 (ix2 r n) k) = ix2 n k :=
    funext fun a => by match a with | ⟨0, _⟩ => rfl | ⟨1, _⟩ => rfl
  rw [el, er, proj_eq]

/-- Entry (r, n) of the reference's bounded product of norms. -/
theorem denom_eq (x : SX.Idx → EReal) (W : SW.Idx → EReal) (e : SE.Idx → EReal) (r : Fin 2048) (n : Fin 50000) :
    val_main_v12 (F := Ideal) x W e (ix2 r n)
      = max (projNorm x W r * bankNorm e n) (Ideal.ofBits .f32 0x358637BD#32) := by
  rw [val_main_v12_apply, Ideal.maximumf_def, val_main_v10_apply, Ideal.mulf_def, val_main_v8_apply, val_main_v6_apply,
    val_main_v9_apply, val_main_v7_apply, val_main_v11_apply, val_main_cst_apply, Ideal.ofBits_def]
  have e0 : idx_main_v6 (idx_main_v8 (ix2 r n)) = ix1 r :=
    funext fun a => by match a with | ⟨0, _⟩ => rfl
  have e1 : idx_main_v7 (idx_main_v9 (ix2 r n)) = ix1 n :=
    funext fun a => by match a with | ⟨0, _⟩ => rfl
  rw [e0, e1, projNorm_eq, bankNorm_eq]

/-- The reference's result array is the specification's, entry by entry. -/
theorem result_eq (x : SX.Idx → EReal) (W : SW.Idx → EReal) (e : SE.Idx → EReal) :
    val_main_v13 (F := Ideal) x W e = cosSim x W e := by
  funext i
  obtain ⟨r, n, rfl⟩ : ∃ (r : Fin 2048) (n : Fin 50000), i = ix2 r n := ⟨i 0, i 1, eq_ix2 i⟩
  rw [val_main_v13_apply, Ideal.hostDivf_def, dots_eq, denom_eq]
  rfl

end Cert.ReferenceIdeal.RefValue

end
-- ==== Proof.RefClaims.lean ====
/-
  The reference's frame, and the equivalence of the two ideal programs from the kernel's run.

  The reference's run ends with its result at the operations' composed term of the argument arrays and the arguments
  unchanged; dropping the result gives the frame. That composed term is the specification (RefValue). So once the
  kernel's run is known to end with its result at the specification of ITS argument arrays, and the two memories agree
  on the arguments, both results are one array.
-/
import proofs.«132659_j10831907520535_1_alg».proof.Defs
import proofs.«132659_j10831907520535_1_alg».proof.Proof.Gen.KernelIdeal
import proofs.«132659_j10831907520535_1_alg».proof.Proof.Gen.Pre_finite_inputs
import proofs.«132659_j10831907520535_1_alg».proof.Proof.RefValue

noncomputable section

namespace Cert.Proof.RefClaims

open Idealize.ShloMosaic Idealize.ShloMosaic.TcCoe Idealize.SL.Sem

/-- The reference runs and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result named by the specification. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v13)
          = Cert.Spec.cosSim (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono
    (fun _ h c => ⟨(h c).1.trans ((Cert.ReferenceIdeal.Read.val_main_v13_eq _ _ _).trans (Cert.ReferenceIdeal.RefValue.result_eq _ _ _)), (h c).2⟩)
    (Cert.ReferenceIdeal.Value.run (F := Ideal) m ρ)

/-- From a run of the kernel that ends with its result at the specification of its own argument arrays (the
    arguments unchanged), the two ideal programs agree: the reference ends at the specification of ITS arguments,
    which are the kernel's. -/
theorem algebraic_of
    (hk : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v2)
            = Cert.Spec.cosSim (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))) :
    Cert.algebraic_KernelIdeal_ReferenceIdeal := by
  intro m ρ m' ρ' _ hagree
  refine ⟨_, hk m ρ, ?_⟩
  refine (θ_run Cert.ReferenceIdeal.defs _ _).mono (fun _ h c => ⟨(h c).1.trans ?_, (h c).2⟩) (ref_run m' ρ')
  rw [(hagree c).1, (hagree c).2.1, (hagree c).2.2]

end Cert.Proof.RefClaims

end
-- ==== Proof.lean ====
/-
  The fused cosine-similarity kernel against its plain reference.

  For x : 2048×1024, W : 1024×1024 and a bank e : 50000×1024 both programs compute, with t = x·Wᵀ,
    out(r,n) = (Σ_k t(r,k)·e(n,k)) / max (‖t_r‖·‖e_n‖) ε
  (Proof/Spec.lean). The kernel does it in three pipelines: the projection and its row norms, over two blocks of 1024
  rows; a copy of the bank and the bank's row norms, over 49 blocks of 1024 rows, the last cut at row 50000; the
  quotient, over 98 blocks of 512 bank rows, the last cut likewise.
  Proved here:
    • as printed, at the word level, the kernel runs and leaves its three arguments as they were;
    • at the ideal values (extended reals, exact operations, format changes the identity) the kernel's run ends with
      its result array at the specification of its own arguments, the arguments unchanged — its frame there is that
      run with the result dropped;
    • the reference's run ends with its result at its operations' composed term, which read entry by entry is the same
      specification: its frame is that run with the result dropped, and from memories that agree on the arguments the
      two results are one array.
  The ideal reading rewrote no operation of the kernel, so there is nothing to preserve.
-/
import proofs.«132659_j10831907520535_1_alg».proof.Defs
import proofs.«132659_j10831907520535_1_alg».proof.Proof.Gen.Kernel
import proofs.«132659_j10831907520535_1_alg».proof.Proof.Gen.KernelIdeal
import proofs.«132659_j10831907520535_1_alg».proof.Proof.Gen.ReferenceIdeal
import proofs.«132659_j10831907520535_1_alg».proof.Proof.Gen.Pre_finite_inputs
import proofs.«132659_j10831907520535_1_alg».proof.Proof.KernelFrameClaim
import proofs.«132659_j10831907520535_1_alg».proof.Proof.IdealRun
import proofs.«132659_j10831907520535_1_alg».proof.Proof.RefClaims

noncomputable section

namespace Cert.Proof

open Idealize.ShloMosaic Idealize.SL.Sem

/-- Every claim of the certificate: the word-level frame; the ideal kernel's frame, from its run to the specification;
    the reference's frame, from its run; nothing to preserve; and the two ideal programs' agreement, both ending at the
    specification of the arguments they share. -/
theorem claim : Cert.Claim :=
  ⟨Cert.Kernel.Gen.facts, Cert.KernelIdeal.Gen.facts, Cert.ReferenceIdeal.Gen.facts, Cert.Pre_finite_inputs.Gen.facts,
    Cert.Proof.KernelClaims.frame_p,
    fun m ρ _ => (θ_run Cert.KernelIdeal.defs _ _).mono (fun _ h c => (h c).2) (Cert.KernelIdeal.Run.run_value m ρ),
    Cert.Proof.RefClaims.frame_ri,
    trivial,
    Cert.Proof.RefClaims.algebraic_of fun m ρ => Cert.KernelIdeal.Run.run_value m ρ⟩

end Cert.Proof

end
